-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x1536 : Shape := ⟨2, ![256, 1536]⟩
abbrev S256x2048 : Shape := ⟨2, ![256, 2048]⟩
abbrev S256x4096 : Shape := ⟨2, ![256, 4096]⟩
abbrev S4096x4096 : Shape := ⟨2, ![4096, 4096]⟩
abbrev S4096 : Shape := ⟨1, ![4096]⟩
abbrev S32000x4096 : Shape := ⟨2, ![32000, 4096]⟩
abbrev S32000 : Shape := ⟨1, ![32000]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x1536 : S_.BroadcastsInDim S256x1536 (![] : Fin 0 → Fin S256x1536.rank)
  reducesTo_S256x1536_S_d0_1 : S256x1536.ReducesTo [0, 1] S_
  bcast_S_S256x2048 : S_.BroadcastsInDim S256x2048 (![] : Fin 0 → Fin S256x2048.rank)
  reducesTo_S256x2048_S_d0_1 : S256x2048.ReducesTo [0, 1] S_
  bcast_S_S256x4096 : S_.BroadcastsInDim S256x4096 (![] : Fin 0 → Fin S256x4096.rank)
  reducesTo_S256x4096_S_d0_1 : S256x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S32000x4096 : S_.BroadcastsInDim S32000x4096 (![] : Fin 0 → Fin S32000x4096.rank)
  reducesTo_S32000x4096_S_d0_1 : S32000x4096.ReducesTo [0, 1] S_
  bcast_S_S32000 : S_.BroadcastsInDim S32000 (![] : Fin 0 → Fin S32000.rank)
  reducesTo_S32000_S_d0 : S32000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4096 .f32) (main_arg12 : FVec F S32000x4096 .f32) (main_arg13 : FVec F S32000 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S32000x4096 .f32 := Host.absf main_arg12
  let main_cst_22 : FVec F S_ .f32 := constant S_ .f32 0x7F800000#32
  let main_v60 : FVec F S32000x4096 .f32 := broadcastInDim S32000x4096 ![] bcast_S_S32000x4096 main_cst_22
  let main_v61 : IVec S32000x4096 1 := cmpf .olt main_v59 main_v60
  let main_c_23 : IVec S_ 1 := constantI S_ 1 1#1
  let main_v62 : IVec S_ 1 := (fun x v => Host.reduce IntOp.andi x v reducesTo_S32000x4096_S_d0_1 h_S_) main_v61 main_c_23
  let main_v63 : IVec S_ 1 := andi main_v58 main_v62
  let main_v64 : FVec F S32000 .f32 := Host.absf main_arg13
  let main_cst_24 : FVec F S_ .f32 := constant S_ .f32 0x7F800000#32
  let main_v65 : FVec F S32000 .f32 := broadcastInDim S32000 ![] bcast_S_S32000 main_cst_24
  let main_v66 : IVec S32000 1 := cmpf .olt main_v64 main_v65
  let main_c_25 : IVec S_ 1 := constantI S_ 1 1#1
  let main_v67 : IVec S_ 1 := (fun x v => Host.reduce IntOp.andi x v reducesTo_S32000_S_d0 h_S_) main_v66 main_c_25
  fn_part4 (F := F) main_v63 main_v67

def fn_part2 {F : FTy → Type} [FloatOps F] (main_arg7 : FVec F S4096 .f32) (main_arg8 : FVec F S4096x4096 .f32) (main_arg9 : FVec F S4096 .f32) (main_arg10 : FVec F S4096x4096 .f32) (main_arg11 : FVec F S4096 .f32) (main_arg12 : FVec F S32000x4096 .f32) (main_arg13 : FVec F S32000 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_v48 main_v49 main_v50

def fn_part1 {F : FTy → Type} [FloatOps F] (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096 .f32) (main_arg12 : FVec F S32000x4096 .f32) (main_arg13 : FVec F S32000 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S256x512 .f32) (main_arg1 : FVec F S256x1536 .f32) (main_arg2 : FVec F S256x2048 .f32) (main_arg3 : FVec F S256x4096 .f32) (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096 .f32) (main_arg12 : FVec F S32000x4096 .f32) (main_arg13 : FVec F S32000 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x1536 .f32 := Host.absf main_arg1
  let main_cst_0 : FVec F S_ .f32 := constant S_ .f32 0x7F800000#32
  let main_v5 : FVec F S256x1536 .f32 := broadcastInDim S256x1536 ![] bcast_S_S256x1536 main_cst_0
  let main_v6 : IVec S256x1536 1 := cmpf .olt main_v4 main_v5
  let main_c_1 : IVec S_ 1 := constantI S_ 1 1#1
  let main_v7 : IVec S_ 1 := (fun x v => Host.reduce IntOp.andi x v reducesTo_S256x1536_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S256x512 : Shape := ⟨2, ![256, 512]⟩
abbrev S256x1536 : Shape := ⟨2, ![256, 1536]⟩
abbrev S256x2048 : Shape := ⟨2, ![256, 2048]⟩
abbrev S256x4096 : Shape := ⟨2, ![256, 4096]⟩
abbrev S4096x4096 : Shape := ⟨2, ![4096, 4096]⟩
abbrev S4096 : Shape := ⟨1, ![4096]⟩
abbrev S32000x4096 : Shape := ⟨2, ![32000, 4096]⟩
abbrev S32000 : Shape := ⟨1, ![32000]⟩
abbrev S1x4096 : Shape := ⟨2, ![1, 4096]⟩
abbrev S1x32000 : Shape := ⟨2, ![1, 32000]⟩
abbrev S128x4096 : Shape := ⟨2, ![128, 4096]⟩
abbrev S1x128 : Shape := ⟨2, ![1, 128]⟩
abbrev S256x128 : Shape := ⟨2, ![256, 128]⟩
abbrev S256x32000 : Shape := ⟨2, ![256, 32000]⟩
abbrev S2x256x1 : Shape := ⟨3, ![2, 256, 1]⟩
abbrev S640x4096 : Shape := ⟨2, ![640, 4096]⟩
abbrev S1x640 : Shape := ⟨2, ![1, 640]⟩
abbrev S256x640 : Shape := ⟨2, ![256, 640]⟩
abbrev S1x256x1 : Shape := ⟨3, ![1, 256, 1]⟩
abbrev S256x1 : Shape := ⟨2, ![256, 1]⟩
abbrev S256 : Shape := ⟨1, ![256]⟩

abbrev nBuf : Space → Nat
  | .hbm => 39
  | .vmem => 39
  | .smem => 0
  | _ => 0

abbrev bufTy : (tb : Table) → Fin (tcTables nBuf tb) → BufTy
  | .hbm, ⟨0, _⟩ => ⟨S256x512, .f32⟩
  | .hbm, ⟨1, _⟩ => ⟨S256x1536, .f32⟩
  | .hbm, ⟨2, _⟩ => ⟨S256x2048, .f32⟩
  | .hbm, ⟨3, _⟩ => ⟨S256x4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S32000x4096, .f32⟩
  | .hbm, ⟨13, _⟩ => ⟨S32000, .f32⟩
  | .hbm, ⟨14, _⟩ => ⟨S256x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x32000, .f32⟩
  | .hbm, ⟨20, _⟩ => ⟨S256x4096, .f32⟩
  | .hbm, ⟨21, _⟩ => ⟨S256x4096, .f32⟩
  | .hbm, ⟨22, _⟩ => ⟨S256x32000, .f32⟩
  | .hbm, ⟨23, _⟩ => ⟨S2x256x1, .f32⟩
  | .hbm, ⟨24, _⟩ => ⟨S1x256x1, .f32⟩
  | .hbm, ⟨25, _⟩ => ⟨S256x1, .f32⟩
  | .hbm, ⟨26, _⟩ => ⟨S1x256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1, .i1⟩
  | .hbm, ⟨31, _⟩ => ⟨S256x1, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256x32000, .f32⟩
  | .local _ .vmem, ⟨0, _⟩ => ⟨S256x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x4096, .f32⟩
  | .local _ .vmem, ⟨24, _⟩ => ⟨S640x4096, .f32⟩
  | .local _ .vmem, ⟨25, _⟩ => ⟨S640x4096, .f32⟩
  | .local _ .vmem, ⟨26, _⟩ => ⟨S1x640, .f32⟩
  | .local _ .vmem, ⟨27, _⟩ => ⟨S1x640, .f32⟩
  | .local _ .vmem, ⟨28, _⟩ => ⟨S256x640, .f32⟩
  | .local _ .vmem, ⟨29, _⟩ => ⟨S256x640, .f32⟩
  | .local _ .vmem, ⟨30, _⟩ => ⟨S1x256x1, .f32⟩
  | .local _ .vmem, ⟨31, _⟩ => ⟨S1x256x1, .f32⟩
  | .local _ .vmem, ⟨32, _⟩ => ⟨S256x1, .f32⟩
  | .local _ .vmem, ⟨33, _⟩ => ⟨S256x1, .f32⟩
  | .local _ .vmem, ⟨34, _⟩ => ⟨S256x640, .f32⟩
  | .local _ .vmem, ⟨35, _⟩ => ⟨S256x640, .f32⟩
  | .local _ .vmem, ⟨36, _⟩ => ⟨S256x1, .f32⟩
  | .local _ .vmem, ⟨37, _⟩ => ⟨S256x640, .f32⟩
  | .local _ .vmem, ⟨38, _⟩ => ⟨S256x640, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7_0 : Ref sig .tc := ⟨.hbm, 22, rfl⟩
abbrev main_v7_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc1_stg0_0 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_scratch0 : Ref sig .tc := ⟨.vmem, 32, rfl⟩
abbrev cc1_scratch1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg2_1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc1_sem0_0 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem2_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v35 : BitVec 1 := Scalar.cmpi .eq arg1 c24_i32
  let v36 : BitVec 32 := Scalar.extui v35
  let c0_i32_20 : BitVec 32 := 0#32
  let v37 : BitVec 1 := Scalar.cmpi .ne v36 c0_i32_20
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S640x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S256x512_S256x1536_S256x2048_S256x4096_d1 : Shape.Concatenates [S256x512, S256x1536, S256x2048] S256x4096 1
  shapeCasts_S4096_S1x4096 : S4096.ShapeCasts S1x4096
  shapeCasts_S32000_S1x32000 : S32000.ShapeCasts S1x32000
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S640x4096_S640x4096_0_0 : ∀ a, (![0, 0] : Fin 2 → Nat) a + S640x4096.size a ≤ S640x4096.size a
  h_S640x4096 : 0 < S640x4096.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S256x640 : S1x640.Broadcasts S256x640
  inb_S256x640_S256x640_0_0 : ∀ a, (![0, 0] : Fin 2 → Nat) a + S256x640.size a ≤ S256x640.size a
  h_S256x640 : 0 < S256x640.numel
  reduces_S256x640_S256 : S256x640.Reduces [1] S256
  shapeCasts_S256_S256x1 : S256.ShapeCasts S256x1
  broadcasts_S256x1_S256x640 : S256x1.Broadcasts S256x640
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  slices_S2x256x1_S1x256x1_0_0_0 : S2x256x1.Slices ![0, 0, 0] S1x256x1
  slices_S2x256x1_S1x256x1_1_0_0 : S2x256x1.Slices ![1, 0, 0] S1x256x1
  shapeCasts_S256x640_S256x640 : S256x640.ShapeCasts S256x640
  dot_S256x4096_S128x4096_S256x128_1_1_0_0_n_n_wf : DotDims.WF S256x4096 S128x4096 S256x128 [1] [1] [0] [0] [] []
  dot_S256x4096_S640x4096_S256x640_1_1_0_0_n_n_wf : DotDims.WF S256x4096 S640x4096 S256x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .f32 = 32 ∨ (Rect.block (s := S256x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x4096.size a
  hwx0_5 : ∀ i : grid0.Coords, EltTy.bits .f32 = 32 ∨ (Rect.block (s := S1x4096) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x4096.size a
  hwx0_6 : ∀ i : grid0.Coords, EltTy.bits .f32 = 32 ∨ (Rect.block (s := S1x4096) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x4096.size a
  hwx0_7 : ∀ i : grid0.Coords, EltTy.bits .f32 = 32 ∨ (Rect.block (s := S1x4096) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x4096.size a
  hwx0_8 : ∀ i : grid0.Coords, EltTy.bits .f32 = 32 ∨ (Rect.block (s := S1x4096) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x4096.size a
  hwx0_9 : ∀ i : grid0.Coords, EltTy.bits .f32 = 32 ∨ (Rect.block (s := S256x4096) S256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x4096.size a
  hwx0_10 : ∀ i : grid0.Coords, EltTy.bits .f32 = 32 ∨ (Rect.block (s := S256x4096) S256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x4096.size a
  hwx0_11 : ∀ i : grid0.Coords, EltTy.bits .f32 = 32 ∨ (Rect.block (s := S256x4096) S256x128.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .f32 = 32 ∨ (Rect.block (s := S256x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x4096.size a ≤ S32000x4096.size a
  hwx1_1 : ∀ i : grid1.Coords, EltTy.bits .f32 = 32 ∨ (Rect.block (s := S32000x4096) S640x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x640.size a ≤ S1x32000.size a
  hwx1_2 : ∀ i : grid1.Coords, EltTy.bits .f32 = 32 ∨ (Rect.block (s := S1x32000) S1x640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x640.size a ≤ S256x32000.size a
  hwx1_3 : ∀ i : grid1.Coords, EltTy.bits .f32 = 32 ∨ (Rect.block (s := S256x32000) S256x640.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1.size a ≤ S2x256x1.size a
  hwx1_4 : ∀ i : grid1.Coords, EltTy.bits .f32 = 32 ∨ (Rect.block (s := S2x256x1) S1x256x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x640.size a ≤ S256x32000.size a
  hwx2_0 : ∀ i : grid2.Coords, EltTy.bits .f32 = 32 ∨ (Rect.block (s := S256x32000) S256x640.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S256x1.size a
  hwx2_1 : ∀ i : grid2.Coords, EltTy.bits .f32 = 32 ∨ (Rect.block (s := S256x1) S256x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x640.size a ≤ S256x32000.size a
  hwx2_2 : ∀ i : grid2.Coords, EltTy.bits .f32 = 32 ∨ (Rect.block (s := S256x32000) S256x640.size (cc2_transform_2 i) (hinb2_2 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf
def dot_S256x4096_S640x4096_S256x640_1_1_0_0_n_n : DotDims S256x4096 S640x4096 S256x640 where
  lhsContracting := [1]
  rhsContracting := [1]
  lhsNonContracting := [0]
  rhsNonContracting := [0]
  lhsBatch := []
  rhsBatch := []
  wf := dot_S256x4096_S640x4096_S256x640_1_1_0_0_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S256x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v6_1) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S640x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S256x640.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S1x256x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v7_0) S256x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S256x640.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  halias2_2 : Pipeline.Aliased win2 0 2

variable [Facts]
-- ==== ReferenceIdeal.lean ====
abbrev S256x512 : Shape := ⟨2, ![256, 512]⟩
abbrev S256x1536 : Shape := ⟨2, ![256, 1536]⟩
abbrev S256x2048 : Shape := ⟨2, ![256, 2048]⟩
abbrev S256x4096 : Shape := ⟨2, ![256, 4096]⟩
abbrev S4096x4096 : Shape := ⟨2, ![4096, 4096]⟩
abbrev S4096 : Shape := ⟨1, ![4096]⟩
abbrev S32000x4096 : Shape := ⟨2, ![32000, 4096]⟩
abbrev S32000 : Shape := ⟨1, ![32000]⟩
abbrev S16384x4096 : Shape := ⟨2, ![16384, 4096]⟩
abbrev S16384 : Shape := ⟨1, ![16384]⟩
abbrev S4096x16384 : Shape := ⟨2, ![4096, 16384]⟩
abbrev S256x16384 : Shape := ⟨2, ![256, 16384]⟩
abbrev S1x16384 : Shape := ⟨2, ![1, 16384]⟩
abbrev S_ : Shape := ⟨0, ![]⟩
abbrev S4096x32000 : Shape := ⟨2, ![4096, 32000]⟩
abbrev S256x32000 : Shape := ⟨2, ![256, 32000]⟩
abbrev S1x32000 : Shape := ⟨2, ![1, 32000]⟩
abbrev S256 : Shape := ⟨1, ![256]⟩
abbrev S256x1 : Shape := ⟨2, ![256, 1]⟩

abbrev nBuf : Space → Nat
  | .hbm => 76
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x1536, .f32⟩
  | .hbm, ⟨2, _⟩ => ⟨S256x2048, .f32⟩
  | .hbm, ⟨3, _⟩ => ⟨S256x4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S32000x4096, .f32⟩
  | .hbm, ⟨13, _⟩ => ⟨S32000, .f32⟩
  | .hbm, ⟨14, _⟩ => ⟨S256x4096, .f32⟩
  | .hbm, ⟨15, _⟩ => ⟨S16384x4096, .f32⟩
  | .hbm, ⟨16, _⟩ => ⟨S16384, .f32⟩
  | .hbm, ⟨17, _⟩ => ⟨S4096x16384, .f32⟩
  | .hbm, ⟨18, _⟩ => ⟨S256x16384, .f32⟩
  | .hbm, ⟨19, _⟩ => ⟨S1x16384, .f32⟩
  | .hbm, ⟨20, _⟩ => ⟨S256x16384, .f32⟩
  | .hbm, ⟨21, _⟩ => ⟨S256x16384, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S256x4096, .f32⟩
  | .hbm, ⟨27, _⟩ => ⟨S256x4096, .f32⟩
  | .hbm, ⟨28, _⟩ => ⟨S_, .f32⟩
  | .hbm, ⟨29, _⟩ => ⟨S256x4096, .f32⟩
  | .hbm, ⟨30, _⟩ => ⟨S256x4096, .f32⟩
  | .hbm, ⟨31, _⟩ => ⟨S_, .f32⟩
  | .hbm, ⟨32, _⟩ => ⟨S256x4096, .f32⟩
  | .hbm, ⟨33, _⟩ => ⟨S256x4096, .f32⟩
  | .hbm, ⟨34, _⟩ => ⟨S256x4096, .f32⟩
  | .hbm, ⟨35, _⟩ => ⟨S256x4096, .f32⟩
  | .hbm, ⟨36, _⟩ => ⟨S_, .f32⟩
  | .hbm, ⟨37, _⟩ => ⟨S256x4096, .f32⟩
  | .hbm, ⟨38, _⟩ => ⟨S256x4096, .f32⟩
  | .hbm, ⟨39, _⟩ => ⟨S_, .f32⟩
  | .hbm, ⟨40, _⟩ => ⟨S256x4096, .f32⟩
  | .hbm, ⟨41, _⟩ => ⟨S256x4096, .f32⟩
  | .hbm, ⟨42, _⟩ => ⟨S256x4096, .f32⟩
  | .hbm, ⟨43, _⟩ => ⟨S256x4096, .f32⟩
  | .hbm, ⟨44, _⟩ => ⟨S256x4096, .f32⟩
  | .hbm, ⟨45, _⟩ => ⟨S_, .f32⟩
  | .hbm, ⟨46, _⟩ => ⟨S256x4096, .f32⟩
  | .hbm, ⟨47, _⟩ => ⟨S256x4096, .f32⟩
  | .hbm, ⟨48, _⟩ => ⟨S_, .f32⟩
  | .hbm, ⟨49, _⟩ => ⟨S256x4096, .f32⟩
  | .hbm, ⟨50, _⟩ => ⟨S256x4096, .f32⟩
  | .hbm, ⟨51, _⟩ => ⟨S256x4096, .f32⟩
  | .hbm, ⟨52, _⟩ => ⟨S256x4096, .f32⟩
  | .hbm, ⟨53, _⟩ => ⟨S256x4096, .f32⟩
  | .hbm, ⟨54, _⟩ => ⟨S256x4096, .f32⟩
  | .hbm, ⟨55, _⟩ => ⟨S256x4096, .f32⟩
  | .hbm, ⟨56, _⟩ => ⟨S4096x32000, .f32⟩
  | .hbm, ⟨57, _⟩ => ⟨S256x32000, .f32⟩
  | .hbm, ⟨58, _⟩ => ⟨S1x32000, .f32⟩
  | .hbm, ⟨59, _⟩ => ⟨S256x32000, .f32⟩
  | .hbm, ⟨60, _⟩ => ⟨S256x32000, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S256x1, .f32⟩
  | .hbm, ⟨67, _⟩ => ⟨S256x32000, .f32⟩
  | .hbm, ⟨68, _⟩ => ⟨S256x32000, .f32⟩
  | .hbm, ⟨69, _⟩ => ⟨S256x32000, .f32⟩
  | .hbm, ⟨70, _⟩ => ⟨S_, .f32⟩
  | .hbm, ⟨71, _⟩ => ⟨S256, .f32⟩
  | .hbm, ⟨72, _⟩ => ⟨S256x1, .f32⟩
  | .hbm, ⟨73, _⟩ => ⟨S256x1, .f32⟩
  | .hbm, ⟨74, _⟩ => ⟨S256x32000, .f32⟩
  | .hbm, ⟨75, _⟩ => ⟨S256x32000, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_cst : Ref sig .tc := ⟨.hbm, 61, rfl⟩
abbrev main_call0_v0 : Ref sig .tc := ⟨.hbm, 62, rfl⟩
abbrev main_call0_cst_0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_cst_1 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_v41 : Ref sig .tc := ⟨.hbm, 75, rfl⟩

abbrev nD : Nat := 1
abbrev τ : Topo := Topo.v7x

variable {F : FTy → Type} [FloatOps F]

class Facts₀ : Prop where
  concatenates_S256x512_S256x1536_S256x2048_S256x4096_d1 : Shape.Concatenates [S256x512, S256x1536, S256x2048] S256x4096 1
  concatenates_S4096x4096_S4096x4096_S4096x4096_S4096x4096_S16384x4096_d0 : Shape.Concatenates [S4096x4096, S4096x4096, S4096x4096, S4096x4096] S16384x4096 0
  concatenates_S4096_S4096_S4096_S4096_S16384_d0 : Shape.Concatenates [S4096, S4096, S4096, S4096] S16384 0
  transposes_S16384x4096_S4096x16384_1_0 : S16384x4096.Transposes [1, 0] S4096x16384
  bcast_S16384_S1x16384_1 : S16384.BroadcastsInDim S1x16384 (![1] : Fin 1 → Fin S1x16384.rank)
  bcast_S1x16384_S256x16384_0_1 : S1x16384.BroadcastsInDim S256x16384 (![0, 1] : Fin 2 → Fin S256x16384.rank)
  slices_S256x16384_S256x4096_0_0 : S256x16384.Slices ![0, 0] S256x4096
  slices_S256x16384_S256x4096_0_4096 : S256x16384.Slices ![0, 4096] S256x4096
  slices_S256x16384_S256x4096_0_8192 : S256x16384.Slices ![0, 8192] S256x4096
  slices_S256x16384_S256x4096_0_12288 : S256x16384.Slices ![0, 12288] S256x4096
  bcast_S_S256x4096 : S_.BroadcastsInDim S256x4096 (![] : Fin 0 → Fin S256x4096.rank)
  transposes_S32000x4096_S4096x32000_1_0 : S32000x4096.Transposes [1, 0] S4096x32000
  bcast_S32000_S1x32000_1 : S32000.BroadcastsInDim S1x32000 (![1] : Fin 1 → Fin S1x32000.rank)
  bcast_S1x32000_S256x32000_0_1 : S1x32000.BroadcastsInDim S256x32000 (![0, 1] : Fin 2 → Fin S256x32000.rank)
  reducesTo_S256x32000_S256_d1 : S256x32000.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32000_0_1 : S256x1.BroadcastsInDim S256x32000 (![0, 1] : Fin 2 → Fin S256x32000.rank)
  dot_S256x4096_S4096x16384_S256x16384_1_0_0_1_n_n_wf : DotDims.WF S256x4096 S4096x16384 S256x16384 [1] [0] [0] [1] [] []
  dot_S256x4096_S4096x32000_S256x32000_1_0_0_1_n_n_wf : DotDims.WF S256x4096 S4096x32000 S256x32000 [1] [0] [0] [1] [] []

variable [Facts₀]

def dot_S256x4096_S4096x16384_S256x16384_1_0_0_1_n_n : DotDims S256x4096 S4096x16384 S256x16384 where
  lhsContracting := [1]
  rhsContracting := [0]
  lhsNonContracting := [0]
  rhsNonContracting := [1]
  lhsBatch := []
  rhsBatch := []
  wf := dot_S256x4096_S4096x16384_S256x16384_1_0_0_1_n_n_wf
def dot_S256x4096_S4096x32000_S256x32000_1_0_0_1_n_n : DotDims S256x4096 S4096x32000 S256x32000 where
  lhsContracting := [1]
  rhsContracting := [0]
  lhsNonContracting := [0]
  rhsNonContracting := [1]
  lhsBatch := []
  rhsBatch := []
  wf := dot_S256x4096_S4096x32000_S256x32000_1_0_0_1_n_n_wf

class Facts : Prop extends Facts₀ where

variable [Facts]
-- ==== Proof.K.Region0.lean ====
import proofs.«116741_j80522046865747_2_alg».proof.Proof.Gen.Kernel.Launch
import proofs.«116741_j80522046865747_2_alg».proof.Proof.Gen.Kernel.Skeleton
import proofs.«116741_j80522046865747_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the first kernel (the four gates, the new cell and the new hidden state), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the
    block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the
    block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the
    block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: unfetched, the
    block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: unfetched, the
    block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: unfetched, the
    block index has not moved, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: unfetched, the
    block index has not moved, and the body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not: unfetched, the
    block index has not moved, and the body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not: unfetched, the
    block index has not moved, and the body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rA0 : Rect S256x4096 := Rect.unit (s := S256x4096) ![0, 0] S256x4096.size inb_S256x4096_S256x4096_0_0
abbrev rW0 : Rect S128x4096 := Rect.unit (s := S128x4096) ![0, 0] S128x4096.size inb_S128x4096_S128x4096_0_0
abbrev rB0 : Rect S1x128 := Rect.unit (s := S1x128) ![0, 0] S1x128.size inb_S1x128_S1x128_0_0
abbrev rC0 : Rect S256x128 := Rect.unit (s := S256x128) ![0, 0] S256x128.size inb_S256x128_S256x128_0_0

/-- The forget gate, the input gate and the candidate, from the blocks of the concatenated input, the weights and the biases. -/
abbrev gateF (x0 : Vec F S256x4096 .f32) (x1 : Vec F S128x4096 .f32) (x5 : Vec F S1x128 .f32) : FVec F S256x128 .f32 :=
  k0_pay4 (View.ld x0 rA0) (View.ld x1 rW0) (View.ld x5 rB0)
abbrev gateI (x0 : Vec F S256x4096 .f32) (x2 : Vec F S128x4096 .f32) (x6 : Vec F S1x128 .f32) : FVec F S256x128 .f32 :=
  k0_pay5 (View.ld x0 rA0) (View.ld x2 rW0) (View.ld x6 rB0)
abbrev gateC (x0 : Vec F S256x4096 .f32) (x3 : Vec F S128x4096 .f32) (x7 : Vec F S1x128 .f32) : FVec F S256x128 .f32 :=
  k0_pay6 (View.ld x0 rA0) (View.ld x3 rW0) (View.ld x7 rB0)
abbrev gateO (x0 : Vec F S256x4096 .f32) (x4 : Vec F S128x4096 .f32) (x8 : Vec F S1x128 .f32) : FVec F S256x128 .f32 :=
  k0_pay7 (View.ld x0 rA0) (View.ld x4 rW0) (View.ld x8 rB0)

/-- Window 10's staging buffer (the new cell) after the body, from the input windows' blocks: its one store. -/
def out0_10 (x0 : Vec F S256x4096 .f32) (x1 : Vec F S128x4096 .f32) (x2 : Vec F S128x4096 .f32) (x3 : Vec F S128x4096 .f32) (x4 : Vec F S128x4096 .f32) (x5 : Vec F S1x128 .f32) (x6 : Vec F S1x128 .f32) (x7 : Vec F S1x128 .f32) (x8 : Vec F S1x128 .f32) (x9 : Vec F S256x128 .f32) : Vec F S256x128 .f32 :=
  View.canon [⟨rC0, k0_pay1 (gateF x0 x1 x5) (gateI x0 x2 x6) (gateC x0 x3 x7) (View.ld x9 rC0)⟩]

/-- Window 11's staging buffer (the new hidden state) after the body: its one store. -/
def out0_11 (x0 : Vec F S256x4096 .f32) (x1 : Vec F S128x4096 .f32) (x2 : Vec F S128x4096 .f32) (x3 : Vec F S128x4096 .f32) (x4 : Vec F S128x4096 .f32) (x5 : Vec F S1x128 .f32) (x6 : Vec F S1x128 .f32) (x7 : Vec F S1x128 .f32) (x8 : Vec F S1x128 .f32) (x9 : Vec F S256x128 .f32) : Vec F S256x128 .f32 :=
  View.canon [⟨rC0, k0_pay2 (gateF x0 x1 x5) (gateI x0 x2 x6) (gateC x0 x3 x7) (gateO x0 x4 x8) (View.ld x9 rC0)⟩]

/-- A whole-block store covers the buffer. -/
theorem cover0_C (p0 : Vec F S256x128 .f32) (y : S256x128.Idx) :
    ∃ pc ∈ ([⟨rC0, p0⟩] : List (View.Piece (Elt F) S256x128 .f32)), y ∈ pc.1.set :=
  View.cover_of_tiled [⟨rC0, p0⟩] S256x128.size (by rfl) y

set_option maxHeartbeats 4000000 in
/-- The body on whole staging memrefs, the inputs' at read contents `x0 … x9` and the outputs' at anything, runs to
    the continuation holding the inputs' as they were and each output's at `out0_W` of them. -/
theorem sound_kernel0 (c : Dev nD) (E : Set ℕ) (i : grid0.Coords)
    (a0 : Memref sig .tc .vmem S256x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S1x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S256x128 .f32) (ha9 : a9.IsWhole) (a10 : Memref sig .tc .vmem S256x128 .f32) (ha10 : a10.IsWhole) (a11 : Memref sig .tc .vmem S256x128 .f32) (ha11 : a11.IsWhole)
    (x0 : Vec F S256x4096 .f32) (x1 : Vec F S128x4096 .f32) (x2 : Vec F S128x4096 .f32) (x3 : Vec F S128x4096 .f32) (x4 : Vec F S128x4096 .f32) (x5 : Vec F S1x128 .f32) (x6 : Vec F S1x128 .f32) (x7 : Vec F S1x128 .f32) (x8 : Vec F S1x128 .f32) (x9 : Vec F S256x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out0_10 x0 x1 x2 x3 x4 x5 x6 x7 x8 x9) ∗ owns (c : Thread nD τ) a11 fullShare (out0_11 x0 x1 x2 x3 x4 x5 x6 x7 x8 x9)) -∗ K ⟨⟩))
      ⊢ wp frame (wpE (defs₀ (F := F)) Variants.none c none) E (cc0__gates_kernel i a0 ha0 a1 ha1 a2 ha2 a3 ha3 a4 ha4 a5 ha5 a6 ha6 a7 ha7 a8 ha8 a9 ha9 a10 ha10 a11 ha11) K := by
  simp only [cc0__gates_kernel_eq_skeleton]; unfold cc0__gates_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_C _)
  iexists _; isplitr
  swap; · iexact H11
  ipureintro
  exact View.read_writes_eq_canon _ _ _ (cover0_C _)

/-! ## The pipeline's proof data -/

/-- The proof data of the region on core `c`: the arrays as the region finds them; after the body at point `t` each
    input's buffer at its block and each output's at `out0_W` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Base.lean ====
import proofs.«116741_j80522046865747_2_alg».proof.Proof.Gen.Kernel.Launch
import proofs.«116741_j80522046865747_2_alg».proof.Proof.Gen.Kernel.Skeleton
import proofs.«116741_j80522046865747_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the logits blocks and the streaming per-half statistics — what its three control cases share -/

section Blocks
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two branch conditions, decided over the grid -/

/-- The first branch (reset the running statistics) is taken where the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second branch (store the half's log-sum-exp) is taken where the inner coordinate is 24. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the second branch is not taken the last window is idle, and its block is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it is taken the window is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S640x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x640 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x640 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1 .f32 := win1_4.stage (cfg1.slots t 4)
abbrev hs1_4 (t : Fin cfg1.N) : (ms1_4 t).IsWhole := hstage1_4 ((cfg1.slots t 4).cast nbuf1_4)
/-- The two running statistics (maximum, rescaled sum): whole scoped buffers of the kernel's own. -/
abbrev scM1_0 : Memref sig .tc .vmem S256x1 .f32 := Memref.whole cc1_scratch0
abbrev scM1_1 : Memref sig .tc .vmem S256x1 .f32 := Memref.whole cc1_scratch1
/-- Views through which contents are stated (which buffer of the kind does not matter once the writes cover). -/
abbrev VS1_0 : View sig .tc .vmem S256x1 .f32 := scM1_0.view
abbrev VS1_1 : View sig .tc .vmem S256x1 .f32 := scM1_1.view
abbrev VO1_3 : View sig .tc .vmem S256x640 .f32 := (Memref.whole cc1_stg3_0 : Memref sig .tc .vmem S256x640 .f32).view
abbrev VO1_4 : View sig .tc .vmem S1x256x1 .f32 := (Memref.whole cc1_stg4_0 : Memref sig .tc .vmem S1x256x1 .f32).view

/-- Every scoped buffer of the core that is neither a staging buffer of this call nor one of the two statistics, at some contents. -/
abbrev Rest1 (c : Dev nD) : sProp 𝕄 :=
  Pipeline.scopedRestBut (Ix := Unit) (Name := ℕ) (U := UR sig nD τ) (Lvl := ℕ) (Val := Elt F) spec1 c [cc1_scratch0, cc1_scratch1]

/-- The scoped rest with the two statistics split out as memrefs owned at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ Rest1 (F := F) c) := by
  rw [scopedRest1_split]; simp only [scM1_0, scM1_1, owns_whole]; try rfl

end Cert.Kernel.Hand

end
-- ==== Proof.K.Region1RunA.lean ====
import proofs.«116741_j80522046865747_2_alg».proof.Proof.K.Region1Base

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (inner coordinate 0: the statistics are reset first; the half's result is not stored). What the body's stores
    leave in the logits block's buffer and in the two statistics, as pieces (last first), with the body's triple on whole
    memrefs: the inputs at their contents, the logits buffer and the statistics at anything, the last window's buffer
    handed back untouched. -/
noncomputable def kernelRun1_A (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S640x4096 .f32) (x2 : Vec F S1x640 .f32) :
    Σ' (L3 : List (View.Piece (Elt F) S256x640 .f32)) (LS0 : List (View.Piece (Elt F) S256x1 .f32)), { LS1 : List (View.Piece (Elt F) S256x1 .f32) //
      ∀ (xi4 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_logits_kernel i arg2 harg2 arg3 harg3 arg4 harg4 arg5 harg5 arg6 harg6 arg7 harg7 arg8 harg8) K } := by
  refine ⟨?_, ?_, ?_, fun xi4 E K => ?run⟩
  case run =>
    simp only [cc1__stats_logits_kernel_eq_skeleton]; unfold cc1__stats_logits_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.Kernel.Hand

end
-- ==== Proof.K.Region1RunB.lean ====
import proofs.«116741_j80522046865747_2_alg».proof.Proof.K.Region1RunA

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (inner coordinate neither 0 nor 24: the statistics are updated from what the point before left; the half's
    result is not stored). What the body's stores leave in the logits block's buffer and in the two statistics, as
    pieces (last first), with the body's triple on whole memrefs: the inputs at their contents, the statistics at the
    carried contents, the logits buffer at anything, the last window's buffer handed back untouched. -/
noncomputable def kernelRun1_B (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S640x4096 .f32) (x2 : Vec F S1x640 .f32) (xs0 : Vec F S256x1 .f32) (xs1 : Vec F S256x1 .f32) :
    Σ' (L3 : List (View.Piece (Elt F) S256x640 .f32)) (LS0 : List (View.Piece (Elt F) S256x1 .f32)), { LS1 : List (View.Piece (Elt F) S256x1 .f32) //
      ∀ (xi4 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_logits_kernel i arg2 harg2 arg3 harg3 arg4 harg4 arg5 harg5 arg6 harg6 arg7 harg7 arg8 harg8) K } := by
  refine ⟨?_, ?_, ?_, fun xi4 E K => ?run⟩
  case run =>
    simp only [cc1__stats_logits_kernel_eq_skeleton]; unfold cc1__stats_logits_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.Kernel.Hand

end
-- ==== Proof.K.Region1RunC.lean ====
import proofs.«116741_j80522046865747_2_alg».proof.Proof.K.Region1RunB

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (inner coordinate 24: the statistics are updated from what the point before left, then the half's
    log-sum-exp is stored into the last window's buffer). What the body's stores leave in the two output buffers and in
    the two statistics, as pieces (last first), with the body's triple on whole memrefs: the inputs at their contents,
    the statistics at the carried contents, the output buffers at anything. -/
noncomputable def kernelRun1_C (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S640x4096 .f32) (x2 : Vec F S1x640 .f32) (xs0 : Vec F S256x1 .f32) (xs1 : Vec F S256x1 .f32) :
    Σ' (L3 : List (View.Piece (Elt F) S256x640 .f32)) (L4 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_logits_kernel i arg2 harg2 arg3 harg3 arg4 harg4 arg5 harg5 arg6 harg6 arg7 harg7 arg8 harg8) K } := by
  refine ⟨?_, ?_, ?_, ?_, fun E K => ?run⟩
  case run =>
    simp only [cc1__stats_logits_kernel_eq_skeleton]; unfold cc1__stats_logits_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.Region1.lean ====
import proofs.«116741_j80522046865747_2_alg».proof.Proof.K.Region1RunC

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data and the body obligation, at the entry contents `V` -/

/-- Case A's pieces for the logits block's buffer tile it, so they cover it. -/
theorem cover1_A_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) (y : S256x640.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S256x640.size (by sl_kernel_rfl) y

/-- What case A leaves in the logits block's buffer: its pieces read back. -/
def out1_A_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : Vec F S256x640 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for the running maximum tile it, so they cover it. -/
theorem scover1_A_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) (y : S256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S256x1.size (by sl_kernel_rfl) y

/-- What case A leaves in the running maximum: its pieces read back. -/
def sout1_A_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : Vec F S256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for the running sum tile it, so they cover it. -/
theorem scover1_A_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) (y : S256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S256x1.size (by sl_kernel_rfl) y

/-- What case A leaves in the running sum: its pieces read back. -/
def sout1_A_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : Vec F S256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case B's pieces for the logits block's buffer tile it, so they cover it. -/
theorem cover1_B_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) (y : S256x640.Idx) :
    ∃ pc ∈ (kernelRun1_B c i arg2 harg2 arg3 harg3 arg4 harg4 arg5 harg5 arg6 harg6 arg7 harg7 arg8 harg8 hc0 hc1 x0 x1 x2 xs0 xs1).1, y ∈ pc.1.set :=
  View.cover_of_tiledL (kernelRun1_B c i arg2 harg2 arg3 harg3 arg4 harg4 arg5 harg5 arg6 harg6 arg7 harg7 arg8 harg8 hc0 hc1 x0 x1 x2 xs0 xs1).1 S256x640.size (by sl_kernel_rfl) y

/-- What case B leaves in the logits block's buffer: its pieces read back. -/
def out1_B_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : Vec F S256x640 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1).1)

/-- Case B's pieces for the running maximum tile it, so they cover it. -/
theorem scover1_B_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1).2.1, y ∈ pc.1.set :=
  View.cover_of_tiledL (kernelRun1_B c i arg2 harg2 arg3 harg3 arg4 harg4 arg5 harg5 arg6 harg6 arg7 harg7 arg8 harg8 hc0 hc1 x0 x1 x2 xs0 xs1).2.1 S256x1.size (by sl_kernel_rfl) y

/-- What case B leaves in the running maximum: its pieces read back. -/
def sout1_B_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : Vec F S256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1).2.1)

/-- Case B's pieces for the running sum tile it, so they cover it. -/
theorem scover1_B_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 xs0 xs1).2.2.1 S256x1.size (by sl_kernel_rfl) y

/-- What case B leaves in the running sum: its pieces read back. -/
def sout1_B_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : Vec F S256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1).2.2.1)

/-- Case C's pieces for the logits block's buffer tile it, so they cover it. -/
theorem cover1_C_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S256x640.Idx) :
    ∃ pc ∈ (kernelRun1_C c i arg2 harg2 arg3 harg3 arg4 harg4 arg5 harg5 arg6 harg6 arg7 harg7 arg8 harg8 hc0 hc1 x0 x1 x2 xs0 xs1).1, y ∈ pc.1.set :=
  View.cover_of_tiledL (kernelRun1_C c i arg2 harg2 arg3 harg3 arg4 harg4 arg5 harg5 arg6 harg6 arg7 harg7 arg8 harg8 hc0 hc1 x0 x1 x2 xs0 xs1).1 S256x640.size (by sl_kernel_rfl) y

/-- What case C leaves in the logits block's buffer: its pieces read back. -/
def out1_C_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S256x640 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1).1)

/-- Case C's pieces for the half's result buffer tile it, so they cover it. -/
theorem cover1_C_4 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S1x256x1.Idx) :
    ∃ pc ∈ (kernelRun1_C c i arg2 harg2 arg3 harg3 arg4 harg4 arg5 harg5 arg6 harg6 arg7 harg7 arg8 harg8 hc0 hc1 x0 x1 x2 xs0 xs1).2.1, y ∈ pc.1.set :=
  View.cover_of_tiledL (kernelRun1_C c i arg2 harg2 arg3 harg3 arg4 harg4 arg5 harg5 arg6 harg6 arg7 harg7 arg8 harg8 hc0 hc1 x0 x1 x2 xs0 xs1).2.1 S1x256x1.size (by sl_kernel_rfl) y

/-- What case C leaves in the half's result buffer: its pieces read back. -/
def out1_C_4 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S1x256x1 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 xs0 xs1).2.1)

/-- Case C's pieces for the running maximum tile it, so they cover it. -/
theorem scover1_C_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.1 S256x1.size (by sl_kernel_rfl) y

/-- What case C leaves in the running maximum: its pieces read back. -/
def sout1_C_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1).2.2.1)

/-- Case C's pieces for the running sum tile it, so they cover it. -/
theorem scover1_C_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.2.1 S256x1.size (by sl_kernel_rfl) y

/-- What case C leaves in the running sum: its pieces read back. -/
def sout1_C_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1).2.2.2.1)

/-- Where the inner coordinate is 0 it is not 24. -/
theorem ncond1_1_of_0 (t : Fin cfg1.N) (h0 : t.val % 25 = 0) : ¬cond1_1 (grid1.coords t) := fun h => by
  have := (hcond1_1 t).mp h; omega

section Regions
-- the TensorCore's buffer contents when the region is entered
variable (V : (c : Dev nD) → (b : Ref sig .tc) → Buf (Elt F) ((c : Thread nD τ).loc b))

/-! ## The running statistics, point by point -/

/-- The two statistics after point `t`, from what they held before it (`p`): the control case the point is in, run at
    the point's input blocks. Where the inner coordinate is 0 the earlier contents are not read. -/
def scrStep1 (c : Dev nD) (t : Fin cfg1.N) (p : Vec F S256x1 .f32 × Vec F S256x1 .f32) : Vec F S256x1 .f32 × Vec F S256x1 .f32 :=
  if h0 : t.val % 25 = 0 then
    (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t))
  else if h1 : t.val % 25 = 24 then
    (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2)
  else
    (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2)

/-- The two statistics (running maximum, rescaled running sum) after the first `n` points. Before the first point the
    buffers hold what the region finds there, which nothing reads: the value at 0 is a placeholder. -/
def scr1 (c : Dev nD) : ℕ → Vec F S256x1 .f32 × Vec F S256x1 .f32
  | 0 => (k1_pay3, k1_pay4)
  | n + 1 => if hn : n < cfg1.N then scrStep1 V c ⟨n, hn⟩ (scr1 c n) else scr1 c n

theorem scr1_succ (c : Dev nD) (t : Fin cfg1.N) : scr1 V c (t.val + 1) = scrStep1 V c t (scr1 V c t.val) := by
  show (if hn : t.val < cfg1.N then scrStep1 V c ⟨t.val, hn⟩ (scr1 V c t.val) else scr1 V c t.val) = _
  rw [dif_pos t.isLt]

theorem scrStep1_A (c : Dev nD) (t : Fin cfg1.N) (p) (h0 : t.val % 25 = 0) : scrStep1 V c t p =
    (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t)) := dif_pos h0
theorem scrStep1_C (c : Dev nD) (t : Fin cfg1.N) (p) (h0 : ¬t.val % 25 = 0) (h1 : t.val % 25 = 24) : scrStep1 V c t p =
    (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2) := (dif_neg h0).trans (dif_pos h1)
theorem scrStep1_B (c : Dev nD) (t : Fin cfg1.N) (p) (h0 : ¬t.val % 25 = 0) (h1 : ¬t.val % 25 = 24) : scrStep1 V c t p =
    (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2) := (dif_neg h0).trans (dif_neg h1)

/-! ## What the two outputs' buffers hold after each point -/

/-- The logits block's buffer after the body at point `t`. -/
def out3At1 (c : Dev nD) (t : Fin cfg1.N) : Vec F S256x640 .f32 :=
  if h0 : t.val % 25 = 0 then out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t)
  else if h1 : t.val % 25 = 24 then out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (scr1 V c t.val).1 (scr1 V c t.val).2
  else out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (scr1 V c t.val).1 (scr1 V c t.val).2

/-- The half's result buffer after the body at a point of inner coordinate 24, where it is stored (elsewhere the window
    is idle and this is not consulted: the contents are then what the buffer held). -/
def out4At1 (c : Dev nD) (t : Fin cfg1.N) : Vec F S1x256x1 .f32 :=
  if h1 : t.val % 25 = 24 then
    out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => (by have := (hcond1_0 t).mp h; omega : False)) ((hcond1_1 t).mpr h1) (iblk1 V c 0 t) (iblk1 V c 1 t) (iblk1 V c 2 t) (scr1 V c t.val).1 (scr1 V c t.val).2
  else VO1_4.read (Elt F) (VO1_4.writes (Elt F) VO1_4.junk [])

theorem out3At1_A (c : Dev nD) (t : Fin cfg1.N) (h0 : t.val % 25 = 0) : out3At1 V c t = out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t) := dif_pos h0
theorem out3At1_C (c : Dev nD) (t : Fin cfg1.N) (h0 : ¬t.val % 25 = 0) (h1 : t.val % 25 = 24) : out3At1 V c t =
    out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (scr1 V c t.val).1 (scr1 V c t.val).2 := (dif_neg h0).trans (dif_pos h1)
theorem out3At1_B (c : Dev nD) (t : Fin cfg1.N) (h0 : ¬t.val % 25 = 0) (h1 : ¬t.val % 25 = 24) : out3At1 V c t =
    out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (scr1 V c t.val).1 (scr1 V c t.val).2 := (dif_neg h0).trans (dif_neg h1)
theorem out4At1_C (c : Dev nD) (t : Fin cfg1.N) (h0 : ¬t.val % 25 = 0) (h1 : t.val % 25 = 24) : out4At1 V c t =
    out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (scr1 V c t.val).1 (scr1 V c t.val).2 := dif_pos h1

/-! ## The region's invariant -/

/-- Before point `n`: the generator register at some state, every other scoped buffer at some contents, and the two
    statistics at anything before the first point, afterwards at what the points so far left (`scr1`). -/
def Phi1 (c : Dev nD) : ℕ → sProp 𝕄
  | 0 => iprop(iprop(iprop((∃ d, owns (c : Thread nD τ) scM1_0 fullShare d) ∗ (∃ d, owns (c : Thread nD τ) scM1_1 fullShare d)) ∗ Rest1 (F := F) c) ∗ (∃ r, prngReg c r))
  | n + 1 => iprop(iprop(iprop(owns (c : Thread nD τ) scM1_0 fullShare (scr1 V c (n + 1)).1 ∗ owns (c : Thread nD τ) scM1_1 fullShare (scr1 V c (n + 1)).2) ∗ Rest1 (F := F) c) ∗ (∃ r, prngReg c r))

theorem Phi1_zero (c : Dev nD) (n : ℕ) (hz : n = 0) : Phi1 V c n =
    iprop(iprop(iprop((∃ d, owns (c : Thread nD τ) scM1_0 fullShare d) ∗ (∃ d, owns (c : Thread nD τ) scM1_1 fullShare d)) ∗ Rest1 (F := F) c) ∗ (∃ r, prngReg c r)) := by
  subst hz; rfl
theorem Phi1_pos (c : Dev nD) (n : ℕ) (hz : n ≠ 0) : Phi1 V c n =
    iprop(iprop(iprop(owns (c : Thread nD τ) scM1_0 fullShare (scr1 V c n).1 ∗ owns (c : Thread nD τ) scM1_1 fullShare (scr1 V c n).2) ∗ Rest1 (F := F) c) ∗ (∃ r, prngReg c r)) := by
  cases n with
  | zero => exact absurd rfl hz
  | succ n => rfl

/-! ## The proof data -/

/-- The proof data of this pipeline on core `c`: the arrays as the region finds them; after the body at point `t` each
    input's buffer at its block, the logits buffer and the half's result buffer at what the point's case leaves; the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out3At1 V c t
    | ⟨4, _⟩ => out4At1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3At1 V c t := by dsimp only [dat1]
theorem after1_4 (c : Dev nD) (t : Fin cfg1.N) : (dat1 V c).after 4 t = out4At1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-- What the body leaves in each window's buffer, the windows one by one. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (out3At1 V c t) := by
  unfold Dat.leavesExact; rw [liveAt1_3 t, after1_3]
theorem leaves1_4_live (c : Dev nD) (t : Fin cfg1.N) (h : cond1_1 (grid1.coords t)) :
    (dat1 V c).leavesExact 4 t = owns (c : Thread nD τ) (ms1_4 t) fullShare (out4At1 V c t) := by
  unfold Dat.leavesExact; rw [liveAt1_4 t h, after1_4]
theorem leaves1_4_idle (c : Dev nD) (t : Fin cfg1.N) (h : ¬cond1_1 (grid1.coords t)) :
    (dat1 V c).leavesExact 4 t = iprop(∃ d, owns (c : Thread nD τ) (ms1_4 t) fullShare ((dat1 V c).before 4 t d)) :=
  Dat.leavesExact_idle (dat1 V c) 4 t (idleAt1_4 t h) (noFlush1_4 t h)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's inner coordinate says which control case
    it is in; the invariant hands the body the two statistics at what the point before left (at anything before the
    first point), and takes them back at this point's contents; where the half's result is not stored its buffer goes
    back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, Phi1_castSucc, Phi1_pos V c (t.val + 1) (Nat.succ_ne_zero _), scr1_succ]
  rw [leaves1_0, leaves1_1, leaves1_2, leaves1_3]
  have hN : t.val < 50 := lt_of_lt_of_eq t.isLt (show cfg1.N = 50 from N_1)
  by_cases h0 : t.val % 25 = 0
  · rw [leaves1_4_idle V c t (ncond1_1_of_0 t h0), scrStep1_A V c t _ h0, out3At1_A V c t h0]
    unfold out1_A_3 sout1_A_0 sout1_A_1; (try dsimp only)
    by_cases hz : t.val = 0
    · rw [Phi1_zero V c _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (ncond1_1_of_0 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _ _ _)
      iexists _; iexact H4
    · rw [Phi1_pos V c _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (ncond1_1_of_0 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexists _; iexact H3
      isplitl [H4]; · iexact H4
      isplitl [HS0]; · iexists _; iexact HS0
      isplitl [HS1]; · iexists _; iexact HS1
      iintro ⟨H0, H1, H2, ⟨%e3, H3⟩, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _ _ _)
      iexists _; iexact H4
  · have hz : t.val ≠ 0 := fun e => h0 (by rw [e])
    rw [Phi1_pos V c _ hz]
    by_cases h1 : t.val % 25 = 24
    · rw [leaves1_4_live V c t ((hcond1_1 t).mpr h1), scrStep1_C V c t _ h0 h1, out3At1_C V c t h0 h1, out4At1_C V c t h0 h1]
      unfold out1_C_3 out1_C_4 sout1_C_0 sout1_C_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _ _)
    · rw [leaves1_4_idle V c t (fun h => h1 ((hcond1_1 t).mp h)), scrStep1_B V c t _ h0 h1, out3At1_B V c t h0 h1]
      unfold out1_B_3 sout1_B_0 sout1_B_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _ _ _ _)
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is entered with is the invariant before the first point. -/
theorem phi1_in (c : Dev nD) : iprop((∃ r, prngReg c r) ∗ Pipeline.scopedRest (Ix := Unit) (Name := ℕ) (U := UR sig nD τ) (Lvl := ℕ) spec1 c) ⊢ (dat1 V c).Φ 0 := by
  rw [show (dat1 V c).Φ 0 = Phi1 V c 0 from rfl, Phi1_zero V c 0 rfl, scopedRest1_owns]
  iintro ⟨Hg, ⟨⟨HS0, HS1⟩, HR⟩⟩
  isplitl [HS0 HS1 HR]
  · isplitl [HS0 HS1]
    · isplitl [HS0]; · iexact HS0
      iexact HS1
    iexact HR
  iexact Hg

/-- After the last point the invariant gives it back: the statistics' contents are forgotten. -/
theorem phi1_out (c : Dev nD) : (dat1 V c).Φ (Fin.last cfg1.N) ⊢ iprop((∃ r, prngReg c r) ∗ Pipeline.scopedRest (Ix := Unit) (Name := ℕ) (U := UR sig nD τ) (Lvl := ℕ) spec1 c) := by
  rw [show (dat1 V c).Φ (Fin.last cfg1.N) = Phi1 V c (Fin.last cfg1.N).val from rfl,
    Phi1_pos V c _ (by rw [Fin.val_last]; have : cfg1.N = 50 := N_1; omega), scopedRest1_owns]
  iintro ⟨⟨⟨HS0, HS1⟩, HR⟩, Hg⟩
  isplitl [Hg]; · iexact Hg
  isplitl [HS0 HS1]
  · isplitl [HS0]; · iexists _; iexact HS0
    iexists _; iexact HS1
  iexact HR

end Regions

end Cert.Kernel.Hand

end
-- ==== Proof.K.Region2.lean ====
import proofs.«116741_j80522046865747_2_alg».proof.Proof.Gen.Kernel.Launch
import proofs.«116741_j80522046865747_2_alg».proof.Proof.Gen.Kernel.Skeleton
import proofs.«116741_j80522046865747_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the last kernel (subtract the per-row constant), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, the
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, the
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x640 := Rect.unit (s := S256x640) ![0, 0] S256x640.size inb_S256x640_S256x640_0_0
abbrev r2_1 : Rect S256x1 := Rect.unit (s := S256x1) ![0, 0] S256x1.size inb_S256x1_S256x1_0_0

/-- Window 2's staging buffer after the body, from the input windows' blocks: its one store, of the whole block. -/
def out2_2 (x0 : Vec F S256x640 .f32) (x1 : Vec F S256x1 .f32) : Vec F S256x640 .f32 :=
  View.canon [⟨r2_0, k2_pay1 (View.ld x0 r2_0) (View.ld x1 r2_1)⟩]

/-- The store covers the buffer. -/
theorem cover2_2 (p0 : Vec F S256x640 .f32) (y : S256x640.Idx) :
    ∃ pc ∈ ([⟨r2_0, p0⟩] : List (View.Piece (Elt F) S256x640 .f32)), y ∈ pc.1.set :=
  View.cover_of_tiled [⟨r2_0, p0⟩] S256x640.size (by rfl) y

set_option maxHeartbeats 1000000 in
/-- The body on whole staging memrefs, the inputs' at read contents `x0`, `x1` and the output's at anything, runs to
    the continuation holding the inputs' as they were and the output's at `out2_2` of them. -/
theorem sound_kernel2 (c : Dev nD) (E : Set ℕ) (i : grid2.Coords)
    (arg0 : Memref sig .tc .vmem S256x640 .f32) (harg0 : arg0.IsWhole) (arg1 : Memref sig .tc .vmem S256x1 .f32) (harg1 : arg1.IsWhole)
    (arg2 : Memref sig .tc .vmem S256x640 .f32) (harg2 : arg2.IsWhole)
    (x0 : Vec F S256x640 .f32) (x1 : Vec F S256x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__finalize_kernel i arg0 harg0 arg1 harg1 arg2 harg2) K := by
  simp only [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`: the arrays as the region finds them; after the body at point `t` each
    input's buffer at its block and the output's at `out2_2` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the three-kernel LSTM program, from the launch to the return, at any float instance.

  Between two items of the program every unscoped buffer of a core is held at a named valuation: the launch memory, then the
  host operations' results folded in, then — after a kernel region — that region's arrays at what its write-backs leave
  and every other buffer as the region found it. Region 0 computes the new cell and hidden states block by block; region 1
  streams the read-out matrix once, writing the logits and the two half-row log-sum-exps, its running maximum and sum
  carried in two scratch buffers; region 2 subtracts the joined log-sum-exp from the logits. The one theorem proved here
  says that every weakly fair execution terminates and that every unscoped buffer ends at the last valuation; the frame
  claim and the results' values are read off that valuation.
-/
import proofs.«116741_j80522046865747_2_alg».proof.Proof.K.Region0
import proofs.«116741_j80522046865747_2_alg».proof.Proof.K.Region1
import proofs.«116741_j80522046865747_2_alg».proof.Proof.K.Region2

set_option maxRecDepth 16384

noncomputable section

namespace Cert.Kernel.HandRun

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first host stretch: the concatenated input and the biases as rows. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: the new cell and hidden states written block by block. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: the logits and the two halves' log-sum-exps. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: the joined log-sum-exp column and the logits copied into the result's buffer. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: the log-softmax written block by block. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 between the valuations `W1` and `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the valuations `W2` and `W3`; its invariant takes the scoped rest (with the two scratch buffers in
    it) and the generator register in, and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (phi1_in (V2 m ρ) c)
    isplitl [Hp]; · iexact Hp
    iexact Hr
  hout c := by
    rw [Pipeline.ownSems0_none, show (pdats m ρ 1 c).Φ (Fin.last _) = (dat1 (V2 m ρ) c).Φ (Fin.last cfg1.N) from rfl]
    iintro H
    ihave H' := (phi1_out (V2 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the valuations `W4` and `W5`, the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program terminates, nothing faulting, and every unscoped buffer of every core ends at
    the last valuation `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.HandRun

end
-- ==== Proof.K.Reads.lean ====
/-
  What the last valuation of the three-kernel program holds, read back item by item.

  A host stretch leaves every buffer it does not write as it was; a kernel region leaves every buffer that is not one of its
  output windows' arrays as it was (an input window's array is never written, a buffer that is no window's array is not
  touched). So each argument array reaches the end as launched, the new cell and hidden states reach the end as region 0
  wrote them, and the result is what region 2's write-backs leave.
-/
import proofs.«116741_j80522046865747_2_alg».proof.Proof.K.Run
import proofs.«116741_j80522046865747_2_alg».proof.Proof.Gen.Kernel.Regions

set_option maxRecDepth 16384

noncomputable section

namespace Cert.Kernel.HandRun

open Cert.Kernel Cert.Kernel.Gen Cert.Kernel.Hand
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- Region 0 leaves a buffer that is no output window's array as it found it. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩
/-- Region 1 leaves a buffer that is no output window's array as it found it. -/
theorem W3_keep (c : Dev nD) (b : Ref sig .tc) (hb : ∀ w, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w (hb w rfl) _).trans (A_eq1 (V2 m ρ) c w))
  · exact W3_of_ne m ρ c b fun w e => h ⟨w, e⟩
/-- Region 2 leaves a buffer that is no output window's array as it found it. -/
theorem W5_keep (c : Dev nD) (b : Ref sig .tc) (hb : ∀ w, Pipeline.arrRef spec2 w = b → (cfg2.win w).isOut = false) :
    W5 m ρ c (Proc.devRef .tc b) = W4 m ρ c (Proc.devRef .tc b) := by
  by_cases h : ∃ w, Pipeline.arrRef spec2 w = b
  · obtain ⟨w, rfl⟩ := h
    exact (W5_arr m ρ c w).trans (((dat2 (V4 m ρ) c).arrAt_in w (hb w rfl) _).trans (A_eq2 (V4 m ρ) c w))
  · exact W5_of_ne m ρ c b fun w e => h ⟨w, e⟩
/-- The first host stretch leaves a buffer it does not write as launched. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
/-- The second host stretch leaves a buffer it does not write as region 1 left it. -/
theorem W4_keep (c : Dev nD) (b : Ref sig .tc) (hb : b ∉ hostOps2_W) :
    W4 m ρ c (Proc.devRef .tc b) = W3 m ρ c (Proc.devRef .tc b) :=
  StableHlo.after_of_writes_sub hostOps2 _ hostOps2_writes hb

/-- A buffer no item writes reaches the end as launched. -/
theorem W5_untouched (c : Dev nD) (b : Ref sig .tc)
    (h5 : ∀ w, Pipeline.arrRef spec2 w = b → (cfg2.win w).isOut = false) (h4 : b ∉ hostOps2_W)
    (h3 : ∀ w, Pipeline.arrRef spec1 w = b → (cfg1.win w).isOut = false)
    (h2 : ∀ w, Pipeline.arrRef spec0 w = b → (cfg0.win w).isOut = false) (h1 : b ∉ hostOps0_W) :
    W5 m ρ c (Proc.devRef .tc b) = m ((c : Thread nD τ).loc b) :=
  (W5_keep m ρ c b h5).trans <| (W4_keep m ρ c b h4).trans <| (W3_keep m ρ c b h3).trans <| (W2_keep m ρ c b h2).trans <|
    (W1_keep m ρ c b h1).trans rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)
theorem W5_main_arg9 (c : Dev nD) : W5 m ρ c (Proc.devRef .tc main_arg9) = m ((c : Thread nD τ).loc main_arg9) :=
  W5_untouched m ρ c main_arg9 (by decide) (by decide) (by decide) (by decide) (by decide)
theorem W5_main_arg10 (c : Dev nD) : W5 m ρ c (Proc.devRef .tc main_arg10) = m ((c : Thread nD τ).loc main_arg10) :=
  W5_untouched m ρ c main_arg10 (by decide) (by decide) (by decide) (by decide) (by decide)
theorem W5_main_arg11 (c : Dev nD) : W5 m ρ c (Proc.devRef .tc main_arg11) = m ((c : Thread nD τ).loc main_arg11) :=
  W5_untouched m ρ c main_arg11 (by decide) (by decide) (by decide) (by decide) (by decide)
theorem W5_main_arg12 (c : Dev nD) : W5 m ρ c (Proc.devRef .tc main_arg12) = m ((c : Thread nD τ).loc main_arg12) :=
  W5_untouched m ρ c main_arg12 (by decide) (by decide) (by decide) (by decide) (by decide)
theorem W5_main_arg13 (c : Dev nD) : W5 m ρ c (Proc.devRef .tc main_arg13) = m ((c : Thread nD τ).loc main_arg13) :=
  W5_untouched m ρ c main_arg13 (by decide) (by decide) (by decide) (by decide) (by decide)

/-- The new cell state reaches the end as region 0's write-backs leave it. -/
theorem W5_cell (c : Dev nD) : W5 m ρ c (Proc.devRef .tc main_v6_0) = (dat0 (V1 m ρ) c).arrAt 10 cfg0.N :=
  (W5_keep m ρ c main_v6_0 (by decide)).trans <| (W4_keep m ρ c main_v6_0 (by decide)).trans <|
    (W3_keep m ρ c main_v6_0 (by decide)).trans (W2_arr m ρ c 10)
/-- The new hidden state reaches the end as region 0's write-backs leave it (region 1 only reads it). -/
theorem W5_hid (c : Dev nD) : W5 m ρ c (Proc.devRef .tc main_v6_1) = (dat0 (V1 m ρ) c).arrAt 11 cfg0.N :=
  (W5_keep m ρ c main_v6_1 (by decide)).trans <| (W4_keep m ρ c main_v6_1 (by decide)).trans <|
    (W3_keep m ρ c main_v6_1 (by decide)).trans (W2_arr m ρ c 11)
/-- The result is what region 2's write-backs leave. -/
theorem W5_out (c : Dev nD) : W5 m ρ c (Proc.devRef .tc main_v22) = (dat2 (V4 m ρ) c).arrAt 2 cfg2.N :=
  W5_arr m ρ c 2

/-- Region 2 reads the logits as region 1 wrote them, -/
theorem V4_logits (c : Dev nD) : V4 m ρ c main_v7_0 = (dat1 (V2 m ρ) c).arrAt 3 cfg1.N :=
  (W4_keep m ρ c main_v7_0 (by decide)).trans (W3_arr m ρ c 3)
/-- and the second host stretch reads the two halves' log-sum-exps as region 1 wrote them. -/
theorem V3_lse (c : Dev nD) : V3 m ρ c main_v7_1 = (dat1 (V2 m ρ) c).arrAt 4 cfg1.N :=
  W3_arr m ρ c 4
/-- Region 1 reads the hidden state as region 0 wrote it, the read-out matrix as launched, -/
theorem V2_hid (c : Dev nD) : V2 m ρ c main_v6_1 = (dat0 (V1 m ρ) c).arrAt 11 cfg0.N := W2_arr m ρ c 11
theorem V2_wout (c : Dev nD) : V2 m ρ c main_arg12 = m ((c : Thread nD τ).loc main_arg12) :=
  (W2_keep m ρ c main_arg12 (by decide)).trans ((W1_keep m ρ c main_arg12 (by decide)).trans rfl)
/-- and the read-out bias row as the first host stretch wrote it. -/
theorem V2_bout (c : Dev nD) : V2 m ρ c main_v5 = V1 m ρ c main_v5 := W2_keep m ρ c main_v5 (by decide)
/-- Region 0 reads the cell state and the four gate matrices as launched. -/
theorem V1_cell (c : Dev nD) : V1 m ρ c main_arg3 = m ((c : Thread nD τ).loc main_arg3) := (W1_keep m ρ c main_arg3 (by decide)).trans rfl
theorem V1_wf (c : Dev nD) : V1 m ρ c main_arg4 = m ((c : Thread nD τ).loc main_arg4) := (W1_keep m ρ c main_arg4 (by decide)).trans rfl
theorem V1_wi (c : Dev nD) : V1 m ρ c main_arg6 = m ((c : Thread nD τ).loc main_arg6) := (W1_keep m ρ c main_arg6 (by decide)).trans rfl
theorem V1_wc (c : Dev nD) : V1 m ρ c main_arg8 = m ((c : Thread nD τ).loc main_arg8) := (W1_keep m ρ c main_arg8 (by decide)).trans rfl
theorem V1_wo (c : Dev nD) : V1 m ρ c main_arg10 = m ((c : Thread nD τ).loc main_arg10) := (W1_keep m ρ c main_arg10 (by decide)).trans rfl

end Cert.Kernel.HandRun

end
-- ==== Proof.KI.Region0.lean ====
import proofs.«116741_j80522046865747_2_alg».proof.Proof.Gen.KernelIdeal.Launch
import proofs.«116741_j80522046865747_2_alg».proof.Proof.Gen.KernelIdeal.Skeleton
import proofs.«116741_j80522046865747_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the first kernel (the four gates, the new cell and the new hidden state), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the
    block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the
    block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the
    block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: unfetched, the
    block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: unfetched, the
    block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: unfetched, the
    block index has not moved, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: unfetched, the
    block index has not moved, and the body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not: unfetched, the
    block index has not moved, and the body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not: unfetched, the
    block index has not moved, and the body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rA0 : Rect S256x4096 := Rect.unit (s := S256x4096) ![0, 0] S256x4096.size inb_S256x4096_S256x4096_0_0
abbrev rW0 : Rect S128x4096 := Rect.unit (s := S128x4096) ![0, 0] S128x4096.size inb_S128x4096_S128x4096_0_0
abbrev rB0 : Rect S1x128 := Rect.unit (s := S1x128) ![0, 0] S1x128.size inb_S1x128_S1x128_0_0
abbrev rC0 : Rect S256x128 := Rect.unit (s := S256x128) ![0, 0] S256x128.size inb_S256x128_S256x128_0_0

/-- The forget gate, the input gate and the candidate, from the blocks of the concatenated input, the weights and the biases. -/
abbrev gateF (x0 : Vec F S256x4096 .f32) (x1 : Vec F S128x4096 .f32) (x5 : Vec F S1x128 .f32) : FVec F S256x128 .f32 :=
  k0_pay4 (View.ld x0 rA0) (View.ld x1 rW0) (View.ld x5 rB0)
abbrev gateI (x0 : Vec F S256x4096 .f32) (x2 : Vec F S128x4096 .f32) (x6 : Vec F S1x128 .f32) : FVec F S256x128 .f32 :=
  k0_pay5 (View.ld x0 rA0) (View.ld x2 rW0) (View.ld x6 rB0)
abbrev gateC (x0 : Vec F S256x4096 .f32) (x3 : Vec F S128x4096 .f32) (x7 : Vec F S1x128 .f32) : FVec F S256x128 .f32 :=
  k0_pay6 (View.ld x0 rA0) (View.ld x3 rW0) (View.ld x7 rB0)
abbrev gateO (x0 : Vec F S256x4096 .f32) (x4 : Vec F S128x4096 .f32) (x8 : Vec F S1x128 .f32) : FVec F S256x128 .f32 :=
  k0_pay7 (View.ld x0 rA0) (View.ld x4 rW0) (View.ld x8 rB0)

/-- Window 10's staging buffer (the new cell) after the body, from the input windows' blocks: its one store. -/
def out0_10 (x0 : Vec F S256x4096 .f32) (x1 : Vec F S128x4096 .f32) (x2 : Vec F S128x4096 .f32) (x3 : Vec F S128x4096 .f32) (x4 : Vec F S128x4096 .f32) (x5 : Vec F S1x128 .f32) (x6 : Vec F S1x128 .f32) (x7 : Vec F S1x128 .f32) (x8 : Vec F S1x128 .f32) (x9 : Vec F S256x128 .f32) : Vec F S256x128 .f32 :=
  View.canon [⟨rC0, k0_pay1 (gateF x0 x1 x5) (gateI x0 x2 x6) (gateC x0 x3 x7) (View.ld x9 rC0)⟩]

/-- Window 11's staging buffer (the new hidden state) after the body: its one store. -/
def out0_11 (x0 : Vec F S256x4096 .f32) (x1 : Vec F S128x4096 .f32) (x2 : Vec F S128x4096 .f32) (x3 : Vec F S128x4096 .f32) (x4 : Vec F S128x4096 .f32) (x5 : Vec F S1x128 .f32) (x6 : Vec F S1x128 .f32) (x7 : Vec F S1x128 .f32) (x8 : Vec F S1x128 .f32) (x9 : Vec F S256x128 .f32) : Vec F S256x128 .f32 :=
  View.canon [⟨rC0, k0_pay2 (gateF x0 x1 x5) (gateI x0 x2 x6) (gateC x0 x3 x7) (gateO x0 x4 x8) (View.ld x9 rC0)⟩]

/-- A whole-block store covers the buffer. -/
theorem cover0_C (p0 : Vec F S256x128 .f32) (y : S256x128.Idx) :
    ∃ pc ∈ ([⟨rC0, p0⟩] : List (View.Piece (Elt F) S256x128 .f32)), y ∈ pc.1.set :=
  View.cover_of_tiled [⟨rC0, p0⟩] S256x128.size (by rfl) y

set_option maxHeartbeats 4000000 in
/-- The body on whole staging memrefs, the inputs' at read contents `x0 … x9` and the outputs' at anything, runs to
    the continuation holding the inputs' as they were and each output's at `out0_W` of them. -/
theorem sound_kernel0 (c : Dev nD) (E : Set ℕ) (i : grid0.Coords)
    (a0 : Memref sig .tc .vmem S256x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S1x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S256x128 .f32) (ha9 : a9.IsWhole) (a10 : Memref sig .tc .vmem S256x128 .f32) (ha10 : a10.IsWhole) (a11 : Memref sig .tc .vmem S256x128 .f32) (ha11 : a11.IsWhole)
    (x0 : Vec F S256x4096 .f32) (x1 : Vec F S128x4096 .f32) (x2 : Vec F S128x4096 .f32) (x3 : Vec F S128x4096 .f32) (x4 : Vec F S128x4096 .f32) (x5 : Vec F S1x128 .f32) (x6 : Vec F S1x128 .f32) (x7 : Vec F S1x128 .f32) (x8 : Vec F S1x128 .f32) (x9 : Vec F S256x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out0_10 x0 x1 x2 x3 x4 x5 x6 x7 x8 x9) ∗ owns (c : Thread nD τ) a11 fullShare (out0_11 x0 x1 x2 x3 x4 x5 x6 x7 x8 x9)) -∗ K ⟨⟩))
      ⊢ wp frame (wpE (defs₀ (F := F)) Variants.none c none) E (cc0__gates_kernel i a0 ha0 a1 ha1 a2 ha2 a3 ha3 a4 ha4 a5 ha5 a6 ha6 a7 ha7 a8 ha8 a9 ha9 a10 ha10 a11 ha11) K := by
  simp only [cc0__gates_kernel_eq_skeleton]; unfold cc0__gates_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_C _)
  iexists _; isplitr
  swap; · iexact H11
  ipureintro
  exact View.read_writes_eq_canon _ _ _ (cover0_C _)

/-! ## The pipeline's proof data -/

/-- The proof data of the region on core `c`: the arrays as the region finds them; after the body at point `t` each
    input's buffer at its block and each output's at `out0_W` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Base.lean ====
import proofs.«116741_j80522046865747_2_alg».proof.Proof.Gen.KernelIdeal.Launch
import proofs.«116741_j80522046865747_2_alg».proof.Proof.Gen.KernelIdeal.Skeleton
import proofs.«116741_j80522046865747_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the logits blocks and the streaming per-half statistics — what its three control cases share -/

section Blocks
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two branch conditions, decided over the grid -/

/-- The first branch (reset the running statistics) is taken where the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second branch (store the half's log-sum-exp) is taken where the inner coordinate is 24. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the second branch is not taken the last window is idle, and its block is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it is taken the window is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S640x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x640 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x640 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1 .f32 := win1_4.stage (cfg1.slots t 4)
abbrev hs1_4 (t : Fin cfg1.N) : (ms1_4 t).IsWhole := hstage1_4 ((cfg1.slots t 4).cast nbuf1_4)
/-- The two running statistics (maximum, rescaled sum): whole scoped buffers of the kernel's own. -/
abbrev scM1_0 : Memref sig .tc .vmem S256x1 .f32 := Memref.whole cc1_scratch0
abbrev scM1_1 : Memref sig .tc .vmem S256x1 .f32 := Memref.whole cc1_scratch1
/-- Views through which contents are stated (which buffer of the kind does not matter once the writes cover). -/
abbrev VS1_0 : View sig .tc .vmem S256x1 .f32 := scM1_0.view
abbrev VS1_1 : View sig .tc .vmem S256x1 .f32 := scM1_1.view
abbrev VO1_3 : View sig .tc .vmem S256x640 .f32 := (Memref.whole cc1_stg3_0 : Memref sig .tc .vmem S256x640 .f32).view
abbrev VO1_4 : View sig .tc .vmem S1x256x1 .f32 := (Memref.whole cc1_stg4_0 : Memref sig .tc .vmem S1x256x1 .f32).view

/-- Every scoped buffer of the core that is neither a staging buffer of this call nor one of the two statistics, at some contents. -/
abbrev Rest1 (c : Dev nD) : sProp 𝕄 :=
  Pipeline.scopedRestBut (Ix := Unit) (Name := ℕ) (U := UR sig nD τ) (Lvl := ℕ) (Val := Elt F) spec1 c [cc1_scratch0, cc1_scratch1]

/-- The scoped rest with the two statistics split out as memrefs owned at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ Rest1 (F := F) c) := by
  rw [scopedRest1_split]; simp only [scM1_0, scM1_1, owns_whole]; try rfl

end Cert.KernelIdeal.Hand

end
-- ==== Proof.KI.Region1RunA.lean ====
import proofs.«116741_j80522046865747_2_alg».proof.Proof.KI.Region1Base

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (inner coordinate 0: the statistics are reset first; the half's result is not stored). What the body's stores
    leave in the logits block's buffer and in the two statistics, as pieces (last first), with the body's triple on whole
    memrefs: the inputs at their contents, the logits buffer and the statistics at anything, the last window's buffer
    handed back untouched. -/
noncomputable def kernelRun1_A (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S640x4096 .f32) (x2 : Vec F S1x640 .f32) :
    Σ' (L3 : List (View.Piece (Elt F) S256x640 .f32)) (LS0 : List (View.Piece (Elt F) S256x1 .f32)), { LS1 : List (View.Piece (Elt F) S256x1 .f32) //
      ∀ (xi4 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_logits_kernel i arg2 harg2 arg3 harg3 arg4 harg4 arg5 harg5 arg6 harg6 arg7 harg7 arg8 harg8) K } := by
  refine ⟨?_, ?_, ?_, fun xi4 E K => ?run⟩
  case run =>
    simp only [cc1__stats_logits_kernel_eq_skeleton]; unfold cc1__stats_logits_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.KernelIdeal.Hand

end
-- ==== Proof.KI.Region1RunB.lean ====
import proofs.«116741_j80522046865747_2_alg».proof.Proof.KI.Region1RunA

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (inner coordinate neither 0 nor 24: the statistics are updated from what the point before left; the half's
    result is not stored). What the body's stores leave in the logits block's buffer and in the two statistics, as
    pieces (last first), with the body's triple on whole memrefs: the inputs at their contents, the statistics at the
    carried contents, the logits buffer at anything, the last window's buffer handed back untouched. -/
noncomputable def kernelRun1_B (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S640x4096 .f32) (x2 : Vec F S1x640 .f32) (xs0 : Vec F S256x1 .f32) (xs1 : Vec F S256x1 .f32) :
    Σ' (L3 : List (View.Piece (Elt F) S256x640 .f32)) (LS0 : List (View.Piece (Elt F) S256x1 .f32)), { LS1 : List (View.Piece (Elt F) S256x1 .f32) //
      ∀ (xi4 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_logits_kernel i arg2 harg2 arg3 harg3 arg4 harg4 arg5 harg5 arg6 harg6 arg7 harg7 arg8 harg8) K } := by
  refine ⟨?_, ?_, ?_, fun xi4 E K => ?run⟩
  case run =>
    simp only [cc1__stats_logits_kernel_eq_skeleton]; unfold cc1__stats_logits_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

end Cert.KernelIdeal.Hand

end
-- ==== Proof.KI.Region1RunC.lean ====
import proofs.«116741_j80522046865747_2_alg».proof.Proof.KI.Region1RunB

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (inner coordinate 24: the statistics are updated from what the point before left, then the half's
    log-sum-exp is stored into the last window's buffer). What the body's stores leave in the two output buffers and in
    the two statistics, as pieces (last first), with the body's triple on whole memrefs: the inputs at their contents,
    the statistics at the carried contents, the output buffers at anything. -/
noncomputable def kernelRun1_C (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S640x4096 .f32) (x2 : Vec F S1x640 .f32) (xs0 : Vec F S256x1 .f32) (xs1 : Vec F S256x1 .f32) :
    Σ' (L3 : List (View.Piece (Elt F) S256x640 .f32)) (L4 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_logits_kernel i arg2 harg2 arg3 harg3 arg4 harg4 arg5 harg5 arg6 harg6 arg7 harg7 arg8 harg8) K } := by
  refine ⟨?_, ?_, ?_, ?_, fun E K => ?run⟩
  case run =>
    simp only [cc1__stats_logits_kernel_eq_skeleton]; unfold cc1__stats_logits_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Region1.lean ====
import proofs.«116741_j80522046865747_2_alg».proof.Proof.KI.Region1RunC

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data and the body obligation, at the entry contents `V` -/

/-- Case A's pieces for the logits block's buffer tile it, so they cover it. -/
theorem cover1_A_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) (y : S256x640.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S256x640.size (by sl_kernel_rfl) y

/-- What case A leaves in the logits block's buffer: its pieces read back. -/
def out1_A_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : Vec F S256x640 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for the running maximum tile it, so they cover it. -/
theorem scover1_A_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) (y : S256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S256x1.size (by sl_kernel_rfl) y

/-- What case A leaves in the running maximum: its pieces read back. -/
def sout1_A_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : Vec F S256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for the running sum tile it, so they cover it. -/
theorem scover1_A_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) (y : S256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S256x1.size (by sl_kernel_rfl) y

/-- What case A leaves in the running sum: its pieces read back. -/
def sout1_A_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : Vec F S256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case B's pieces for the logits block's buffer tile it, so they cover it. -/
theorem cover1_B_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) (y : S256x640.Idx) :
    ∃ pc ∈ (kernelRun1_B c i arg2 harg2 arg3 harg3 arg4 harg4 arg5 harg5 arg6 harg6 arg7 harg7 arg8 harg8 hc0 hc1 x0 x1 x2 xs0 xs1).1, y ∈ pc.1.set :=
  View.cover_of_tiledL (kernelRun1_B c i arg2 harg2 arg3 harg3 arg4 harg4 arg5 harg5 arg6 harg6 arg7 harg7 arg8 harg8 hc0 hc1 x0 x1 x2 xs0 xs1).1 S256x640.size (by sl_kernel_rfl) y

/-- What case B leaves in the logits block's buffer: its pieces read back. -/
def out1_B_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : Vec F S256x640 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1).1)

/-- Case B's pieces for the running maximum tile it, so they cover it. -/
theorem scover1_B_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1).2.1, y ∈ pc.1.set :=
  View.cover_of_tiledL (kernelRun1_B c i arg2 harg2 arg3 harg3 arg4 harg4 arg5 harg5 arg6 harg6 arg7 harg7 arg8 harg8 hc0 hc1 x0 x1 x2 xs0 xs1).2.1 S256x1.size (by sl_kernel_rfl) y

/-- What case B leaves in the running maximum: its pieces read back. -/
def sout1_B_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : Vec F S256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1).2.1)

/-- Case B's pieces for the running sum tile it, so they cover it. -/
theorem scover1_B_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 xs0 xs1).2.2.1 S256x1.size (by sl_kernel_rfl) y

/-- What case B leaves in the running sum: its pieces read back. -/
def sout1_B_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : Vec F S256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1).2.2.1)

/-- Case C's pieces for the logits block's buffer tile it, so they cover it. -/
theorem cover1_C_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S256x640.Idx) :
    ∃ pc ∈ (kernelRun1_C c i arg2 harg2 arg3 harg3 arg4 harg4 arg5 harg5 arg6 harg6 arg7 harg7 arg8 harg8 hc0 hc1 x0 x1 x2 xs0 xs1).1, y ∈ pc.1.set :=
  View.cover_of_tiledL (kernelRun1_C c i arg2 harg2 arg3 harg3 arg4 harg4 arg5 harg5 arg6 harg6 arg7 harg7 arg8 harg8 hc0 hc1 x0 x1 x2 xs0 xs1).1 S256x640.size (by sl_kernel_rfl) y

/-- What case C leaves in the logits block's buffer: its pieces read back. -/
def out1_C_3 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S256x640 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1).1)

/-- Case C's pieces for the half's result buffer tile it, so they cover it. -/
theorem cover1_C_4 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S1x256x1.Idx) :
    ∃ pc ∈ (kernelRun1_C c i arg2 harg2 arg3 harg3 arg4 harg4 arg5 harg5 arg6 harg6 arg7 harg7 arg8 harg8 hc0 hc1 x0 x1 x2 xs0 xs1).2.1, y ∈ pc.1.set :=
  View.cover_of_tiledL (kernelRun1_C c i arg2 harg2 arg3 harg3 arg4 harg4 arg5 harg5 arg6 harg6 arg7 harg7 arg8 harg8 hc0 hc1 x0 x1 x2 xs0 xs1).2.1 S1x256x1.size (by sl_kernel_rfl) y

/-- What case C leaves in the half's result buffer: its pieces read back. -/
def out1_C_4 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S1x256x1 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 xs0 xs1).2.1)

/-- Case C's pieces for the running maximum tile it, so they cover it. -/
theorem scover1_C_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.1 S256x1.size (by sl_kernel_rfl) y

/-- What case C leaves in the running maximum: its pieces read back. -/
def sout1_C_0 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1).2.2.1)

/-- Case C's pieces for the running sum tile it, so they cover it. -/
theorem scover1_C_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.2.1 S256x1.size (by sl_kernel_rfl) y

/-- What case C leaves in the running sum: its pieces read back. -/
def sout1_C_1 (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : Vec F S256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1).2.2.2.1)

/-- Where the inner coordinate is 0 it is not 24. -/
theorem ncond1_1_of_0 (t : Fin cfg1.N) (h0 : t.val % 25 = 0) : ¬cond1_1 (grid1.coords t) := fun h => by
  have := (hcond1_1 t).mp h; omega

section Regions
-- the TensorCore's buffer contents when the region is entered
variable (V : (c : Dev nD) → (b : Ref sig .tc) → Buf (Elt F) ((c : Thread nD τ).loc b))

/-! ## The running statistics, point by point -/

/-- The two statistics after point `t`, from what they held before it (`p`): the control case the point is in, run at
    the point's input blocks. Where the inner coordinate is 0 the earlier contents are not read. -/
def scrStep1 (c : Dev nD) (t : Fin cfg1.N) (p : Vec F S256x1 .f32 × Vec F S256x1 .f32) : Vec F S256x1 .f32 × Vec F S256x1 .f32 :=
  if h0 : t.val % 25 = 0 then
    (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t))
  else if h1 : t.val % 25 = 24 then
    (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2)
  else
    (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2)

/-- The two statistics (running maximum, rescaled running sum) after the first `n` points. Before the first point the
    buffers hold what the region finds there, which nothing reads: the value at 0 is a placeholder. -/
def scr1 (c : Dev nD) : ℕ → Vec F S256x1 .f32 × Vec F S256x1 .f32
  | 0 => (k1_pay3, k1_pay4)
  | n + 1 => if hn : n < cfg1.N then scrStep1 V c ⟨n, hn⟩ (scr1 c n) else scr1 c n

theorem scr1_succ (c : Dev nD) (t : Fin cfg1.N) : scr1 V c (t.val + 1) = scrStep1 V c t (scr1 V c t.val) := by
  show (if hn : t.val < cfg1.N then scrStep1 V c ⟨t.val, hn⟩ (scr1 V c t.val) else scr1 V c t.val) = _
  rw [dif_pos t.isLt]

theorem scrStep1_A (c : Dev nD) (t : Fin cfg1.N) (p) (h0 : t.val % 25 = 0) : scrStep1 V c t p =
    (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t)) := dif_pos h0
theorem scrStep1_C (c : Dev nD) (t : Fin cfg1.N) (p) (h0 : ¬t.val % 25 = 0) (h1 : t.val % 25 = 24) : scrStep1 V c t p =
    (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2) := (dif_neg h0).trans (dif_pos h1)
theorem scrStep1_B (c : Dev nD) (t : Fin cfg1.N) (p) (h0 : ¬t.val % 25 = 0) (h1 : ¬t.val % 25 = 24) : scrStep1 V c t p =
    (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2) := (dif_neg h0).trans (dif_neg h1)

/-! ## What the two outputs' buffers hold after each point -/

/-- The logits block's buffer after the body at point `t`. -/
def out3At1 (c : Dev nD) (t : Fin cfg1.N) : Vec F S256x640 .f32 :=
  if h0 : t.val % 25 = 0 then out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t)
  else if h1 : t.val % 25 = 24 then out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (scr1 V c t.val).1 (scr1 V c t.val).2
  else out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (scr1 V c t.val).1 (scr1 V c t.val).2

/-- The half's result buffer after the body at a point of inner coordinate 24, where it is stored (elsewhere the window
    is idle and this is not consulted: the contents are then what the buffer held). -/
def out4At1 (c : Dev nD) (t : Fin cfg1.N) : Vec F S1x256x1 .f32 :=
  if h1 : t.val % 25 = 24 then
    out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => (by have := (hcond1_0 t).mp h; omega : False)) ((hcond1_1 t).mpr h1) (iblk1 V c 0 t) (iblk1 V c 1 t) (iblk1 V c 2 t) (scr1 V c t.val).1 (scr1 V c t.val).2
  else VO1_4.read (Elt F) (VO1_4.writes (Elt F) VO1_4.junk [])

theorem out3At1_A (c : Dev nD) (t : Fin cfg1.N) (h0 : t.val % 25 = 0) : out3At1 V c t = out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (ncond1_1_of_0 t h0) (iblk1 V c 0 t) (iblk1 V c 1 t) (iblk1 V c 2 t) := dif_pos h0
theorem out3At1_C (c : Dev nD) (t : Fin cfg1.N) (h0 : ¬t.val % 25 = 0) (h1 : t.val % 25 = 24) : out3At1 V c t =
    out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (scr1 V c t.val).1 (scr1 V c t.val).2 := (dif_neg h0).trans (dif_pos h1)
theorem out3At1_B (c : Dev nD) (t : Fin cfg1.N) (h0 : ¬t.val % 25 = 0) (h1 : ¬t.val % 25 = 24) : out3At1 V c t =
    out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (scr1 V c t.val).1 (scr1 V c t.val).2 := (dif_neg h0).trans (dif_neg h1)
theorem out4At1_C (c : Dev nD) (t : Fin cfg1.N) (h0 : ¬t.val % 25 = 0) (h1 : t.val % 25 = 24) : out4At1 V c t =
    out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (scr1 V c t.val).1 (scr1 V c t.val).2 := dif_pos h1

/-! ## The region's invariant -/

/-- Before point `n`: the generator register at some state, every other scoped buffer at some contents, and the two
    statistics at anything before the first point, afterwards at what the points so far left (`scr1`). -/
def Phi1 (c : Dev nD) : ℕ → sProp 𝕄
  | 0 => iprop(iprop(iprop((∃ d, owns (c : Thread nD τ) scM1_0 fullShare d) ∗ (∃ d, owns (c : Thread nD τ) scM1_1 fullShare d)) ∗ Rest1 (F := F) c) ∗ (∃ r, prngReg c r))
  | n + 1 => iprop(iprop(iprop(owns (c : Thread nD τ) scM1_0 fullShare (scr1 V c (n + 1)).1 ∗ owns (c : Thread nD τ) scM1_1 fullShare (scr1 V c (n + 1)).2) ∗ Rest1 (F := F) c) ∗ (∃ r, prngReg c r))

theorem Phi1_zero (c : Dev nD) (n : ℕ) (hz : n = 0) : Phi1 V c n =
    iprop(iprop(iprop((∃ d, owns (c : Thread nD τ) scM1_0 fullShare d) ∗ (∃ d, owns (c : Thread nD τ) scM1_1 fullShare d)) ∗ Rest1 (F := F) c) ∗ (∃ r, prngReg c r)) := by
  subst hz; rfl
theorem Phi1_pos (c : Dev nD) (n : ℕ) (hz : n ≠ 0) : Phi1 V c n =
    iprop(iprop(iprop(owns (c : Thread nD τ) scM1_0 fullShare (scr1 V c n).1 ∗ owns (c : Thread nD τ) scM1_1 fullShare (scr1 V c n).2) ∗ Rest1 (F := F) c) ∗ (∃ r, prngReg c r)) := by
  cases n with
  | zero => exact absurd rfl hz
  | succ n => rfl

/-! ## The proof data -/

/-- The proof data of this pipeline on core `c`: the arrays as the region finds them; after the body at point `t` each
    input's buffer at its block, the logits buffer and the half's result buffer at what the point's case leaves; the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out3At1 V c t
    | ⟨4, _⟩ => out4At1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3At1 V c t := by dsimp only [dat1]
theorem after1_4 (c : Dev nD) (t : Fin cfg1.N) : (dat1 V c).after 4 t = out4At1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-- What the body leaves in each window's buffer, the windows one by one. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (out3At1 V c t) := by
  unfold Dat.leavesExact; rw [liveAt1_3 t, after1_3]
theorem leaves1_4_live (c : Dev nD) (t : Fin cfg1.N) (h : cond1_1 (grid1.coords t)) :
    (dat1 V c).leavesExact 4 t = owns (c : Thread nD τ) (ms1_4 t) fullShare (out4At1 V c t) := by
  unfold Dat.leavesExact; rw [liveAt1_4 t h, after1_4]
theorem leaves1_4_idle (c : Dev nD) (t : Fin cfg1.N) (h : ¬cond1_1 (grid1.coords t)) :
    (dat1 V c).leavesExact 4 t = iprop(∃ d, owns (c : Thread nD τ) (ms1_4 t) fullShare ((dat1 V c).before 4 t d)) :=
  Dat.leavesExact_idle (dat1 V c) 4 t (idleAt1_4 t h) (noFlush1_4 t h)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's inner coordinate says which control case
    it is in; the invariant hands the body the two statistics at what the point before left (at anything before the
    first point), and takes them back at this point's contents; where the half's result is not stored its buffer goes
    back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, Phi1_castSucc, Phi1_pos V c (t.val + 1) (Nat.succ_ne_zero _), scr1_succ]
  rw [leaves1_0, leaves1_1, leaves1_2, leaves1_3]
  have hN : t.val < 50 := lt_of_lt_of_eq t.isLt (show cfg1.N = 50 from N_1)
  by_cases h0 : t.val % 25 = 0
  · rw [leaves1_4_idle V c t (ncond1_1_of_0 t h0), scrStep1_A V c t _ h0, out3At1_A V c t h0]
    unfold out1_A_3 sout1_A_0 sout1_A_1; (try dsimp only)
    by_cases hz : t.val = 0
    · rw [Phi1_zero V c _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (ncond1_1_of_0 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _ _ _)
      iexists _; iexact H4
    · rw [Phi1_pos V c _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (ncond1_1_of_0 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexists _; iexact H3
      isplitl [H4]; · iexact H4
      isplitl [HS0]; · iexists _; iexact HS0
      isplitl [HS1]; · iexists _; iexact HS1
      iintro ⟨H0, H1, H2, ⟨%e3, H3⟩, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _ _ _)
      iexists _; iexact H4
  · have hz : t.val ≠ 0 := fun e => h0 (by rw [e])
    rw [Phi1_pos V c _ hz]
    by_cases h1 : t.val % 25 = 24
    · rw [leaves1_4_live V c t ((hcond1_1 t).mpr h1), scrStep1_C V c t _ h0 h1, out3At1_C V c t h0 h1, out4At1_C V c t h0 h1]
      unfold out1_C_3 out1_C_4 sout1_C_0 sout1_C_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _ _)
    · rw [leaves1_4_idle V c t (fun h => h1 ((hcond1_1 t).mp h)), scrStep1_B V c t _ h0 h1, out3At1_B V c t h0 h1]
      unfold out1_B_3 sout1_B_0 sout1_B_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _ _ _ _)
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is entered with is the invariant before the first point. -/
theorem phi1_in (c : Dev nD) : iprop((∃ r, prngReg c r) ∗ Pipeline.scopedRest (Ix := Unit) (Name := ℕ) (U := UR sig nD τ) (Lvl := ℕ) spec1 c) ⊢ (dat1 V c).Φ 0 := by
  rw [show (dat1 V c).Φ 0 = Phi1 V c 0 from rfl, Phi1_zero V c 0 rfl, scopedRest1_owns]
  iintro ⟨Hg, ⟨⟨HS0, HS1⟩, HR⟩⟩
  isplitl [HS0 HS1 HR]
  · isplitl [HS0 HS1]
    · isplitl [HS0]; · iexact HS0
      iexact HS1
    iexact HR
  iexact Hg

/-- After the last point the invariant gives it back: the statistics' contents are forgotten. -/
theorem phi1_out (c : Dev nD) : (dat1 V c).Φ (Fin.last cfg1.N) ⊢ iprop((∃ r, prngReg c r) ∗ Pipeline.scopedRest (Ix := Unit) (Name := ℕ) (U := UR sig nD τ) (Lvl := ℕ) spec1 c) := by
  rw [show (dat1 V c).Φ (Fin.last cfg1.N) = Phi1 V c (Fin.last cfg1.N).val from rfl,
    Phi1_pos V c _ (by rw [Fin.val_last]; have : cfg1.N = 50 := N_1; omega), scopedRest1_owns]
  iintro ⟨⟨⟨HS0, HS1⟩, HR⟩, Hg⟩
  isplitl [Hg]; · iexact Hg
  isplitl [HS0 HS1]
  · isplitl [HS0]; · iexists _; iexact HS0
    iexists _; iexact HS1
  iexact HR

end Regions

end Cert.KernelIdeal.Hand

end
-- ==== Proof.KI.Region2.lean ====
import proofs.«116741_j80522046865747_2_alg».proof.Proof.Gen.KernelIdeal.Launch
import proofs.«116741_j80522046865747_2_alg».proof.Proof.Gen.KernelIdeal.Skeleton
import proofs.«116741_j80522046865747_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the last kernel (subtract the per-row constant), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, the
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, the
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x640 := Rect.unit (s := S256x640) ![0, 0] S256x640.size inb_S256x640_S256x640_0_0
abbrev r2_1 : Rect S256x1 := Rect.unit (s := S256x1) ![0, 0] S256x1.size inb_S256x1_S256x1_0_0

/-- Window 2's staging buffer after the body, from the input windows' blocks: its one store, of the whole block. -/
def out2_2 (x0 : Vec F S256x640 .f32) (x1 : Vec F S256x1 .f32) : Vec F S256x640 .f32 :=
  View.canon [⟨r2_0, k2_pay1 (View.ld x0 r2_0) (View.ld x1 r2_1)⟩]

/-- The store covers the buffer. -/
theorem cover2_2 (p0 : Vec F S256x640 .f32) (y : S256x640.Idx) :
    ∃ pc ∈ ([⟨r2_0, p0⟩] : List (View.Piece (Elt F) S256x640 .f32)), y ∈ pc.1.set :=
  View.cover_of_tiled [⟨r2_0, p0⟩] S256x640.size (by rfl) y

set_option maxHeartbeats 1000000 in
/-- The body on whole staging memrefs, the inputs' at read contents `x0`, `x1` and the output's at anything, runs to
    the continuation holding the inputs' as they were and the output's at `out2_2` of them. -/
theorem sound_kernel2 (c : Dev nD) (E : Set ℕ) (i : grid2.Coords)
    (arg0 : Memref sig .tc .vmem S256x640 .f32) (harg0 : arg0.IsWhole) (arg1 : Memref sig .tc .vmem S256x1 .f32) (harg1 : arg1.IsWhole)
    (arg2 : Memref sig .tc .vmem S256x640 .f32) (harg2 : arg2.IsWhole)
    (x0 : Vec F S256x640 .f32) (x1 : Vec F S256x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__finalize_kernel i arg0 harg0 arg1 harg1 arg2 harg2) K := by
  simp only [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`: the arrays as the region finds them; after the body at point `t` each
    input's buffer at its block and the output's at `out2_2` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the three-kernel LSTM program, from the launch to the return, at any float instance.

  Between two items of the program every unscoped buffer of a core is held at a named valuation: the launch memory, then the
  host operations' results folded in, then — after a kernel region — that region's arrays at what its write-backs leave
  and every other buffer as the region found it. Region 0 computes the new cell and hidden states block by block; region 1
  streams the read-out matrix once, writing the logits and the two half-row log-sum-exps, its running maximum and sum
  carried in two scratch buffers; region 2 subtracts the joined log-sum-exp from the logits. The one theorem proved here
  says that every weakly fair execution terminates and that every unscoped buffer ends at the last valuation; the frame
  claim and the results' values are read off that valuation.
-/
import proofs.«116741_j80522046865747_2_alg».proof.Proof.KI.Region0
import proofs.«116741_j80522046865747_2_alg».proof.Proof.KI.Region1
import proofs.«116741_j80522046865747_2_alg».proof.Proof.KI.Region2

set_option maxRecDepth 16384

noncomputable section

namespace Cert.KernelIdeal.HandRun

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first host stretch: the concatenated input and the biases as rows. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: the new cell and hidden states written block by block. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: the logits and the two halves' log-sum-exps. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: the joined log-sum-exp column and the logits copied into the result's buffer. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: the log-softmax written block by block. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 between the valuations `W1` and `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the valuations `W2` and `W3`; its invariant takes the scoped rest (with the two scratch buffers in
    it) and the generator register in, and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (phi1_in (V2 m ρ) c)
    isplitl [Hp]; · iexact Hp
    iexact Hr
  hout c := by
    rw [Pipeline.ownSems0_none, show (pdats m ρ 1 c).Φ (Fin.last _) = (dat1 (V2 m ρ) c).Φ (Fin.last cfg1.N) from rfl]
    iintro H
    ihave H' := (phi1_out (V2 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the valuations `W4` and `W5`, the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program terminates, nothing faulting, and every unscoped buffer of every core ends at
    the last valuation `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.HandRun

end
-- ==== Proof.KI.Reads.lean ====
/-
  What the last valuation of the three-kernel program holds, read back item by item.

  A host stretch leaves every buffer it does not write as it was; a kernel region leaves every buffer that is not one of its
  output windows' arrays as it was (an input window's array is never written, a buffer that is no window's array is not
  touched). So each argument array reaches the end as launched, the new cell and hidden states reach the end as region 0
  wrote them, and the result is what region 2's write-backs leave.
-/
import proofs.«116741_j80522046865747_2_alg».proof.Proof.KI.Run
import proofs.«116741_j80522046865747_2_alg».proof.Proof.Gen.KernelIdeal.Regions

set_option maxRecDepth 16384

noncomputable section

namespace Cert.KernelIdeal.HandRun

open Cert.KernelIdeal Cert.KernelIdeal.Gen Cert.KernelIdeal.Hand
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- Region 0 leaves a buffer that is no output window's array as it found it. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩
/-- Region 1 leaves a buffer that is no output window's array as it found it. -/
theorem W3_keep (c : Dev nD) (b : Ref sig .tc) (hb : ∀ w, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w (hb w rfl) _).trans (A_eq1 (V2 m ρ) c w))
  · exact W3_of_ne m ρ c b fun w e => h ⟨w, e⟩
/-- Region 2 leaves a buffer that is no output window's array as it found it. -/
theorem W5_keep (c : Dev nD) (b : Ref sig .tc) (hb : ∀ w, Pipeline.arrRef spec2 w = b → (cfg2.win w).isOut = false) :
    W5 m ρ c (Proc.devRef .tc b) = W4 m ρ c (Proc.devRef .tc b) := by
  by_cases h : ∃ w, Pipeline.arrRef spec2 w = b
  · obtain ⟨w, rfl⟩ := h
    exact (W5_arr m ρ c w).trans (((dat2 (V4 m ρ) c).arrAt_in w (hb w rfl) _).trans (A_eq2 (V4 m ρ) c w))
  · exact W5_of_ne m ρ c b fun w e => h ⟨w, e⟩
/-- The first host stretch leaves a buffer it does not write as launched. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
/-- The second host stretch leaves a buffer it does not write as region 1 left it. -/
theorem W4_keep (c : Dev nD) (b : Ref sig .tc) (hb : b ∉ hostOps2_W) :
    W4 m ρ c (Proc.devRef .tc b) = W3 m ρ c (Proc.devRef .tc b) :=
  StableHlo.after_of_writes_sub hostOps2 _ hostOps2_writes hb

/-- A buffer no item writes reaches the end as launched. -/
theorem W5_untouched (c : Dev nD) (b : Ref sig .tc)
    (h5 : ∀ w, Pipeline.arrRef spec2 w = b → (cfg2.win w).isOut = false) (h4 : b ∉ hostOps2_W)
    (h3 : ∀ w, Pipeline.arrRef spec1 w = b → (cfg1.win w).isOut = false)
    (h2 : ∀ w, Pipeline.arrRef spec0 w = b → (cfg0.win w).isOut = false) (h1 : b ∉ hostOps0_W) :
    W5 m ρ c (Proc.devRef .tc b) = m ((c : Thread nD τ).loc b) :=
  (W5_keep m ρ c b h5).trans <| (W4_keep m ρ c b h4).trans <| (W3_keep m ρ c b h3).trans <| (W2_keep m ρ c b h2).trans <|
    (W1_keep m ρ c b h1).trans rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)
theorem W5_main_arg9 (c : Dev nD) : W5 m ρ c (Proc.devRef .tc main_arg9) = m ((c : Thread nD τ).loc main_arg9) :=
  W5_untouched m ρ c main_arg9 (by decide) (by decide) (by decide) (by decide) (by decide)
theorem W5_main_arg10 (c : Dev nD) : W5 m ρ c (Proc.devRef .tc main_arg10) = m ((c : Thread nD τ).loc main_arg10) :=
  W5_untouched m ρ c main_arg10 (by decide) (by decide) (by decide) (by decide) (by decide)
theorem W5_main_arg11 (c : Dev nD) : W5 m ρ c (Proc.devRef .tc main_arg11) = m ((c : Thread nD τ).loc main_arg11) :=
  W5_untouched m ρ c main_arg11 (by decide) (by decide) (by decide) (by decide) (by decide)
theorem W5_main_arg12 (c : Dev nD) : W5 m ρ c (Proc.devRef .tc main_arg12) = m ((c : Thread nD τ).loc main_arg12) :=
  W5_untouched m ρ c main_arg12 (by decide) (by decide) (by decide) (by decide) (by decide)
theorem W5_main_arg13 (c : Dev nD) : W5 m ρ c (Proc.devRef .tc main_arg13) = m ((c : Thread nD τ).loc main_arg13) :=
  W5_untouched m ρ c main_arg13 (by decide) (by decide) (by decide) (by decide) (by decide)

/-- The new cell state reaches the end as region 0's write-backs leave it. -/
theorem W5_cell (c : Dev nD) : W5 m ρ c (Proc.devRef .tc main_v6_0) = (dat0 (V1 m ρ) c).arrAt 10 cfg0.N :=
  (W5_keep m ρ c main_v6_0 (by decide)).trans <| (W4_keep m ρ c main_v6_0 (by decide)).trans <|
    (W3_keep m ρ c main_v6_0 (by decide)).trans (W2_arr m ρ c 10)
/-- The new hidden state reaches the end as region 0's write-backs leave it (region 1 only reads it). -/
theorem W5_hid (c : Dev nD) : W5 m ρ c (Proc.devRef .tc main_v6_1) = (dat0 (V1 m ρ) c).arrAt 11 cfg0.N :=
  (W5_keep m ρ c main_v6_1 (by decide)).trans <| (W4_keep m ρ c main_v6_1 (by decide)).trans <|
    (W3_keep m ρ c main_v6_1 (by decide)).trans (W2_arr m ρ c 11)
/-- The result is what region 2's write-backs leave. -/
theorem W5_out (c : Dev nD) : W5 m ρ c (Proc.devRef .tc main_v22) = (dat2 (V4 m ρ) c).arrAt 2 cfg2.N :=
  W5_arr m ρ c 2

/-- Region 2 reads the logits as region 1 wrote them, -/
theorem V4_logits (c : Dev nD) : V4 m ρ c main_v7_0 = (dat1 (V2 m ρ) c).arrAt 3 cfg1.N :=
  (W4_keep m ρ c main_v7_0 (by decide)).trans (W3_arr m ρ c 3)
/-- and the second host stretch reads the two halves' log-sum-exps as region 1 wrote them. -/
theorem V3_lse (c : Dev nD) : V3 m ρ c main_v7_1 = (dat1 (V2 m ρ) c).arrAt 4 cfg1.N :=
  W3_arr m ρ c 4
/-- Region 1 reads the hidden state as region 0 wrote it, the read-out matrix as launched, -/
theorem V2_hid (c : Dev nD) : V2 m ρ c main_v6_1 = (dat0 (V1 m ρ) c).arrAt 11 cfg0.N := W2_arr m ρ c 11
theorem V2_wout (c : Dev nD) : V2 m ρ c main_arg12 = m ((c : Thread nD τ).loc main_arg12) :=
  (W2_keep m ρ c main_arg12 (by decide)).trans ((W1_keep m ρ c main_arg12 (by decide)).trans rfl)
/-- and the read-out bias row as the first host stretch wrote it. -/
theorem V2_bout (c : Dev nD) : V2 m ρ c main_v5 = V1 m ρ c main_v5 := W2_keep m ρ c main_v5 (by decide)
/-- Region 0 reads the cell state and the four gate matrices as launched. -/
theorem V1_cell (c : Dev nD) : V1 m ρ c main_arg3 = m ((c : Thread nD τ).loc main_arg3) := (W1_keep m ρ c main_arg3 (by decide)).trans rfl
theorem V1_wf (c : Dev nD) : V1 m ρ c main_arg4 = m ((c : Thread nD τ).loc main_arg4) := (W1_keep m ρ c main_arg4 (by decide)).trans rfl
theorem V1_wi (c : Dev nD) : V1 m ρ c main_arg6 = m ((c : Thread nD τ).loc main_arg6) := (W1_keep m ρ c main_arg6 (by decide)).trans rfl
theorem V1_wc (c : Dev nD) : V1 m ρ c main_arg8 = m ((c : Thread nD τ).loc main_arg8) := (W1_keep m ρ c main_arg8 (by decide)).trans rfl
theorem V1_wo (c : Dev nD) : V1 m ρ c main_arg10 = m ((c : Thread nD τ).loc main_arg10) := (W1_keep m ρ c main_arg10 (by decide)).trans rfl

end Cert.KernelIdeal.HandRun

end
-- ==== Proof.Spec.lean ====
/-
  The specification of one LSTM step with a log-softmax read-out, on the extended reals, written by coordinates.

  For a batch row `b`, the concatenated input `xc b` has 4096 entries: 512 category entries, then 1536 input entries, then
  2048 hidden entries. Each gate pre-activation is the affine map `∑ k, xc b k * W n k + bias n`; the new cell is
  `σ(f)·cell + σ(i)·tanh(g)`, the new hidden state `σ(o)·tanh(new cell)`; the logits are the affine map of the new hidden
  state by the read-out matrix. The log-softmax of a row is stated twice: once as the reference computes it (shift by the
  row maximum, then subtract the logarithm of the sum of exponentials), once as a streaming computation does (a running
  maximum and a running rescaled sum over 25 blocks of 640 columns for each half of the 32000 columns, the two halves'
  log-sum-exps joined by `max a c + log (1 + exp (-|a - c|))`). That the two agree on finite logits is proved elsewhere;
  this module only names the functions. It imports no program.
-/
import Idealize.ShloMosaic.PureOps.Ideal

noncomputable section

open scoped BigOperators

namespace Cert.Lstm

open Idealize.ShloMosaic

/-- A matrix and a vector by coordinates. -/
abbrev Mat (a b : Nat) := Fin a → Fin b → EReal
abbrev Vct (a : Nat) := Fin a → EReal

/-- The concatenation `[category, x, hidden]` along the feature axis: 512 + 1536 + 2048 = 4096 columns. -/
def xc (cat : Mat 256 512) (x : Mat 256 1536) (hid : Mat 256 2048) : Mat 256 4096 := fun b k =>
  if h0 : k.val < 512 then cat b ⟨k.val, h0⟩
  else if h1 : k.val < 2048 then x b ⟨k.val - 512, by omega⟩
  else hid b ⟨k.val - 2048, by omega⟩

/-- An affine map `a ↦ a · Wᵀ + bias` (the weight in [out, in] layout), entry by entry. -/
def affine {n o : Nat} (a : Mat 256 n) (W : Mat o n) (bias : Vct o) : Mat 256 o := fun b j =>
  (∑ k : Fin n, a b k * W j k) + bias j

/-- The new cell state `σ(f)·cell + σ(i)·tanh(g)`. -/
def cellNew (xcv : Mat 256 4096) (cell : Mat 256 4096) (Wf : Mat 4096 4096) (bf : Vct 4096) (Wi : Mat 4096 4096) (bi : Vct 4096)
    (Wc : Mat 4096 4096) (bc : Vct 4096) : Mat 256 4096 := fun b n =>
  Ideal.logistic (affine xcv Wf bf b n) * cell b n + Ideal.logistic (affine xcv Wi bi b n) * Ideal.tanh (affine xcv Wc bc b n)

/-- The new hidden state `σ(o)·tanh(new cell)`. -/
def hidNew (xcv : Mat 256 4096) (cn : Mat 256 4096) (Wo : Mat 4096 4096) (bo : Vct 4096) : Mat 256 4096 := fun b n =>
  Ideal.logistic (affine xcv Wo bo b n) * Ideal.tanh (cn b n)

/-- Column `q` of block `blk` (blocks of 640 columns; 50 blocks cover the 32000 columns). -/
def col (blk : Fin 50) (q : Fin 640) : Fin 32000 := ⟨blk.val * 640 + q.val, by have := blk.isLt; have := q.isLt; omega⟩

/-- Block `j` (of 25) of half `i` (of 2) is block `25 i + j` of the 50. -/
def blkOf (i : Fin 2) (j : Fin 25) : Fin 50 := ⟨i.val * 25 + j.val, by have := i.isLt; have := j.isLt; omega⟩

/-- The maximum of row `b` of `Z` over one block of 640 columns, as a fold of `max` from `⊥`. -/
def blkMax (Z : Mat 256 32000) (blk : Fin 50) (b : Fin 256) : EReal :=
  (Finset.univ : Finset (Fin 640)).fold max ⊥ (fun q => Z b (col blk q))

/-- The streaming state after the first `j` blocks of half `i`: the running maximum `(st …).1` and the running sum of
    exponentials rescaled to it `(st …).2`, started from `(⊥, 0)`; one step takes the maximum with the block's maximum, rescales
    the old sum by `exp (old max - new max)` and adds the block's sum of `exp (z - new max)`. -/
def st (Z : Mat 256 32000) (i : Fin 2) (b : Fin 256) : Nat → EReal × EReal
  | 0 => (⊥, 0)
  | j + 1 =>
    if hj : j < 25 then
      let mo := (st Z i b j).1
      let lo := (st Z i b j).2
      let mn := max mo (blkMax Z (blkOf i ⟨j, hj⟩) b)
      (mn, lo * Ideal.exp (mo - mn) + ∑ q : Fin 640, Ideal.exp (Z b (col (blkOf i ⟨j, hj⟩) q) - mn))
    else st Z i b j

/-- Half `i`'s log-sum-exp of row `b`: running maximum plus logarithm of the running sum, after all 25 blocks. -/
def lseHalf (Z : Mat 256 32000) (i : Fin 2) (b : Fin 256) : EReal :=
  (st Z i b 25).1 + Ideal.log (st Z i b 25).2

/-- Two log-sum-exps joined: `max a c + log (1 + exp (-|a - c|))` (with `|y| = max y (-y)`). -/
def joinLse (a c : EReal) : EReal := max a c + Ideal.log1p (Ideal.exp (-(max (a - c) (-(a - c)))))

/-- The streaming log-softmax: the logit minus the joined log-sum-exp of its row. -/
def outStream (Z : Mat 256 32000) : Mat 256 32000 := fun b v =>
  Z b v - joinLse (lseHalf Z 0 b) (lseHalf Z 1 b)

/-- The row maximum as the reference takes it: `max ⊥` of the fold of `max` from `⊥` over all 32000 columns. -/
def rowMax (Z : Mat 256 32000) (b : Fin 256) : EReal :=
  max ⊥ ((Finset.univ : Finset (Fin 32000)).fold max ⊥ (fun v => Z b v))

/-- The reference's log-softmax: shift by the row maximum, subtract the logarithm of `0 + ∑ exp` of the shifted row. -/
def outRef (Z : Mat 256 32000) : Mat 256 32000 := fun b v =>
  (Z b v - rowMax Z b) - Ideal.log (0 + ∑ w : Fin 32000, Ideal.exp (Z b w - rowMax Z b))

end Cert.Lstm

end
-- ==== Proof.ConcatRead.lean ====
/-
  The concatenation [256,512] ++ [256,1536] ++ [256,2048] along the feature axis, read at a row and a column: the
  column falls in exactly one of the three pieces, and the entry is that piece's at the column shifted by the widths of
  the pieces before it. Stated for any element type, over the literal shapes, and then as the specification's `xc` on the
  extended reals.
-/
import proofs.«116741_j80522046865747_2_alg».proof.Proof.Spec
import Idealize.ShloMosaic.Lib.Pipeline.Value
import Idealize.ShloMosaic.Lib.ValueIdx

noncomputable section

namespace Cert.Lstm

open Idealize.ShloMosaic Idealize.ShloMosaic.ValueIdx

abbrev Sh256x512 : Shape := ⟨2, ![256, 512]⟩
abbrev Sh256x1536 : Shape := ⟨2, ![256, 1536]⟩
abbrev Sh256x2048 : Shape := ⟨2, ![256, 2048]⟩
abbrev Sh256x4096 : Shape := ⟨2, ![256, 4096]⟩

variable {α : Type}

/-- A column below 512 reads the first piece. -/
theorem concat3_apply_0 (x0 : Sh256x512.Idx → α) (x1 : Sh256x1536.Idx → α) (x2 : Sh256x2048.Idx → α)
    (h : Shape.Concatenates [Sh256x512, Sh256x1536, Sh256x2048] Sh256x4096 1)
    (b : Fin 256) (k : Fin 4096) (hk : k.val < 512) :
    concatenate Sh256x4096 1 [⟨Sh256x512, x0⟩, ⟨Sh256x1536, x1⟩, ⟨Sh256x2048, x2⟩] h (ix2 b k) = x0 (ix2 b ⟨k.val, hk⟩) :=
  concatenate_apply_piece (t := Sh256x4096) (1 : Fin 2) [⟨Sh256x512, x0⟩, ⟨Sh256x1536, x1⟩, ⟨Sh256x2048, x2⟩] h (ix2 b k) 0 (by show 0 < 3; omega) Sh256x512 x0 rfl rfl 0 rfl (ix2 b ⟨k.val, hk⟩)
    (fun d hd => by match d with | ⟨0, _⟩ => rfl | ⟨1, _⟩ => exact absurd rfl hd) (by simp)

/-- A column from 512 below 2048 reads the second piece at the column less 512. -/
theorem concat3_apply_1 (x0 : Sh256x512.Idx → α) (x1 : Sh256x1536.Idx → α) (x2 : Sh256x2048.Idx → α)
    (h : Shape.Concatenates [Sh256x512, Sh256x1536, Sh256x2048] Sh256x4096 1)
    (b : Fin 256) (k : Fin 4096) (hk0 : ¬ k.val < 512) (hk : k.val < 2048) :
    concatenate Sh256x4096 1 [⟨Sh256x512, x0⟩, ⟨Sh256x1536, x1⟩, ⟨Sh256x2048, x2⟩] h (ix2 b k) = x1 (ix2 b ⟨k.val - 512, by omega⟩) :=
  concatenate_apply_piece (t := Sh256x4096) (1 : Fin 2) [⟨Sh256x512, x0⟩, ⟨Sh256x1536, x1⟩, ⟨Sh256x2048, x2⟩] h (ix2 b k) 1 (by show 1 < 3; omega) Sh256x1536 x1 rfl rfl 512 rfl (ix2 b ⟨k.val - 512, by omega⟩)
    (fun d hd => by match d with | ⟨0, _⟩ => rfl | ⟨1, _⟩ => exact absurd rfl hd) (by show 512 + (k.val - 512) = k.val; omega)

/-- A column from 2048 on reads the third piece at the column less 2048. -/
theorem concat3_apply_2 (x0 : Sh256x512.Idx → α) (x1 : Sh256x1536.Idx → α) (x2 : Sh256x2048.Idx → α)
    (h : Shape.Concatenates [Sh256x512, Sh256x1536, Sh256x2048] Sh256x4096 1)
    (b : Fin 256) (k : Fin 4096) (hk : ¬ k.val < 2048) :
    concatenate Sh256x4096 1 [⟨Sh256x512, x0⟩, ⟨Sh256x1536, x1⟩, ⟨Sh256x2048, x2⟩] h (ix2 b k) = x2 (ix2 b ⟨k.val - 2048, by have := k.isLt; omega⟩) :=
  concatenate_apply_piece (t := Sh256x4096) (1 : Fin 2) [⟨Sh256x512, x0⟩, ⟨Sh256x1536, x1⟩, ⟨Sh256x2048, x2⟩] h (ix2 b k) 2 (by show 2 < 3; omega) Sh256x2048 x2 rfl rfl 2048 rfl (ix2 b ⟨k.val - 2048, by have := k.isLt; omega⟩)
    (fun d hd => by match d with | ⟨0, _⟩ => rfl | ⟨1, _⟩ => exact absurd rfl hd) (by show 2048 + (k.val - 2048) = k.val; omega)

/-- On the extended reals the concatenation read by coordinates is the specification's `xc`. -/
theorem concat3_eq_xc (x0 : Sh256x512.Idx → EReal) (x1 : Sh256x1536.Idx → EReal) (x2 : Sh256x2048.Idx → EReal)
    (h : Shape.Concatenates [Sh256x512, Sh256x1536, Sh256x2048] Sh256x4096 1)
    (b : Fin 256) (k : Fin 4096) :
    concatenate Sh256x4096 1 [⟨Sh256x512, x0⟩, ⟨Sh256x1536, x1⟩, ⟨Sh256x2048, x2⟩] h (ix2 b k)
      = xc (fun i j => x0 (ix2 i j)) (fun i j => x1 (ix2 i j)) (fun i j => x2 (ix2 i j)) b k := by
  unfold xc
  by_cases h0 : k.val < 512
  · rw [dif_pos h0]; exact concat3_apply_0 x0 x1 x2 h b k h0
  · rw [dif_neg h0]
    by_cases h1 : k.val < 2048
    · rw [dif_pos h1]; exact concat3_apply_1 x0 x1 x2 h b k h0 h1
    · rw [dif_neg h1]; exact concat3_apply_2 x0 x1 x2 h b k h1

end Cert.Lstm

end
-- ==== Proof.KI.HostValues.lean ====
/-
  What the two host stretches of the three-kernel program compute, read at an index on the extended reals.

  The first stretch concatenates the category, input and hidden rows into one row of 4096 entries and re-lays each bias
  vector as a one-row matrix. The second reads the two halves' log-sum-exps `a`, `c` of a row out of the [2,256,1] array
  and joins them as `max a c + log (1 + exp (-|a - c|))`; the comparison that guards the join asks whether `a - c` differs
  from itself, which no extended real does, so the guarded branch is never taken.
-/
import proofs.«116741_j80522046865747_2_alg».proof.Proof.KI.Reads
import proofs.«116741_j80522046865747_2_alg».proof.Proof.ConcatRead
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.KernelIdeal.HandRun

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The concatenated input row, by coordinates. -/
theorem V1_xc (c : Dev nD) (b : Fin 256) (k : Fin 4096) :
    (V1 m ρ c main_v0 : S256x4096.Idx → EReal) (ix2 b k)
      = Cert.Lstm.xc (fun i j => (m ((c : Thread nD τ).loc main_arg0) : S256x512.Idx → EReal) (ix2 i j))
          (fun i j => (m ((c : Thread nD τ).loc main_arg1) : S256x1536.Idx → EReal) (ix2 i j))
          (fun i j => (m ((c : Thread nD τ).loc main_arg2) : S256x2048.Idx → EReal) (ix2 i j)) b k := by
  have e : (V1 m ρ c main_v0 : S256x4096.Idx → EReal)
      = concatenate S256x4096 1 [⟨S256x512, (m ((c : Thread nD τ).loc main_arg0) : S256x512.Idx → EReal)⟩,
          ⟨S256x1536, (m ((c : Thread nD τ).loc main_arg1) : S256x1536.Idx → EReal)⟩,
          ⟨S256x2048, (m ((c : Thread nD τ).loc main_arg2) : S256x2048.Idx → EReal)⟩]
          concatenates_S256x512_S256x1536_S256x2048_S256x4096_d1 := by
    dsimp only [V1, W1, hostOps0]; after_results; rfl
  rw [e]
  exact Cert.Lstm.concat3_eq_xc _ _ _ concatenates_S256x512_S256x1536_S256x2048_S256x4096_d1 b k

/-- A bias vector re-laid as a one-row matrix reads, in column `n`, the vector's entry `n`. -/
theorem V1_bf (c : Dev nD) (n : Fin 4096) :
    (V1 m ρ c main_v1 : S1x4096.Idx → EReal) (ix2 (0 : Fin 1) n) = (m ((c : Thread nD τ).loc main_arg5) : S4096.Idx → EReal) (ix1 n) := by
  have e : (V1 m ρ c main_v1 : S1x4096.Idx → EReal)
      = shapeCast S1x4096 (m ((c : Thread nD τ).loc main_arg5) : S4096.Idx → EReal) shapeCasts_S4096_S1x4096 := by
    dsimp only [V1, W1, hostOps0]; after_results; rfl
  rw [e]; exact shapeCast_a_1a_apply _ _ 0 n
theorem V1_bi (c : Dev nD) (n : Fin 4096) :
    (V1 m ρ c main_v2 : S1x4096.Idx → EReal) (ix2 (0 : Fin 1) n) = (m ((c : Thread nD τ).loc main_arg7) : S4096.Idx → EReal) (ix1 n) := by
  have e : (V1 m ρ c main_v2 : S1x4096.Idx → EReal)
      = shapeCast S1x4096 (m ((c : Thread nD τ).loc main_arg7) : S4096.Idx → EReal) shapeCasts_S4096_S1x4096 := by
    dsimp only [V1, W1, hostOps0]; after_results; rfl
  rw [e]; exact shapeCast_a_1a_apply _ _ 0 n
theorem V1_bc (c : Dev nD) (n : Fin 4096) :
    (V1 m ρ c main_v3 : S1x4096.Idx → EReal) (ix2 (0 : Fin 1) n) = (m ((c : Thread nD τ).loc main_arg9) : S4096.Idx → EReal) (ix1 n) := by
  have e : (V1 m ρ c main_v3 : S1x4096.Idx → EReal)
      = shapeCast S1x4096 (m ((c : Thread nD τ).loc main_arg9) : S4096.Idx → EReal) shapeCasts_S4096_S1x4096 := by
    dsimp only [V1, W1, hostOps0]; after_results; rfl
  rw [e]; exact shapeCast_a_1a_apply _ _ 0 n
theorem V1_bo (c : Dev nD) (n : Fin 4096) :
    (V1 m ρ c main_v4 : S1x4096.Idx → EReal) (ix2 (0 : Fin 1) n) = (m ((c : Thread nD τ).loc main_arg11) : S4096.Idx → EReal) (ix1 n) := by
  have e : (V1 m ρ c main_v4 : S1x4096.Idx → EReal)
      = shapeCast S1x4096 (m ((c : Thread nD τ).loc main_arg11) : S4096.Idx → EReal) shapeCasts_S4096_S1x4096 := by
    dsimp only [V1, W1, hostOps0]; after_results; rfl
  rw [e]; exact shapeCast_a_1a_apply _ _ 0 n
theorem V1_bout (c : Dev nD) (v : Fin 32000) :
    (V1 m ρ c main_v5 : S1x32000.Idx → EReal) (ix2 (0 : Fin 1) v) = (m ((c : Thread nD τ).loc main_arg13) : S32000.Idx → EReal) (ix1 v) := by
  have e : (V1 m ρ c main_v5 : S1x32000.Idx → EReal)
      = shapeCast S1x32000 (m ((c : Thread nD τ).loc main_arg13) : S32000.Idx → EReal) shapeCasts_S32000_S1x32000 := by
    dsimp only [V1, W1, hostOps0]; after_results; rfl
  rw [e]; exact shapeCast_a_1a_apply _ _ 0 v

/-- Half `i`'s column of the [2,256,1] array, sliced out and re-laid as [256,1], reads at row `b` the array at `(i, b, 0)`. -/
theorem half_col (X : S2x256x1.Idx → EReal) (i : Fin 2) (off : Fin 3 → Nat) (hoff : off = ![i.val, 0, 0])
    (hs : S2x256x1.Slices off S1x256x1) (b : Fin 256) :
    shapeCast S256x1 (extractStridedSlice S1x256x1 off X hs) shapeCasts_S1x256x1_S256x1 (ix2 b (0 : Fin 1)) = X (ix3 i b (0 : Fin 1)) := by
  subst hoff
  refine (shapeCast_1ab_ab_apply _ _ b 0).trans ?_
  exact extractStridedSlice_apply _ _ _ _ (ix3 i b (0 : Fin 1)) (fun ax => by
    match ax with
    | ⟨0, _⟩ => exact (Nat.add_zero _).symm
    | ⟨1, _⟩ => exact (Nat.zero_add _).symm
    | ⟨2, _⟩ => exact (Nat.zero_add _).symm)

/-- The join of two log-sum-exp columns as the host computes it, entry by entry. -/
def joinVec (A C : FVec Ideal S256x1 .f32) : FVec Ideal S256x1 .f32 :=
  select (cmpf .une (subf A C) (subf A C)) (addf A C)
    (addf (maximumf A C) (Host.log1p (Host.exp (Host.negf (Host.absf (subf A C))))))

/-- No extended real differs from itself, so the guarded branch is never taken and an entry of the join is
    `max a c + log (1 + exp (-|a - c|))`. -/
theorem joinVec_apply (A C : FVec Ideal S256x1 .f32) (i : S256x1.Idx) : joinVec A C i = Cert.Lstm.joinLse (A i) (C i) := by
  have hne : Ideal.cmp .une (A i - C i) (A i - C i) = 0#1 := by
    unfold Ideal.cmp; simp
  show Scalar.select (Ideal.cmp .une (A i - C i) (A i - C i)) (A i + C i) _ = _
  rw [hne]
  rfl

/-- From any valuation, the second host stretch leaves in the joined column the join of the two halves' columns. -/
theorem join_after (W : Valuation τ sig (Elt Ideal)) :
    (StableHlo.after hostOps2 W (Proc.devRef .tc main_v21) : S256x1.Idx → EReal)
      = joinVec
          (shapeCast S256x1 (extractStridedSlice S1x256x1 ![0, 0, 0] (W (Proc.devRef .tc main_v7_1) : S2x256x1.Idx → EReal) slices_S2x256x1_S1x256x1_0_0_0) shapeCasts_S1x256x1_S256x1)
          (shapeCast S256x1 (extractStridedSlice S1x256x1 ![1, 0, 0] (W (Proc.devRef .tc main_v7_1) : S2x256x1.Idx → EReal) slices_S2x256x1_S1x256x1_1_0_0) shapeCasts_S1x256x1_S256x1) := by
  dsimp only [hostOps2]; after_results; rfl

/-- The joined log-sum-exp column is the join of the two halves' columns. -/
theorem V4_join_eq (c : Dev nD) :
    (V4 m ρ c main_v21 : S256x1.Idx → EReal)
      = joinVec
          (shapeCast S256x1 (extractStridedSlice S1x256x1 ![0, 0, 0] (V3 m ρ c main_v7_1 : S2x256x1.Idx → EReal) slices_S2x256x1_S1x256x1_0_0_0) shapeCasts_S1x256x1_S256x1)
          (shapeCast S256x1 (extractStridedSlice S1x256x1 ![1, 0, 0] (V3 m ρ c main_v7_1 : S2x256x1.Idx → EReal) slices_S2x256x1_S1x256x1_1_0_0) shapeCasts_S1x256x1_S256x1) := by
  exact join_after (W3 m ρ c)

/-- The joined log-sum-exp column, at row `b`. -/
theorem V4_join (c : Dev nD) (b : Fin 256) :
    (V4 m ρ c main_v21 : S256x1.Idx → EReal) (ix2 b (0 : Fin 1))
      = Cert.Lstm.joinLse ((V3 m ρ c main_v7_1 : S2x256x1.Idx → EReal) (ix3 (0 : Fin 2) b (0 : Fin 1)))
          ((V3 m ρ c main_v7_1 : S2x256x1.Idx → EReal) (ix3 (1 : Fin 2) b (0 : Fin 1))) := by
  rw [V4_join_eq, joinVec_apply]
  rw [half_col _ 0 ![0, 0, 0] rfl slices_S2x256x1_S1x256x1_0_0_0 b, half_col _ 1 ![1, 0, 0] rfl slices_S2x256x1_S1x256x1_1_0_0 b]

end Cert.KernelIdeal.HandRun

end
-- ==== Proof.KI.Coords.lean ====
import proofs.«116741_j80522046865747_2_alg».proof.Proof.Spec
import Idealize.ShloMosaic.Lib.ValueIdx

noncomputable section

namespace Cert.KernelIdeal.HandValue

open Idealize.ShloMosaic Idealize.ShloMosaic.ValueIdx

/-- A two-axis array of extended reals read by row and column. -/
abbrev mat {a b : Nat} (x : (⟨2, ![a, b]⟩ : Shape).Idx → EReal) : Cert.Lstm.Mat a b := fun i j => x (ix2 i j)

/-- A one-row array of extended reals read by column. -/
abbrev row {b : Nat} (x : (⟨2, ![1, b]⟩ : Shape).Idx → EReal) : Cert.Lstm.Vct b := fun n => x (ix2 0 n)

end Cert.KernelIdeal.HandValue

end
-- ==== Proof.KI.Gates.lean ====
import proofs.«116741_j80522046865747_2_alg».proof.Proof.Gen.KernelIdeal.Skeleton
import proofs.«116741_j80522046865747_2_alg».proof.Proof.KI.Coords
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen
open Idealize.ShloMosaic Idealize.ShloMosaic.ValueIdx

/-! # The gates' arithmetic on the extended reals, entry by entry -/

/-- A gate's pre-activation at entry `j` of a block: row `j 0` of the input against row `j 1` of the weight block,
    plus the bias entry `j 1`. -/
def pre (x0 : S256x4096.Idx → EReal) (w : S128x4096.Idx → EReal) (bias : S1x128.Idx → EReal) (j : S256x128.Idx) : EReal :=
  (∑ k : Fin 4096, x0 (ix2 (j 0) k) * w (ix2 (j 1) k)) + bias (ix2 0 (j 1))

/-- The matrix product into the zero accumulator, at an entry: the sum over the shared axis. -/
theorem rowsDot_apply (lhs : FVec Ideal S256x4096 .bf16) (rhs : FVec Ideal S128x4096 .bf16) (j : S256x128.Idx) :
    matmul dot_S256x4096_S128x4096_S256x128_1_1_0_0_n_n none lhs rhs (constant (F := Ideal) S256x128 .f32 0x00000000#32) j
      = ∑ k : Fin 4096, (lhs (ix2 (j 0) k) : EReal) * rhs (ix2 (j 1) k) := by
  show FloatOps.matmul dot_S256x4096_S128x4096_S256x128_1_1_0_0_n_n none lhs rhs (constant (F := Ideal) S256x128 .f32 0x00000000#32) j = _
  rw [Ideal.matmul_constant_zero_apply, ← Equiv.sum_comp (ValueIdx.contrEquiv1 dot_S256x4096_S128x4096_S256x128_1_1_0_0_n_n 4096 rfl rfl).symm]
  refine Finset.sum_congr rfl fun k _ => ?_
  have hk := ValueIdx.contrEquiv1_symm_val dot_S256x4096_S128x4096_S256x128_1_1_0_0_n_n 4096 rfl rfl k
  have el : dot_S256x4096_S128x4096_S256x128_1_1_0_0_n_n.lhsIdx j ((ValueIdx.contrEquiv1 dot_S256x4096_S128x4096_S256x128_1_1_0_0_n_n 4096 rfl rfl).symm k) = ix2 (j 0) k :=
    funext fun a => Fin.ext (by
      match a with
      | ⟨0, _⟩ =>
        show (dot_S256x4096_S128x4096_S256x128_1_1_0_0_n_n.lhsIdx j _ 0).val = (j 0).val
        unfold DotDims.lhsIdx
        rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
        rfl
      | ⟨1, _⟩ => exact (dot_S256x4096_S128x4096_S256x128_1_1_0_0_n_n.lhsIdx_val_of_single rfl j _).trans hk)
  have er : dot_S256x4096_S128x4096_S256x128_1_1_0_0_n_n.rhsIdx j ((ValueIdx.contrEquiv1 dot_S256x4096_S128x4096_S256x128_1_1_0_0_n_n 4096 rfl rfl).symm k) = ix2 (j 1) k :=
    funext fun a => Fin.ext (by
      match a with
      | ⟨0, _⟩ =>
        show (dot_S256x4096_S128x4096_S256x128_1_1_0_0_n_n.rhsIdx j _ 0).val = (j 1).val
        unfold DotDims.rhsIdx
        rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
        rfl
      | ⟨1, _⟩ => exact (dot_S256x4096_S128x4096_S256x128_1_1_0_0_n_n.rhsIdx_val_of_single rfl j _).trans hk)
  rw [el, er]
  rfl

/-- The bias row broadcast down the rows, at an entry. -/
theorem biasRow_apply (bias : Vec Ideal S1x128 .f32) (h3 : S1x128.ShapeCasts S1x128) (h4 : S1x128.Broadcasts S256x128) (j : S256x128.Idx) :
    broadcastTo S256x128 (shapeCast S1x128 bias h3) h4 j = bias (ix2 0 (j 1)) := by
  rw [shapeCast_self]
  refine broadcastTo_apply _ _ j (ix2 0 (j 1)) fun a => ?_
  match a with
  | ⟨0, _⟩ => rfl
  | ⟨1, _⟩ => rfl

/-- The pre-activation the body computes (the narrowing to bf16 is the identity on the extended reals). -/
theorem gatePre_apply (x0 : Vec Ideal S256x4096 .f32) (w : Vec Ideal S128x4096 .f32) (bias : Vec Ideal S1x128 .f32)
    (h1 : S256x4096.ShapeCasts S256x4096) (h2 : FTy.bits .bf16 < FTy.bits .f32) (h3 : S1x128.ShapeCasts S1x128) (h4 : S1x128.Broadcasts S256x128)
    (j : S256x128.Idx) :
    addf (matmul dot_S256x4096_S128x4096_S256x128_1_1_0_0_n_n none (truncf .bf16 (shapeCast S256x4096 x0 h1) h2) (truncf .bf16 w h2) (constant (F := Ideal) S256x128 .f32 0x00000000#32))
        (broadcastTo S256x128 (shapeCast S1x128 bias h3) h4) j
      = pre x0 w bias j := by
  rw [addf_apply, rowsDot_apply, biasRow_apply, shapeCast_self]
  rfl

/-- The three logistic gates and the candidate, at an entry. -/
theorem forgetGate_apply (x0 : Vec Ideal S256x4096 .f32) (w : Vec Ideal S128x4096 .f32) (bias : Vec Ideal S1x128 .f32) (j : S256x128.Idx) :
    k0_pay4 x0 w bias j = Ideal.logistic (pre x0 w bias j) := by
  unfold k0_pay4 k0_pay3
  exact congrArg Ideal.logistic (gatePre_apply x0 w bias _ _ _ _ j)

theorem inputGate_apply (x0 : Vec Ideal S256x4096 .f32) (w : Vec Ideal S128x4096 .f32) (bias : Vec Ideal S1x128 .f32) (j : S256x128.Idx) :
    k0_pay5 x0 w bias j = Ideal.logistic (pre x0 w bias j) := by
  unfold k0_pay5 k0_pay3
  exact congrArg Ideal.logistic (gatePre_apply x0 w bias _ _ _ _ j)

theorem candidate_apply (x0 : Vec Ideal S256x4096 .f32) (w : Vec Ideal S128x4096 .f32) (bias : Vec Ideal S1x128 .f32) (j : S256x128.Idx) :
    k0_pay6 x0 w bias j = Ideal.tanh (pre x0 w bias j) := by
  unfold k0_pay6 k0_pay3
  exact congrArg Ideal.tanh (gatePre_apply x0 w bias _ _ _ _ j)

theorem outputGate_apply (x0 : Vec Ideal S256x4096 .f32) (w : Vec Ideal S128x4096 .f32) (bias : Vec Ideal S1x128 .f32) (j : S256x128.Idx) :
    k0_pay7 x0 w bias j = Ideal.logistic (pre x0 w bias j) := by
  unfold k0_pay7 k0_pay3
  exact congrArg Ideal.logistic (gatePre_apply x0 w bias _ _ _ _ j)

/-- The new cell's block at an entry: forget gate times old cell plus input gate times candidate. -/
theorem cellBlock_apply (x0 : Vec Ideal S256x4096 .f32) (x1 x2 x3 : Vec Ideal S128x4096 .f32) (x5 x6 x7 : Vec Ideal S1x128 .f32)
    (x9 : Vec Ideal S256x128 .f32) (j : S256x128.Idx) :
    k0_pay1 (k0_pay4 x0 x1 x5) (k0_pay5 x0 x2 x6) (k0_pay6 x0 x3 x7) x9 j
      = Ideal.logistic (pre x0 x1 x5 j) * (x9 j : EReal) + Ideal.logistic (pre x0 x2 x6 j) * Ideal.tanh (pre x0 x3 x7 j) := by
  unfold k0_pay1
  rw [addf_apply, mulf_apply, mulf_apply, forgetGate_apply, inputGate_apply, candidate_apply]

/-- The new hidden state's block at an entry: output gate times `tanh` of the new cell. -/
theorem hiddenBlock_apply (x0 : Vec Ideal S256x4096 .f32) (x1 x2 x3 x4 : Vec Ideal S128x4096 .f32) (x5 x6 x7 x8 : Vec Ideal S1x128 .f32)
    (x9 : Vec Ideal S256x128 .f32) (j : S256x128.Idx) :
    k0_pay2 (k0_pay4 x0 x1 x5) (k0_pay5 x0 x2 x6) (k0_pay6 x0 x3 x7) (k0_pay7 x0 x4 x8) x9 j
      = Ideal.logistic (pre x0 x4 x8 j)
        * Ideal.tanh (Ideal.logistic (pre x0 x1 x5 j) * (x9 j : EReal) + Ideal.logistic (pre x0 x2 x6 j) * Ideal.tanh (pre x0 x3 x7 j)) := by
  unfold k0_pay2
  rw [mulf_apply, outputGate_apply]
  show _ * Ideal.tanh (k0_pay1 (k0_pay4 x0 x1 x5) (k0_pay5 x0 x2 x6) (k0_pay6 x0 x3 x7) x9 j) = _
  rw [cellBlock_apply]

end Cert.KernelIdeal.HandValue

end
-- ==== Proof.KI.Value0.lean ====
import proofs.«116741_j80522046865747_2_alg».proof.Proof.KI.Region0
import proofs.«116741_j80522046865747_2_alg».proof.Proof.KI.Coords
import proofs.«116741_j80522046865747_2_alg».proof.Proof.KI.Gates
import proofs.«116741_j80522046865747_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

-- the TensorCore's buffer contents when the region is entered, on the extended reals
variable (V : (c : Dev nD) → (b : Ref sig .tc) → Buf (Elt Ideal) ((c : Thread nD τ).loc b))

open scoped BigOperators

/-! # Region 0's results: the new cell and the new hidden state, entry by entry -/

theorem zeroOffsets0 : (![0, 0] : Fin 2 → Nat) = fun _ => 0 := funext fun a => by fin_cases a <;> rfl

/-! ## The block index maps over the grid -/

/-- The concatenated input is read whole at every point. -/
theorem blockIndex0_input : ∀ t : Fin cfg0.N, win0_0.index t (0 : Fin 2) = 0 ∧ win0_0.index t (1 : Fin 2) = 0 :=
  (by decide +kernel : ∀ t : Fin grid0.N, _)

/-- Each weight's block at point `t` is row block `t`. -/
theorem blockIndex0_weights : ∀ t : Fin cfg0.N,
    win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Each bias's block at point `t` is column block `t`. -/
theorem blockIndex0_biases : ∀ t : Fin cfg0.N,
    win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-- The old cell's and the two results' block at point `t` is column block `t`. -/
theorem blockIndex0_cells : ∀ t : Fin cfg0.N,
    win0_9.index t (0 : Fin 2) = 0 ∧ win0_9.index t (1 : Fin 2) = t.val
    ∧ win0_10.index t (0 : Fin 2) = 0 ∧ win0_10.index t (1 : Fin 2) = t.val
    ∧ win0_11.index t (0 : Fin 2) = 0 ∧ win0_11.index t (1 : Fin 2) = t.val :=
  (by decide +kernel : ∀ t : Fin grid0.N, _)

/-! ## Each input block as entries of its array -/

/-- The input's block is the input. -/
theorem inputBlock_apply (c : Dev nD) (t : Fin cfg0.N) (y : S256x4096.Idx) :
    (iblk0 V c 0 t : S256x4096.Idx → EReal) y = (V c main_v0 : S256x4096.Idx → EReal) y := by
  obtain ⟨e0, e1⟩ := blockIndex0_input t
  show V c main_v0 (((cfg0.win 0).blk t).view.emb y) = V c main_v0 y
  refine congrArg _ (funext fun a => Fin.ext ?_)
  match a with
  | ⟨0, _⟩ => show win0_0.index t (0 : Fin 2) * 256 + 1 * (y 0).val = (y 0).val; omega
  | ⟨1, _⟩ => show win0_0.index t (1 : Fin 2) * 4096 + 1 * (y 1).val = (y 1).val; omega

/-- Weight window 1's block at point `t` is rows `128 t … 128 t + 127` of its array. -/
theorem weightBlock1_apply (c : Dev nD) (t : Fin cfg0.N) (y : S128x4096.Idx) (i : S4096x4096.Idx)
    (h0 : (i 0).val = t.val * 128 + (y 0).val) (h1 : (i 1).val = (y 1).val) :
    (iblk0 V c 1 t : S128x4096.Idx → EReal) y = (V c main_arg4 : S4096x4096.Idx → EReal) i := by
  obtain ⟨e1a, e1b, e2a, e2b, e3a, e3b, e4a, e4b⟩ := blockIndex0_weights t
  show V c main_arg4 (((cfg0.win 1).blk t).view.emb y) = V c main_arg4 i
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 4096 + 1 * (y 1).val = (i 1).val; omega

/-- Weight window 2's block at point `t` is rows `128 t … 128 t + 127` of its array. -/
theorem weightBlock2_apply (c : Dev nD) (t : Fin cfg0.N) (y : S128x4096.Idx) (i : S4096x4096.Idx)
    (h0 : (i 0).val = t.val * 128 + (y 0).val) (h1 : (i 1).val = (y 1).val) :
    (iblk0 V c 2 t : S128x4096.Idx → EReal) y = (V c main_arg6 : S4096x4096.Idx → EReal) i := by
  obtain ⟨e1a, e1b, e2a, e2b, e3a, e3b, e4a, e4b⟩ := blockIndex0_weights t
  show V c main_arg6 (((cfg0.win 2).blk t).view.emb y) = V c main_arg6 i
  refine congrArg _ (funext fun a => Fin.ext ?_)
  match a with
  | ⟨0, _⟩ => show win0_2.index t (0 : Fin 2) * 128 + 1 * (y 0).val = (i 0).val; omega
  | ⟨1, _⟩ => show win0_2.index t (1 : Fin 2) * 4096 + 1 * (y 1).val = (i 1).val; omega

/-- Weight window 3's block at point `t` is rows `128 t … 128 t + 127` of its array. -/
theorem weightBlock3_apply (c : Dev nD) (t : Fin cfg0.N) (y : S128x4096.Idx) (i : S4096x4096.Idx)
    (h0 : (i 0).val = t.val * 128 + (y 0).val) (h1 : (i 1).val = (y 1).val) :
    (iblk0 V c 3 t : S128x4096.Idx → EReal) y = (V c main_arg8 : S4096x4096.Idx → EReal) i := by
  obtain ⟨e1a, e1b, e2a, e2b, e3a, e3b, e4a, e4b⟩ := blockIndex0_weights t
  show V c main_arg8 (((cfg0.win 3).blk t).view.emb y) = V c main_arg8 i
  refine congrArg _ (funext fun a => Fin.ext ?_)
  match a with
  | ⟨0, _⟩ => show win0_3.index t (0 : Fin 2) * 128 + 1 * (y 0).val = (i 0).val; omega
  | ⟨1, _⟩ => show win0_3.index t (1 : Fin 2) * 4096 + 1 * (y 1).val = (i 1).val; omega

/-- Weight window 4's block at point `t` is rows `128 t … 128 t + 127` of its array. -/
theorem weightBlock4_apply (c : Dev nD) (t : Fin cfg0.N) (y : S128x4096.Idx) (i : S4096x4096.Idx)
    (h0 : (i 0).val = t.val * 128 + (y 0).val) (h1 : (i 1).val = (y 1).val) :
    (iblk0 V c 4 t : S128x4096.Idx → EReal) y = (V c main_arg10 : S4096x4096.Idx → EReal) i := by
  obtain ⟨e1a, e1b, e2a, e2b, e3a, e3b, e4a, e4b⟩ := blockIndex0_weights t
  show V c main_arg10 (((cfg0.win 4).blk t).view.emb y) = V c main_arg10 i
  refine congrArg _ (funext fun a => Fin.ext ?_)
  match a with
  | ⟨0, _⟩ => show win0_4.index t (0 : Fin 2) * 128 + 1 * (y 0).val = (i 0).val; omega
  | ⟨1, _⟩ => show win0_4.index t (1 : Fin 2) * 4096 + 1 * (y 1).val = (i 1).val; omega

/-- Bias window 5's block at point `t` is columns `128 t … 128 t + 127` of its row. -/
theorem biasBlock5_apply (c : Dev nD) (t : Fin cfg0.N) (y : S1x128.Idx) (i : S1x4096.Idx)
    (h1 : (i 1).val = t.val * 128 + (y 1).val) :
    (iblk0 V c 5 t : S1x128.Idx → EReal) y = (V c main_v1 : S1x4096.Idx → EReal) i := by
  obtain ⟨e5a, e5b, e6a, e6b, e7a, e7b, e8a, e8b⟩ := blockIndex0_biases t
  have hy0 : (y 0).val = 0 := by have h : (y 0).val < 1 := (y 0).isLt; omega
  have hi0 : (i 0).val = 0 := by have h : (i 0).val < 1 := (i 0).isLt; omega
  show V c main_v1 (((cfg0.win 5).blk t).view.emb y) = V c main_v1 i
  refine congrArg _ (funext fun a => Fin.ext ?_)
  match a with
  | ⟨0, _⟩ => show win0_5.index t (0 : Fin 2) * 1 + 1 * (y 0).val = (i 0).val; omega
  | ⟨1, _⟩ => show win0_5.index t (1 : Fin 2) * 128 + 1 * (y 1).val = (i 1).val; omega

/-- Bias window 6's block at point `t` is columns `128 t … 128 t + 127` of its row. -/
theorem biasBlock6_apply (c : Dev nD) (t : Fin cfg0.N) (y : S1x128.Idx) (i : S1x4096.Idx)
    (h1 : (i 1).val = t.val * 128 + (y 1).val) :
    (iblk0 V c 6 t : S1x128.Idx → EReal) y = (V c main_v2 : S1x4096.Idx → EReal) i := by
  obtain ⟨e5a, e5b, e6a, e6b, e7a, e7b, e8a, e8b⟩ := blockIndex0_biases t
  have hy0 : (y 0).val = 0 := by have h : (y 0).val < 1 := (y 0).isLt; omega
  have hi0 : (i 0).val = 0 := by have h : (i 0).val < 1 := (i 0).isLt; omega
  show V c main_v2 (((cfg0.win 6).blk t).view.emb y) = V c main_v2 i
  refine congrArg _ (funext fun a => Fin.ext ?_)
  match a with
  | ⟨0, _⟩ => show win0_6.index t (0 : Fin 2) * 1 + 1 * (y 0).val = (i 0).val; omega
  | ⟨1, _⟩ => show win0_6.index t (1 : Fin 2) * 128 + 1 * (y 1).val = (i 1).val; omega

/-- Bias window 7's block at point `t` is columns `128 t … 128 t + 127` of its row. -/
theorem biasBlock7_apply (c : Dev nD) (t : Fin cfg0.N) (y : S1x128.Idx) (i : S1x4096.Idx)
    (h1 : (i 1).val = t.val * 128 + (y 1).val) :
    (iblk0 V c 7 t : S1x128.Idx → EReal) y = (V c main_v3 : S1x4096.Idx → EReal) i := by
  obtain ⟨e5a, e5b, e6a, e6b, e7a, e7b, e8a, e8b⟩ := blockIndex0_biases t
  have hy0 : (y 0).val = 0 := by have h : (y 0).val < 1 := (y 0).isLt; omega
  have hi0 : (i 0).val = 0 := by have h : (i 0).val < 1 := (i 0).isLt; omega
  show V c main_v3 (((cfg0.win 7).blk t).view.emb y) = V c main_v3 i
  refine congrArg _ (funext fun a => Fin.ext ?_)
  match a with
  | ⟨0, _⟩ => show win0_7.index t (0 : Fin 2) * 1 + 1 * (y 0).val = (i 0).val; omega
  | ⟨1, _⟩ => show win0_7.index t (1 : Fin 2) * 128 + 1 * (y 1).val = (i 1).val; omega

/-- Bias window 8's block at point `t` is columns `128 t … 128 t + 127` of its row. -/
theorem biasBlock8_apply (c : Dev nD) (t : Fin cfg0.N) (y : S1x128.Idx) (i : S1x4096.Idx)
    (h1 : (i 1).val = t.val * 128 + (y 1).val) :
    (iblk0 V c 8 t : S1x128.Idx → EReal) y = (V c main_v4 : S1x4096.Idx → EReal) i := by
  obtain ⟨e5a, e5b, e6a, e6b, e7a, e7b, e8a, e8b⟩ := blockIndex0_biases t
  have hy0 : (y 0).val = 0 := by have h : (y 0).val < 1 := (y 0).isLt; omega
  have hi0 : (i 0).val = 0 := by have h : (i 0).val < 1 := (i 0).isLt; omega
  show V c main_v4 (((cfg0.win 8).blk t).view.emb y) = V c main_v4 i
  refine congrArg _ (funext fun a => Fin.ext ?_)
  match a with
  | ⟨0, _⟩ => show win0_8.index t (0 : Fin 2) * 1 + 1 * (y 0).val = (i 0).val; omega
  | ⟨1, _⟩ => show win0_8.index t (1 : Fin 2) * 128 + 1 * (y 1).val = (i 1).val; omega

/-- The old cell's block at point `t` is columns `128 t … 128 t + 127` of the old cell. -/
theorem cellBlock9_apply (c : Dev nD) (t : Fin cfg0.N) (y : S256x128.Idx) (i : S256x4096.Idx)
    (h0 : (i 0).val = (y 0).val) (h1 : (i 1).val = t.val * 128 + (y 1).val) :
    (iblk0 V c 9 t : S256x128.Idx → EReal) y = (V c main_arg3 : S256x4096.Idx → EReal) i := by
  obtain ⟨e9a, e9b, e10a, e10b, e11a, e11b⟩ := blockIndex0_cells t
  show V c main_arg3 (((cfg0.win 9).blk t).view.emb y) = V c main_arg3 i
  refine congrArg _ (funext fun a => Fin.ext ?_)
  match a with
  | ⟨0, _⟩ => show win0_9.index t (0 : Fin 2) * 256 + 1 * (y 0).val = (i 0).val; omega
  | ⟨1, _⟩ => show win0_9.index t (1 : Fin 2) * 128 + 1 * (y 1).val = (i 1).val; omega

/-! ## From the blocks' arithmetic to the specification's -/

/-- A block's pre-activation is the affine map's entry, once each block entry is its array's. -/
theorem pre_eq_affine (A : S256x4096.Idx → EReal) (W : S4096x4096.Idx → EReal) (bia : S1x4096.Idx → EReal)
    (x0 : S256x4096.Idx → EReal) (w : S128x4096.Idx → EReal) (bb : S1x128.Idx → EReal) (j : S256x128.Idx) (n : Fin 4096)
    (hx0 : ∀ k : Fin 4096, x0 (ix2 (j 0) k) = A (ix2 (j 0) k))
    (hw : ∀ k : Fin 4096, w (ix2 (j 1) k) = W (ix2 n k))
    (hb : bb (ix2 0 (j 1)) = bia (ix2 0 n)) :
    pre x0 w bb j = Cert.Lstm.affine (mat A) (mat W) (row bia) (j 0) n := by
  show (∑ k : Fin 4096, x0 (ix2 (j 0) k) * w (ix2 (j 1) k)) + bb (ix2 0 (j 1)) = (∑ k : Fin 4096, A (ix2 (j 0) k) * W (ix2 n k)) + bia (ix2 0 n)
  rw [hb, Finset.sum_congr rfl fun k _ => by rw [hx0 k, hw k]]

/-- The new cell as one function of the arrays the region reads. -/
def cellArr (c : Dev nD) : S256x4096.Idx → EReal := fun i =>
  Cert.Lstm.cellNew (mat (V c main_v0)) (mat (V c main_arg3)) (mat (V c main_arg4)) (row (V c main_v1)) (mat (V c main_arg6)) (row (V c main_v2))
    (mat (V c main_arg8)) (row (V c main_v3)) (i 0) (i 1)

/-- The new hidden state as one function of the arrays the region reads. -/
def hiddenArr (c : Dev nD) : S256x4096.Idx → EReal := fun i =>
  Cert.Lstm.hidNew (mat (V c main_v0))
    (Cert.Lstm.cellNew (mat (V c main_v0)) (mat (V c main_arg3)) (mat (V c main_arg4)) (row (V c main_v1)) (mat (V c main_arg6)) (row (V c main_v2))
      (mat (V c main_arg8)) (row (V c main_v3)))
    (mat (V c main_arg10)) (row (V c main_v4)) (i 0) (i 1)

/-- Where entry `j` of a result block at point `t` sits in the result array: same row, column `128 t + j 1`. -/
theorem resultCoords10 (t : Fin cfg0.N) (j : S256x128.Idx) :
    ((((cfg0.win 10).blk t).view.emb j) 0).val = (j 0).val ∧ ((((cfg0.win 10).blk t).view.emb j) 1).val = t.val * 128 + (j 1).val := by
  obtain ⟨e9a, e9b, e10a, e10b, e11a, e11b⟩ := blockIndex0_cells t
  constructor
  · show win0_10.index t (0 : Fin 2) * 256 + 1 * (j 0).val = (j 0).val; omega
  · show win0_10.index t (1 : Fin 2) * 128 + 1 * (j 1).val = t.val * 128 + (j 1).val; omega

theorem resultCoords11 (t : Fin cfg0.N) (j : S256x128.Idx) :
    ((((cfg0.win 11).blk t).view.emb j) 0).val = (j 0).val ∧ ((((cfg0.win 11).blk t).view.emb j) 1).val = t.val * 128 + (j 1).val := by
  obtain ⟨e9a, e9b, e10a, e10b, e11a, e11b⟩ := blockIndex0_cells t
  constructor
  · show win0_11.index t (0 : Fin 2) * 256 + 1 * (j 0).val = (j 0).val; omega
  · show win0_11.index t (1 : Fin 2) * 128 + 1 * (j 1).val = t.val * 128 + (j 1).val; omega

/-- The blocks' new-cell arithmetic at entry `j` of point `t` is the specification's new cell at row `r = j 0`, column
    `n = 128 t + j 1`. -/
theorem cell_at_point (c : Dev nD) (t : Fin cfg0.N) (j : S256x128.Idx) (r : Fin 256) (n : Fin 4096)
    (hr : r = j 0) (hn : n.val = t.val * 128 + (j 1).val) :
    Ideal.logistic (pre (iblk0 V c 0 t) (iblk0 V c 1 t) (iblk0 V c 5 t) j) * ((iblk0 V c 9 t : S256x128.Idx → EReal) j)
        + Ideal.logistic (pre (iblk0 V c 0 t) (iblk0 V c 2 t) (iblk0 V c 6 t) j) * Ideal.tanh (pre (iblk0 V c 0 t) (iblk0 V c 3 t) (iblk0 V c 7 t) j)
      = Cert.Lstm.cellNew (mat (V c main_v0)) (mat (V c main_arg3)) (mat (V c main_arg4)) (row (V c main_v1)) (mat (V c main_arg6)) (row (V c main_v2))
          (mat (V c main_arg8)) (row (V c main_v3)) r n := by
  subst hr
  unfold Cert.Lstm.cellNew
  rw [pre_eq_affine (V c main_v0) (V c main_arg4) (V c main_v1) (iblk0 V c 0 t) (iblk0 V c 1 t) (iblk0 V c 5 t) j n
      (fun k => inputBlock_apply V c t _) (fun k => weightBlock1_apply V c t _ _ hn rfl) (biasBlock5_apply V c t _ _ hn),
    pre_eq_affine (V c main_v0) (V c main_arg6) (V c main_v2) (iblk0 V c 0 t) (iblk0 V c 2 t) (iblk0 V c 6 t) j n
      (fun k => inputBlock_apply V c t _) (fun k => weightBlock2_apply V c t _ _ hn rfl) (biasBlock6_apply V c t _ _ hn),
    pre_eq_affine (V c main_v0) (V c main_arg8) (V c main_v3) (iblk0 V c 0 t) (iblk0 V c 3 t) (iblk0 V c 7 t) j n
      (fun k => inputBlock_apply V c t _) (fun k => weightBlock3_apply V c t _ _ hn rfl) (biasBlock7_apply V c t _ _ hn),
    cellBlock9_apply V c t j (ix2 (j 0) n) rfl hn]

/-- What point `t` writes back to the new cell's array is block `t` of `cellArr`. -/
theorem flushed10_eq (c : Dev nD) (t : Fin cfg0.N) :
    (dat0 V c).flushed 10 t = ((cfg0.win 10).blk t).view.read (Elt Ideal) (cellArr V c) := by
  show (cfg0.win 10).cut (grid0.coords t) ((dat0 V c).after 10 t) = _
  rw [after0_10]
  unfold out0_10
  rw [View.canon_unit_zero zeroOffsets0]
  simp only [gateF, gateI, gateC, gateO, View.ld_unit_zero (S := S256x4096) zeroOffsets0, View.ld_unit_zero (S := S128x4096) zeroOffsets0,
    View.ld_unit_zero (S := S1x128) zeroOffsets0, View.ld_unit_zero (S := S256x128) zeroOffsets0]
  funext j
  refine (cellBlock_apply (iblk0 V c 0 t) (iblk0 V c 1 t) (iblk0 V c 2 t) (iblk0 V c 3 t) (iblk0 V c 5 t) (iblk0 V c 6 t) (iblk0 V c 7 t) (iblk0 V c 9 t) j).trans ?_
  obtain ⟨h0, h1⟩ := resultCoords10 t j
  exact cell_at_point V c t j _ _ (Fin.ext h0) h1

/-- What point `t` writes back to the new hidden state's array is block `t` of `hiddenArr`. -/
theorem flushed11_eq (c : Dev nD) (t : Fin cfg0.N) :
    (dat0 V c).flushed 11 t = ((cfg0.win 11).blk t).view.read (Elt Ideal) (hiddenArr V c) := by
  show (cfg0.win 11).cut (grid0.coords t) ((dat0 V c).after 11 t) = _
  rw [after0_11]
  unfold out0_11
  rw [View.canon_unit_zero zeroOffsets0]
  simp only [gateF, gateI, gateC, gateO, View.ld_unit_zero (S := S256x4096) zeroOffsets0, View.ld_unit_zero (S := S128x4096) zeroOffsets0,
    View.ld_unit_zero (S := S1x128) zeroOffsets0, View.ld_unit_zero (S := S256x128) zeroOffsets0]
  funext j
  refine (hiddenBlock_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) j).trans ?_
  obtain ⟨h0, h1⟩ := resultCoords11 t j
  have hr : (((cfg0.win 11).blk t).view.emb j) 0 = j 0 := Fin.ext h0
  show _ = Cert.Lstm.hidNew (mat (V c main_v0)) _ (mat (V c main_arg10)) (row (V c main_v4)) ((((cfg0.win 11).blk t).view.emb j) 0) ((((cfg0.win 11).blk t).view.emb j) 1)
  unfold Cert.Lstm.hidNew
  rw [cell_at_point V c t j _ _ hr h1,
    pre_eq_affine (V c main_v0) (V c main_arg10) (V c main_v4) (iblk0 V c 0 t) (iblk0 V c 4 t) (iblk0 V c 8 t) j _
      (fun k => inputBlock_apply V c t _) (fun k => weightBlock4_apply V c t _ _ h1 rfl) (biasBlock8_apply V c t _ _ h1), hr]

/-! ## The cover: every entry of a result is in the block of the point its column falls in -/

theorem mem_blk10 (t : Fin cfg0.N) (i : S256x4096.Idx) :
    i ∈ ((cfg0.win 10).blk t).view.set ↔ ∀ a : Fin 2, win0_10.index t a * S256x128.size a ≤ (i a).val ∧ (i a).val < win0_10.index t a * S256x128.size a + S256x128.size a := by
  show i ∈ ((View.whole main_v6_0).slice (win0_10.rect t)).set ↔ _
  rw [View.set_slice_whole, Rect.mem_set_unit]
  exact Iff.rfl

theorem mem_blk11 (t : Fin cfg0.N) (i : S256x4096.Idx) :
    i ∈ ((cfg0.win 11).blk t).view.set ↔ ∀ a : Fin 2, win0_11.index t a * S256x128.size a ≤ (i a).val ∧ (i a).val < win0_11.index t a * S256x128.size a + S256x128.size a := by
  show i ∈ ((View.whole main_v6_1).slice (win0_11.rect t)).set ↔ _
  rw [View.set_slice_whole, Rect.mem_set_unit]
  exact Iff.rfl

theorem cover10 (i : S256x4096.Idx) : ∃ t : Fin cfg0.N, (cfg0.win 10).flush t = true ∧ i ∈ ((cfg0.win 10).blk t).view.set := by
  have hi0 : (i 0).val < 256 := (i 0).isLt
  have hi1 : (i 1).val < 4096 := (i 1).isLt
  have hN : cfg0.N = 32 := N_0
  obtain ⟨t, ht⟩ : ∃ t : Fin cfg0.N, t.val = (i 1).val / 128 := ⟨⟨(i 1).val / 128, by rw [hN]; omega⟩, rfl⟩
  obtain ⟨e9a, e9b, e10a, e10b, e11a, e11b⟩ := blockIndex0_cells t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 128 ≤ (i 1).val ∧ (i 1).val < win0_10.index t (1 : Fin 2) * 128 + 128; omega

theorem cover11 (i : S256x4096.Idx) : ∃ t : Fin cfg0.N, (cfg0.win 11).flush t = true ∧ i ∈ ((cfg0.win 11).blk t).view.set := by
  have hi0 : (i 0).val < 256 := (i 0).isLt
  have hi1 : (i 1).val < 4096 := (i 1).isLt
  have hN : cfg0.N = 32 := N_0
  obtain ⟨t, ht⟩ : ∃ t : Fin cfg0.N, t.val = (i 1).val / 128 := ⟨⟨(i 1).val / 128, by rw [hN]; omega⟩, rfl⟩
  obtain ⟨e9a, e9b, e10a, e10b, e11a, e11b⟩ := blockIndex0_cells t
  refine ⟨t, flush0_11 t, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 128 ≤ (i 1).val ∧ (i 1).val < win0_11.index t (1 : Fin 2) * 128 + 128; omega

/-! ## The result arrays after the region -/

theorem final10 (c : Dev nD) : (dat0 V c).arrAt 10 cfg0.N = cellArr V c :=
  (dat0 V c).arrAt_eq_of_cover 10 (cellArr V c) (fun t _ => flushed10_eq V c t) cover10

theorem final11 (c : Dev nD) : (dat0 V c).arrAt 11 cfg0.N = hiddenArr V c :=
  (dat0 V c).arrAt_eq_of_cover 11 (hiddenArr V c) (fun t _ => flushed11_eq V c t) cover11

/-- Entry by entry: the new cell. -/
theorem value0_cell (c : Dev nD) (b : Fin 256) (n : Fin 4096) :
    (mat ((dat0 (F := Ideal) V c).arrAt 10 cfg0.N) : Cert.Lstm.Mat 256 4096) b n
      = Cert.Lstm.cellNew (mat (V c main_v0)) (mat (V c main_arg3)) (mat (V c main_arg4)) (row (V c main_v1)) (mat (V c main_arg6)) (row (V c main_v2))
          (mat (V c main_arg8)) (row (V c main_v3)) b n := by
  rw [final10]; rfl

/-- Entry by entry: the new hidden state. -/
theorem value0_hidden (c : Dev nD) (b : Fin 256) (n : Fin 4096) :
    (mat ((dat0 (F := Ideal) V c).arrAt 11 cfg0.N) : Cert.Lstm.Mat 256 4096) b n
      = Cert.Lstm.hidNew (mat (V c main_v0))
          (Cert.Lstm.cellNew (mat (V c main_v0)) (mat (V c main_arg3)) (mat (V c main_arg4)) (row (V c main_v1)) (mat (V c main_arg6)) (row (V c main_v2))
            (mat (V c main_arg8)) (row (V c main_v3)))
          (mat (V c main_arg10)) (row (V c main_v4)) b n := by
  rw [final11]; rfl

end Cert.KernelIdeal.HandValue

end
-- ==== Proof.KI.Pay1.lean ====
/-
  The streaming kernel's arithmetic read at an index, on the extended reals.

  For a row `b` and a column `q` of the block: the block's logit at `(b, q)` is the sum over the 4096 features of the
  hidden state's row against the read-out weights' row `q`, plus the bias at `q`; the new running maximum at `b` is the
  old one against the fold of `max` from `⊥` over the block's 640 logits of the row; the new running sum is the old one
  times `exp (old maximum - new maximum)` plus the sum over the block of `exp (logit - new maximum)`; the reset values are
  `⊥` and `0`; and a half's result is the running maximum plus the logarithm of the running sum. Columns `[256, 1]` are
  read at `(b, 0)`, the half's result `[1, 256, 1]` at `(0, b, 0)`.
-/
import proofs.«116741_j80522046865747_2_alg».proof.Proof.Gen.KernelIdeal.Skeleton
import proofs.«116741_j80522046865747_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-- The bit pattern of negative infinity denotes `⊥`. -/
theorem ofBits_neg_inf_f32 : Ideal.ofBits .f32 0xFF800000#32 = ⊥ := by simp [Ideal.ofBits, Ideal.ieee]

theorem pay1_eq {F : FTy → Type} [FloatOps F] (v : FVec F S256x1 .f32) : k1_pay1 v = v := shapeCast_self v _

theorem pay1_apply (v : FVec Ideal S256x1 .f32) (b : Fin 256) : k1_pay1 v (ix2 b 0) = v (ix2 b 0) := by
  rw [pay1_eq]

theorem pay3_apply (b : Fin 256) : k1_pay3 (F := Ideal) (ix2 b 0) = ⊥ := by
  unfold k1_pay3
  rw [shapeCast_self]
  exact ofBits_neg_inf_f32

theorem pay4_apply (b : Fin 256) : k1_pay4 (F := Ideal) (ix2 b 0) = 0 := by
  unfold k1_pay4
  rw [shapeCast_self]
  exact Ideal.ofBits_zero_f32

theorem pay2_apply (mm ll : Vec Ideal S256x1 .f32) (b : Fin 256) :
    k1_pay2 mm ll (ix3 0 b 0) = mm (ix2 b 0) + Ideal.log (ll (ix2 b 0)) := by
  unfold k1_pay2
  exact shapeCast_ab_1ab_apply _ _ 0 b 0

theorem lhsIdx_0 (i : S256x640.Idx) (k : dot_S256x4096_S640x4096_S256x640_1_1_0_0_n_n.contr.Idx) : (dot_S256x4096_S640x4096_S256x640_1_1_0_0_n_n.lhsIdx i k 0).val = (i 0).val := by
  unfold DotDims.lhsIdx
  rw [dif_neg (show ¬(0 : Fin S256x4096.rank) ∈ dot_S256x4096_S640x4096_S256x640_1_1_0_0_n_n.lhsBatch by decide),
    dif_pos (show (0 : Fin S256x4096.rank) ∈ dot_S256x4096_S640x4096_S256x640_1_1_0_0_n_n.lhsNonContracting by decide)]
  rfl

theorem rhsIdx_0 (i : S256x640.Idx) (k : dot_S256x4096_S640x4096_S256x640_1_1_0_0_n_n.contr.Idx) : (dot_S256x4096_S640x4096_S256x640_1_1_0_0_n_n.rhsIdx i k 0).val = (i 1).val := by
  unfold DotDims.rhsIdx
  rw [dif_neg (show ¬(0 : Fin S640x4096.rank) ∈ dot_S256x4096_S640x4096_S256x640_1_1_0_0_n_n.rhsBatch by decide),
    dif_pos (show (0 : Fin S640x4096.rank) ∈ dot_S256x4096_S640x4096_S256x640_1_1_0_0_n_n.rhsNonContracting by decide)]
  rfl

theorem lhsIdx_eq (b : Fin 256) (q : Fin 640) (k : Fin 4096) :
    dot_S256x4096_S640x4096_S256x640_1_1_0_0_n_n.lhsIdx (ix2 b q) ((contrEquiv1 dot_S256x4096_S640x4096_S256x640_1_1_0_0_n_n 4096 rfl rfl).symm k) = ix2 b k := by
  have hk := contrEquiv1_symm_val dot_S256x4096_S640x4096_S256x640_1_1_0_0_n_n 4096 rfl rfl k
  exact funext fun a => Fin.ext (by
    match a with
    | ⟨0, _⟩ => exact lhsIdx_0 _ _
    | ⟨1, _⟩ => exact (dot_S256x4096_S640x4096_S256x640_1_1_0_0_n_n.lhsIdx_val_of_single rfl _ _).trans hk)

theorem rhsIdx_eq (b : Fin 256) (q : Fin 640) (k : Fin 4096) :
    dot_S256x4096_S640x4096_S256x640_1_1_0_0_n_n.rhsIdx (ix2 b q) ((contrEquiv1 dot_S256x4096_S640x4096_S256x640_1_1_0_0_n_n 4096 rfl rfl).symm k) = ix2 q k := by
  have hk := contrEquiv1_symm_val dot_S256x4096_S640x4096_S256x640_1_1_0_0_n_n 4096 rfl rfl k
  exact funext fun a => Fin.ext (by
    match a with
    | ⟨0, _⟩ => exact rhsIdx_0 _ _
    | ⟨1, _⟩ => exact (dot_S256x4096_S640x4096_S256x640_1_1_0_0_n_n.rhsIdx_val_of_single rfl _ _).trans hk)

/-- A logit of the block: the row of the hidden state against the row of the read-out weights, plus the bias. -/
theorem pay5_apply (x3 : Vec Ideal S256x4096 .f32) (x6 : Vec Ideal S640x4096 .f32) (x9 : Vec Ideal S1x640 .f32)
    (b : Fin 256) (q : Fin 640) :
    k1_pay5 x3 x6 x9 (ix2 b q) = (∑ k : Fin 4096, x3 (ix2 b k) * x6 (ix2 q k)) + x9 (ix2 0 q) := by
  unfold k1_pay5
  rw [shapeCast_self, shapeCast_self]
  refine (addf_apply _ _ _).trans ?_
  simp only [matmul]
  rw [Ideal.matmul_constant_zero_apply, broadcastTo_1b_ab_apply, ← Equiv.sum_comp (contrEquiv1 dot_S256x4096_S640x4096_S256x640_1_1_0_0_n_n 4096 rfl rfl).symm]
  congr 1
  refine Finset.sum_congr rfl fun k _ => ?_
  rw [lhsIdx_eq, rhsIdx_eq]
  rfl

/-- A vector of `a` entries cast to a column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `b` with column `q` inserted is `(b, q)`. -/
theorem lift_row (b : Fin 256) (q : Fin 640) : reduces_S256x640_S256.lift (ix1 b) q = ix2 b q :=
  funext fun a => match a with
    | ⟨0, _⟩ => Fin.ext rfl
    | ⟨1, _⟩ => Fin.ext rfl

/-- The maximum over the columns of a block, from negative infinity, at row `b`. -/
theorem rowMax_apply (src : FVec Ideal S256x640 .f32) (b : Fin 256) :
    multiReduction .maximumf [1] S256 src 0xFF800000#32 reduces_S256x640_S256 (.inl rfl) rfl (ix1 b)
      = (Finset.univ : Finset (Fin 640)).fold max ⊥ (fun q => src (ix2 b q)) := by
  refine (Ideal.multiReduction_maximumf_single src _ reduces_S256x640_S256 (.inl rfl) rfl (ix1 b)).trans ?_
  exact congrArg₂ (fun (z : EReal) (f : Fin 640 → EReal) => (Finset.univ : Finset (Fin 640)).fold max z f)
    ofBits_neg_inf_f32 (funext fun q => congrArg src (lift_row b q))

/-- The sum over the columns of a block at row `b`. -/
theorem rowSum_apply (src : FVec Ideal S256x640 .f32) (b : Fin 256) :
    multiReduction .add [1] S256 src 0x00000000#32 reduces_S256x640_S256 (.inl rfl) rfl (ix1 b)
      = ∑ q : Fin 640, src (ix2 b q) := by
  refine (Ideal.multiReduction_add_single src _ reduces_S256x640_S256 (.inl rfl) rfl (ix1 b)).trans ?_
  exact Finset.sum_congr rfl fun q _ => congrArg src (lift_row b q)

/-- The new running maximum of row `b`: the old one against the block's maximum. -/
theorem pay6_apply (x3 : Vec Ideal S256x4096 .f32) (x6 : Vec Ideal S640x4096 .f32) (x9 : Vec Ideal S1x640 .f32)
    (mo : Vec Ideal S256x1 .f32) (b : Fin 256) :
    k1_pay6 x3 x6 x9 mo (ix2 b 0)
      = max (mo (ix2 b 0)) ((Finset.univ : Finset (Fin 640)).fold max ⊥ (fun q => k1_pay5 x3 x6 x9 (ix2 b q))) := by
  unfold k1_pay6
  refine (maximumf_apply _ _ _).trans ?_
  rw [shapeCast_a_a1_apply, rowMax_apply]

theorem exp_apply {s : Shape} {φ : FTy} (v : FVec Ideal s φ) (i : s.Idx) : exp v i = Ideal.exp (v i) := rfl

theorem log_apply {s : Shape} {φ : FTy} (v : FVec Ideal s φ) (i : s.Idx) : log v i = Ideal.log (v i) := rfl

/-- The new running sum of row `b`: the old one rescaled to the new maximum, plus the block's sum of exponentials. -/
theorem pay7_apply' (x3 : Vec Ideal S256x4096 .f32) (x6 : Vec Ideal S640x4096 .f32) (x9 : Vec Ideal S1x640 .f32)
    (mo lo mo' : Vec Ideal S256x1 .f32) (b : Fin 256) :
    k1_pay7 x3 x6 x9 mo lo mo' (ix2 b 0)
      = lo (ix2 b 0) * Ideal.exp (mo' (ix2 b 0) - k1_pay6 x3 x6 x9 mo (ix2 b 0))
        + ∑ q : Fin 640, Ideal.exp (k1_pay5 x3 x6 x9 (ix2 b q) - k1_pay6 x3 x6 x9 mo (ix2 b 0)) := by
  unfold k1_pay7
  rw [shapeCast_self]
  refine (addf_apply _ _ _).trans ?_
  rw [shapeCast_a_a1_apply, rowSum_apply]
  simp only [mulf_apply, exp_apply, subf_apply, broadcastTo_a1_ab_apply]

theorem pay7_apply (x3 : Vec Ideal S256x4096 .f32) (x6 : Vec Ideal S640x4096 .f32) (x9 : Vec Ideal S1x640 .f32)
    (mo lo : Vec Ideal S256x1 .f32) (b : Fin 256) :
    k1_pay7 x3 x6 x9 mo lo mo (ix2 b 0)
      = lo (ix2 b 0) * Ideal.exp (mo (ix2 b 0) - k1_pay6 x3 x6 x9 mo (ix2 b 0))
        + ∑ q : Fin 640, Ideal.exp (k1_pay5 x3 x6 x9 (ix2 b q) - k1_pay6 x3 x6 x9 mo (ix2 b 0)) :=
  pay7_apply' x3 x6 x9 mo lo mo b

end Cert.KernelIdeal.HandValue

end
-- ==== Proof.KI.Value1.lean ====
/-
  Region 1 read on the extended reals: what the logits array and the two halves' log-sum-exp array hold after the region.

  The three control cases of the body leave, in the logits block's buffer, the block's logits, and in the two running
  statistics, the new maximum and the new rescaled sum computed from the old pair (from the reset pair `(-∞, 0)` where the
  inner coordinate is 0). So after point `25 i + j` the statistics are, row by row, the specification's streaming state
  after `j + 1` blocks of half `i` — by induction on `j` —, the half's result stored at inner coordinate 24 is the half's
  log-sum-exp, and the blocks written back tile the two arrays.
-/
import proofs.«116741_j80522046865747_2_alg».proof.Proof.KI.Region1
import proofs.«116741_j80522046865747_2_alg».proof.Proof.KI.Pay1
import proofs.«116741_j80522046865747_2_alg».proof.Proof.KI.Coords
import proofs.«116741_j80522046865747_2_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem zeroOffsets1 : (![0, 0] : Fin 2 → Nat) = fun _ => 0 := funext fun a => by fin_cases a <;> rfl
theorem zeroOffsets1' : (![0, 0, 0] : Fin 3 → Nat) = fun _ => 0 := funext fun a => by fin_cases a <;> rfl

/-! ## What each control case leaves, over the payloads -/

section AnyFloat
variable {F : FTy → Type} [FloatOps F]

theorem out1_A_3_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : out1_A_3 c i arg2 harg2 arg3 harg3 arg4 harg4 arg5 harg5 arg6 harg6 arg7 harg7 arg8 harg8 hc0 hc1 x0 x1 x2 = k1_pay5 x0 x1 x2 := by
  unfold out1_A_3
  rw [View.read_writes_eq_canon _ _ _ (cover1_A_3 c i arg2 harg2 arg3 harg3 arg4 harg4 arg5 harg5 arg6 harg6 arg7 harg7 arg8 harg8 hc0 hc1 x0 x1 x2)]
  unfold kernelRun1_A
  dsimp only
  sl_unfold_words
  rw [View.canon_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem sout1_A_0_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : sout1_A_0 c i arg2 harg2 arg3 harg3 arg4 harg4 arg5 harg5 arg6 harg6 arg7 harg7 arg8 harg8 hc0 hc1 x0 x1 x2 = k1_pay1 (k1_pay6 x0 x1 x2 k1_pay3) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem sout1_A_1_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S640x4096 .f32) (x2 : Vec F S1x640 .f32) : sout1_A_1 c i arg2 harg2 arg3 harg3 arg4 harg4 arg5 harg5 arg6 harg6 arg7 harg7 arg8 harg8 hc0 hc1 x0 x1 x2 = k1_pay7 x0 x1 x2 k1_pay3 k1_pay4 k1_pay3 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem out1_B_3_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : out1_B_3 c i arg2 harg2 arg3 harg3 arg4 harg4 arg5 harg5 arg6 harg6 arg7 harg7 arg8 harg8 hc0 hc1 x0 x1 x2 xs0 xs1 = k1_pay5 x0 x1 x2 := by
  unfold out1_B_3
  rw [View.read_writes_eq_canon _ _ _ (cover1_B_3 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem sout1_B_0_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : sout1_B_0 c i arg2 harg2 arg3 harg3 arg4 harg4 arg5 harg5 arg6 harg6 arg7 harg7 arg8 harg8 hc0 hc1 x0 x1 x2 xs0 xs1 = k1_pay1 (k1_pay6 x0 x1 x2 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem sout1_B_1_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S640x4096 .f32) (x2 : Vec F S1x640 .f32) (xs0 : Vec F S256x1 .f32) (xs1 : Vec F S256x1 .f32) : sout1_B_1 c i arg2 harg2 arg3 harg3 arg4 harg4 arg5 harg5 arg6 harg6 arg7 harg7 arg8 harg8 hc0 hc1 x0 x1 x2 xs0 xs1 = k1_pay7 x0 x1 x2 xs0 xs1 xs0 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem out1_C_3_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : out1_C_3 c i arg2 harg2 arg3 harg3 arg4 harg4 arg5 harg5 arg6 harg6 arg7 harg7 arg8 harg8 hc0 hc1 x0 x1 x2 xs0 xs1 = k1_pay5 x0 x1 x2 := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem sout1_C_0_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : sout1_C_0 c i arg2 harg2 arg3 harg3 arg4 harg4 arg5 harg5 arg6 harg6 arg7 harg7 arg8 harg8 hc0 hc1 x0 x1 x2 xs0 xs1 = k1_pay1 (k1_pay6 x0 x1 x2 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem sout1_C_1_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : sout1_C_1 c i arg2 harg2 arg3 harg3 arg4 harg4 arg5 harg5 arg6 harg6 arg7 harg7 arg8 harg8 hc0 hc1 x0 x1 x2 xs0 xs1 = k1_pay7 x0 x1 x2 xs0 xs1 xs0 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero zeroOffsets1]
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

theorem out1_C_4_eq (c : Dev nD) (i : grid1.Coords) (arg2 : Memref sig .tc .vmem S256x4096 .f32) (harg2 : arg2.IsWhole) (arg3 : Memref sig .tc .vmem S640x4096 .f32) (harg3 : arg3.IsWhole) (arg4 : Memref sig .tc .vmem S1x640 .f32) (harg4 : arg4.IsWhole) (arg5 : Memref sig .tc .vmem S256x640 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S640x4096 .f32) (x2 : Vec F S1x640 .f32) (xs0 : Vec F S256x1 .f32) (xs1 : Vec F S256x1 .f32) : out1_C_4 c i arg2 harg2 arg3 harg3 arg4 harg4 arg5 harg5 arg6 harg6 arg7 harg7 arg8 harg8 hc0 hc1 x0 x1 x2 xs0 xs1 = k1_pay2 (k1_pay1 (k1_pay6 x0 x1 x2 xs0)) (k1_pay7 x0 x1 x2 xs0 xs1 xs0) := by
  unfold out1_C_4
  rw [View.read_writes_eq_canon _ _ _ (cover1_C_4 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero zeroOffsets1']
  simp only [View.readAt_eq_ld, View.readCov_unit_zero (S := S256x1) _ zeroOffsets1, harg2.read_unread, harg3.read_unread, harg4.read_unread, harg7.read_unread, harg8.read_unread, View.ld_unit_zero (S := S256x4096) zeroOffsets1, View.ld_unit_zero (S := S640x4096) zeroOffsets1, View.ld_unit_zero (S := S1x640) zeroOffsets1, View.ld_unit_zero (S := S256x1) zeroOffsets1]

variable (V : (c : Dev nD) → (b : Ref sig .tc) → Buf (Elt F) ((c : Thread nD τ).loc b))

/-- The statistics after a point of inner coordinate 0: computed from the reset pair. -/
theorem scr1_step_reset (c : Dev nD) (t : Fin cfg1.N) (h0 : t.val % 25 = 0) :
    scr1 V c (t.val + 1) = (k1_pay6 (iblk1 V c 0 t) (iblk1 V c 1 t) (iblk1 V c 2 t) k1_pay3, k1_pay7 (iblk1 V c 0 t) (iblk1 V c 1 t) (iblk1 V c 2 t) k1_pay3 k1_pay4 k1_pay3) := by
  rw [scr1_succ, scrStep1_A V c t _ h0, sout1_A_0_eq, sout1_A_1_eq, pay1_eq]

/-- The statistics after any other point: computed from what the point before left. -/
theorem scr1_step_carry (c : Dev nD) (t : Fin cfg1.N) (h0 : ¬t.val % 25 = 0) :
    scr1 V c (t.val + 1) = (k1_pay6 (iblk1 V c 0 t) (iblk1 V c 1 t) (iblk1 V c 2 t) (scr1 V c t.val).1, k1_pay7 (iblk1 V c 0 t) (iblk1 V c 1 t) (iblk1 V c 2 t) (scr1 V c t.val).1 (scr1 V c t.val).2 (scr1 V c t.val).1) := by
  by_cases h1 : t.val % 25 = 24
  · rw [scr1_succ, scrStep1_C V c t _ h0 h1, sout1_C_0_eq, sout1_C_1_eq, pay1_eq]
  · rw [scr1_succ, scrStep1_B V c t _ h0 h1, sout1_B_0_eq, sout1_B_1_eq, pay1_eq]

/-- The logits block's buffer after any point holds the block's logits. -/
theorem out3At1_eq (c : Dev nD) (t : Fin cfg1.N) : out3At1 V c t = k1_pay5 (iblk1 V c 0 t) (iblk1 V c 1 t) (iblk1 V c 2 t) := by
  by_cases h0 : t.val % 25 = 0
  · rw [out3At1_A V c t h0, out1_A_3_eq]
  · by_cases h1 : t.val % 25 = 24
    · rw [out3At1_C V c t h0 h1, out1_C_3_eq]
    · rw [out3At1_B V c t h0 h1, out1_B_3_eq]

/-- The half's result stored at inner coordinate 24: from the statistics after that point. -/
theorem out4At1_eq (c : Dev nD) (t : Fin cfg1.N) (h1 : t.val % 25 = 24) :
    out4At1 V c t = k1_pay2 (scr1 V c (t.val + 1)).1 (scr1 V c (t.val + 1)).2 := by
  have h0 : ¬t.val % 25 = 0 := by omega
  rw [out4At1_C V c t h0 h1, out1_C_4_eq, scr1_step_carry V c t h0, pay1_eq]

end AnyFloat

/-! ## On the extended reals -/

variable (V : (c : Dev nD) → (b : Ref sig .tc) → Buf (Elt Ideal) ((c : Thread nD τ).loc b))

/-- The windows' block indices at point `t`: the hidden state whole; the read-out rows, the bias columns and the logits
    columns at block `t`; the halves' array at half `t / 25`. -/
theorem blockIndex1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 3) = t.val / 25 ∧ win1_4.index t (1 : Fin 3) = 0 ∧ win1_4.index t (2 : Fin 3) = 0 :=
  (by decide +kernel : ∀ t : Fin grid1.N, _)

/-- The hidden state's block is the hidden state. -/
theorem hiddenBlock1_apply (c : Dev nD) (t : Fin cfg1.N) (y : S256x4096.Idx) :
    (iblk1 V c 0 t : S256x4096.Idx → EReal) y = (V c main_v6_1 : S256x4096.Idx → EReal) y := by
  obtain ⟨e0a, e0b, -⟩ := blockIndex1 t
  show V c main_v6_1 (((cfg1.win 0).blk t).view.emb y) = V c main_v6_1 y
  refine congrArg _ (funext fun a => Fin.ext ?_)
  match a with
  | ⟨0, _⟩ => show win1_0.index t (0 : Fin 2) * 256 + 1 * (y 0).val = (y 0).val; omega
  | ⟨1, _⟩ => show win1_0.index t (1 : Fin 2) * 4096 + 1 * (y 1).val = (y 1).val; omega

/-- The read-out window's block at point `t` is rows `640 t … 640 t + 639` of the read-out matrix. -/
theorem readoutBlock1_apply (c : Dev nD) (t : Fin cfg1.N) (y : S640x4096.Idx) (i : S32000x4096.Idx)
    (h0 : (i 0).val = t.val * 640 + (y 0).val) (h1 : (i 1).val = (y 1).val) :
    (iblk1 V c 1 t : S640x4096.Idx → EReal) y = (V c main_arg12 : S32000x4096.Idx → EReal) i := by
  obtain ⟨-, -, e1a, e1b, -⟩ := blockIndex1 t
  show V c main_arg12 (((cfg1.win 1).blk t).view.emb y) = V c main_arg12 i
  refine congrArg _ (funext fun a => Fin.ext ?_)
  match a with
  | ⟨0, _⟩ => show win1_1.index t (0 : Fin 2) * 640 + 1 * (y 0).val = (i 0).val; omega
  | ⟨1, _⟩ => show win1_1.index t (1 : Fin 2) * 4096 + 1 * (y 1).val = (i 1).val; omega

/-- The bias window's block at point `t` is columns `640 t … 640 t + 639` of the bias row. -/
theorem biasBlock1_apply (c : Dev nD) (t : Fin cfg1.N) (y : S1x640.Idx) (i : S1x32000.Idx)
    (h1 : (i 1).val = t.val * 640 + (y 1).val) :
    (iblk1 V c 2 t : S1x640.Idx → EReal) y = (V c main_v5 : S1x32000.Idx → EReal) i := by
  obtain ⟨-, -, -, -, e2a, e2b, -⟩ := blockIndex1 t
  have hy0 : (y 0).val = 0 := by have h : (y 0).val < 1 := (y 0).isLt; omega
  have hi0 : (i 0).val = 0 := by have h : (i 0).val < 1 := (i 0).isLt; omega
  show V c main_v5 (((cfg1.win 2).blk t).view.emb y) = V c main_v5 i
  refine congrArg _ (funext fun a => Fin.ext ?_)
  match a with
  | ⟨0, _⟩ => show win1_2.index t (0 : Fin 2) * 1 + 1 * (y 0).val = (i 0).val; omega
  | ⟨1, _⟩ => show win1_2.index t (1 : Fin 2) * 640 + 1 * (y 1).val = (i 1).val; omega

/-- The logits as one function of the arrays the region reads. -/
abbrev Zc (c : Dev nD) : Cert.Lstm.Mat 256 32000 :=
  Cert.Lstm.affine (mat (V c main_v6_1)) (mat (V c main_arg12)) (row (V c main_v5))

/-- A block's logit is the affine map's entry, once each block entry is its array's. -/
theorem logit_eq_affine (A : S256x4096.Idx → EReal) (W : S32000x4096.Idx → EReal) (bia : S1x32000.Idx → EReal)
    (x0 : S256x4096.Idx → EReal) (w : S640x4096.Idx → EReal) (bb : S1x640.Idx → EReal) (b : Fin 256) (q : Fin 640) (v : Fin 32000)
    (hx0 : ∀ k : Fin 4096, x0 (ix2 b k) = A (ix2 b k))
    (hw : ∀ k : Fin 4096, w (ix2 q k) = W (ix2 v k))
    (hb : bb (ix2 0 q) = bia (ix2 0 v)) :
    (∑ k : Fin 4096, x0 (ix2 b k) * w (ix2 q k)) + bb (ix2 0 q) = Cert.Lstm.affine (mat A) (mat W) (row bia) b v := by
  show _ = (∑ k : Fin 4096, A (ix2 b k) * W (ix2 v k)) + bia (ix2 0 v)
  rw [hb, Finset.sum_congr rfl fun k _ => by rw [hx0 k, hw k]]

/-- The block's logit at `(b, q)` of point `t` is the logit of row `b`, column `640 t + q`. -/
theorem logit_at_point (c : Dev nD) (t : Fin cfg1.N) (b : Fin 256) (q : Fin 640) (v : Fin 32000) (hv : v.val = t.val * 640 + q.val) :
    (k1_pay5 (iblk1 V c 0 t) (iblk1 V c 1 t) (iblk1 V c 2 t) (ix2 b q) : EReal) = Zc V c b v :=
  (pay5_apply _ _ _ b q).trans
    (logit_eq_affine (V c main_v6_1) (V c main_arg12) (V c main_v5) (iblk1 V c 0 t) (iblk1 V c 1 t) (iblk1 V c 2 t) b q v
      (fun k => hiddenBlock1_apply V c t _) (fun k => readoutBlock1_apply V c t _ _ hv rfl) (biasBlock1_apply V c t _ _ hv))

/-- One step of the streaming state, spelt out. -/
theorem stStep_eq (Z : Cert.Lstm.Mat 256 32000) (i : Fin 2) (b : Fin 256) (j : ℕ) (hj : j < 25) :
    Cert.Lstm.st Z i b (j + 1)
      = (max (Cert.Lstm.st Z i b j).1 (Cert.Lstm.blkMax Z (Cert.Lstm.blkOf i ⟨j, hj⟩) b),
         (Cert.Lstm.st Z i b j).2 * Ideal.exp ((Cert.Lstm.st Z i b j).1 - max (Cert.Lstm.st Z i b j).1 (Cert.Lstm.blkMax Z (Cert.Lstm.blkOf i ⟨j, hj⟩) b))
           + ∑ q : Fin 640, Ideal.exp (Z b (Cert.Lstm.col (Cert.Lstm.blkOf i ⟨j, hj⟩) q) - max (Cert.Lstm.st Z i b j).1 (Cert.Lstm.blkMax Z (Cert.Lstm.blkOf i ⟨j, hj⟩) b))) := by
  show (if hj : j < 25 then _ else _) = _
  rw [dif_pos hj]

/-- The body's update of the two statistics at point `t = 25 i + j`, row `b`, from a pair whose row `b` holds the
    streaming state after `j` blocks, is the streaming state after `j + 1` blocks. -/
theorem stat_step (c : Dev nD) (t : Fin cfg1.N) (i : Fin 2) (j : ℕ) (hj : j < 25) (ht : t.val = i.val * 25 + j)
    (m l : Vec Ideal S256x1 .f32) (b : Fin 256)
    (hm : (m (ix2 b 0) : EReal) = (Cert.Lstm.st (Zc V c) i b j).1) (hl : (l (ix2 b 0) : EReal) = (Cert.Lstm.st (Zc V c) i b j).2) :
    (k1_pay6 (iblk1 V c 0 t) (iblk1 V c 1 t) (iblk1 V c 2 t) m (ix2 b 0) : EReal) = (Cert.Lstm.st (Zc V c) i b (j + 1)).1
    ∧ (k1_pay7 (iblk1 V c 0 t) (iblk1 V c 1 t) (iblk1 V c 2 t) m l m (ix2 b 0) : EReal) = (Cert.Lstm.st (Zc V c) i b (j + 1)).2 := by
  have hcol : ∀ q : Fin 640, (k1_pay5 (iblk1 V c 0 t) (iblk1 V c 1 t) (iblk1 V c 2 t) (ix2 b q) : EReal) = Zc V c b (Cert.Lstm.col (Cert.Lstm.blkOf i ⟨j, hj⟩) q) := fun q =>
    logit_at_point V c t b q _ (by show (i.val * 25 + j) * 640 + q.val = t.val * 640 + q.val; rw [ht])
  have hmax : (k1_pay6 (iblk1 V c 0 t) (iblk1 V c 1 t) (iblk1 V c 2 t) m (ix2 b 0) : EReal)
      = max (Cert.Lstm.st (Zc V c) i b j).1 (Cert.Lstm.blkMax (Zc V c) (Cert.Lstm.blkOf i ⟨j, hj⟩) b) := by
    rw [pay6_apply, hm]
    unfold Cert.Lstm.blkMax
    exact congrArg (fun f => max _ ((Finset.univ : Finset (Fin 640)).fold max ⊥ f)) (funext hcol)
  rw [stStep_eq _ i b j hj]
  refine ⟨hmax, ?_⟩
  rw [pay7_apply, hmax, hl, hm]
  exact congrArg (fun s => _ + s) (Finset.sum_congr rfl fun q _ => by rw [hcol q])

/-- The two statistics after point `25 i + j` hold, row by row, the streaming state after `j + 1` blocks of half `i`. -/
theorem scr1_eq_st (c : Dev nD) (i : Fin 2) (b : Fin 256) (j : ℕ) (hj : j < 25) :
    (((scr1 V c (i.val * 25 + j + 1)).1 (ix2 b 0) : EReal) = (Cert.Lstm.st (Zc V c) i b (j + 1)).1)
    ∧ (((scr1 V c (i.val * 25 + j + 1)).2 (ix2 b 0) : EReal) = (Cert.Lstm.st (Zc V c) i b (j + 1)).2) := by
  have hN : cfg1.N = 50 := N_1
  have hi : i.val < 2 := i.isLt
  induction j with
  | zero =>
    obtain ⟨t, htv⟩ : ∃ t : Fin cfg1.N, t.val = i.val * 25 + 0 := ⟨⟨i.val * 25 + 0, by omega⟩, rfl⟩
    have h0 : t.val % 25 = 0 := by omega
    have e := scr1_step_reset V c t h0
    rw [htv] at e
    rw [e]
    exact stat_step V c t i 0 hj htv (k1_pay3 (F := Ideal)) (k1_pay4 (F := Ideal)) b (pay3_apply b) (pay4_apply b)
  | succ j ih =>
    obtain ⟨ihm, ihl⟩ := ih (by omega)
    obtain ⟨t, htv⟩ : ∃ t : Fin cfg1.N, t.val = i.val * 25 + (j + 1) := ⟨⟨i.val * 25 + (j + 1), by omega⟩, rfl⟩
    have h0 : ¬t.val % 25 = 0 := by omega
    have e := scr1_step_carry V c t h0
    rw [htv] at e
    rw [e]
    exact stat_step V c t i (j + 1) hj htv _ _ b ihm ihl

/-! ## The logits array -/

/-- What the logits array ends holding. -/
def logitsArr (c : Dev nD) : S256x32000.Idx → EReal := fun i => Zc V c (i 0) (i 1)

/-- Where entry `j` of the logits block at point `t` sits in the array: same row, column `640 t + j 1`. -/
theorem resultCoords3 (t : Fin cfg1.N) (j : S256x640.Idx) :
    ((((cfg1.win 3).blk t).view.emb j) 0).val = (j 0).val ∧ ((((cfg1.win 3).blk t).view.emb j) 1).val = t.val * 640 + (j 1).val := by
  obtain ⟨-, -, -, -, -, -, e3a, e3b, -⟩ := blockIndex1 t
  constructor
  · show win1_3.index t (0 : Fin 2) * 256 + 1 * (j 0).val = (j 0).val; omega
  · show win1_3.index t (1 : Fin 2) * 640 + 1 * (j 1).val = t.val * 640 + (j 1).val; omega

/-- What point `t` writes back to the logits array is block `t` of `logitsArr`. -/
theorem flushed3_eq (c : Dev nD) (t : Fin cfg1.N) :
    (dat1 V c).flushed 3 t = ((cfg1.win 3).blk t).view.read (Elt Ideal) (logitsArr V c) := by
  show (cfg1.win 3).cut (grid1.coords t) ((dat1 V c).after 3 t) = _
  rw [after1_3, out3At1_eq]
  refine funext fun (j : S256x640.Idx) => ?_
  obtain ⟨h0, h1⟩ := resultCoords3 t j
  refine (congrArg (k1_pay5 (iblk1 V c 0 t) (iblk1 V c 1 t) (iblk1 V c 2 t)) (eq_ix2 j)).trans ?_
  refine (logit_at_point V c t (j 0) (j 1) ((((cfg1.win 3).blk t).view.emb j) 1) h1).trans ?_
  show Zc V c (j 0) _ = Zc V c ((((cfg1.win 3).blk t).view.emb j) 0) _
  rw [show (((cfg1.win 3).blk t).view.emb j) 0 = j 0 from Fin.ext h0]

theorem mem_blk3 (t : Fin cfg1.N) (i : S256x32000.Idx) :
    i ∈ ((cfg1.win 3).blk t).view.set ↔ ∀ a : Fin 2, win1_3.index t a * S256x640.size a ≤ (i a).val ∧ (i a).val < win1_3.index t a * S256x640.size a + S256x640.size a := by
  show i ∈ ((View.whole main_v7_0).slice (win1_3.rect t)).set ↔ _
  rw [View.set_slice_whole, Rect.mem_set_unit]
  exact Iff.rfl

theorem cover3 (i : S256x32000.Idx) : ∃ t : Fin cfg1.N, (cfg1.win 3).flush t = true ∧ i ∈ ((cfg1.win 3).blk t).view.set := by
  have hi0 : (i 0).val < 256 := (i 0).isLt
  have hi1 : (i 1).val < 32000 := (i 1).isLt
  have hN : cfg1.N = 50 := N_1
  obtain ⟨t, ht⟩ : ∃ t : Fin cfg1.N, t.val = (i 1).val / 640 := ⟨⟨(i 1).val / 640, by rw [hN]; omega⟩, rfl⟩
  obtain ⟨-, -, -, -, -, -, e3a, e3b, -⟩ := blockIndex1 t
  refine ⟨t, flush1_3 t, ?_⟩
  rw [mem_blk3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 640 ≤ (i 1).val ∧ (i 1).val < win1_3.index t (1 : Fin 2) * 640 + 640; omega

/-- The logits array after the region. -/
theorem final3 (c : Dev nD) : (dat1 V c).arrAt 3 cfg1.N = logitsArr V c :=
  (dat1 V c).arrAt_eq_of_cover 3 (logitsArr V c) (fun t _ => flushed3_eq V c t) cover3

/-- Entry `(b, v)` of the logits array after the region is the specification's logit. -/
theorem value1_logits (c : Dev nD) (b : Fin 256) (v : Fin 32000) :
    ((dat1 V c).arrAt 3 cfg1.N (ix2 b v) : EReal)
      = Cert.Lstm.affine (mat (V c main_v6_1)) (mat (V c main_arg12)) (row (V c main_v5)) b v := by
  rw [final3]; rfl

/-! ## The halves' log-sum-exp array -/

/-- What the halves' array ends holding. -/
def halfArr (c : Dev nD) : S2x256x1.Idx → EReal := fun i => Cert.Lstm.lseHalf (Zc V c) (i 0) (i 1)

/-- Where entry `j` of the half's result at point `t` sits in the array: half `t / 25`, same row. -/
theorem resultCoords4 (t : Fin cfg1.N) (j : S1x256x1.Idx) :
    ((((cfg1.win 4).blk t).view.emb j) 0).val = t.val / 25 ∧ ((((cfg1.win 4).blk t).view.emb j) 1).val = (j 1).val := by
  obtain ⟨-, -, -, -, -, -, -, -, e4a, e4b, e4c⟩ := blockIndex1 t
  have hj0 : (j 0).val = 0 := by have h : (j 0).val < 1 := (j 0).isLt; omega
  constructor
  · show win1_4.index t (0 : Fin 3) * 1 + 1 * (j 0).val = t.val / 25; omega
  · show win1_4.index t (1 : Fin 3) * 256 + 1 * (j 1).val = (j 1).val; omega

/-- What a point of inner coordinate 24 writes back to the halves' array is its block of `halfArr`. -/
theorem flushed4_eq (c : Dev nD) (t : Fin cfg1.N) (hf : (cfg1.win 4).flush t = true) :
    (dat1 V c).flushed 4 t = ((cfg1.win 4).blk t).view.read (Elt Ideal) (halfArr V c) := by
  have h1 : t.val % 25 = 24 := (flush1_4 t).mp hf
  have hN : cfg1.N = 50 := N_1
  have htN : t.val < 50 := lt_of_lt_of_eq t.isLt hN
  show (cfg1.win 4).cut (grid1.coords t) ((dat1 V c).after 4 t) = _
  rw [after1_4, out4At1_eq V c t h1]
  refine funext fun (j : S1x256x1.Idx) => ?_
  obtain ⟨h0, hr⟩ := resultCoords4 t j
  have hj0 : j 0 = (0 : Fin 1) := Fin.ext (by have h : (j 0).val < 1 := (j 0).isLt; show (j 0).val = 0; omega)
  have hj2 : j 2 = (0 : Fin 1) := Fin.ext (by have h : (j 2).val < 1 := (j 2).isLt; show (j 2).val = 0; omega)
  have ej : j = ix3 (0 : Fin 1) (j 1) (0 : Fin 1) := funext fun a => by
    match a with
    | ⟨0, _⟩ => exact hj0
    | ⟨1, _⟩ => rfl
    | ⟨2, _⟩ => exact hj2
  refine (congrArg (k1_pay2 (scr1 V c (t.val + 1)).1 (scr1 V c (t.val + 1)).2) ej).trans ?_
  refine (pay2_apply _ _ (j 1)).trans ?_
  obtain ⟨i, hi⟩ : ∃ i : Fin 2, i.val = t.val / 25 := ⟨⟨t.val / 25, by omega⟩, rfl⟩
  have ht : t.val + 1 = i.val * 25 + 24 + 1 := by omega
  obtain ⟨e1, e2⟩ := scr1_eq_st V c i (j 1) 24 (by omega)
  rw [ht, e1, e2]
  show Cert.Lstm.lseHalf (Zc V c) i (j 1) = Cert.Lstm.lseHalf (Zc V c) ((((cfg1.win 4).blk t).view.emb j) 0) ((((cfg1.win 4).blk t).view.emb j) 1)
  rw [show (((cfg1.win 4).blk t).view.emb j) 0 = i from Fin.ext (h0.trans hi.symm), show (((cfg1.win 4).blk t).view.emb j) 1 = j 1 from Fin.ext hr]

theorem mem_blk4 (t : Fin cfg1.N) (i : S2x256x1.Idx) :
    i ∈ ((cfg1.win 4).blk t).view.set ↔ ∀ a : Fin 3, win1_4.index t a * S1x256x1.size a ≤ (i a).val ∧ (i a).val < win1_4.index t a * S1x256x1.size a + S1x256x1.size a := by
  show i ∈ ((View.whole main_v7_1).slice (win1_4.rect t)).set ↔ _
  rw [View.set_slice_whole, Rect.mem_set_unit]
  exact Iff.rfl

theorem cover4 (i : S2x256x1.Idx) : ∃ t : Fin cfg1.N, (cfg1.win 4).flush t = true ∧ i ∈ ((cfg1.win 4).blk t).view.set := by
  have hi0 : (i 0).val < 2 := (i 0).isLt
  have hi1 : (i 1).val < 256 := (i 1).isLt
  have hi2 : (i 2).val < 1 := (i 2).isLt
  have hN : cfg1.N = 50 := N_1
  obtain ⟨t, ht⟩ : ∃ t : Fin cfg1.N, t.val = (i 0).val * 25 + 24 := ⟨⟨(i 0).val * 25 + 24, by rw [hN]; omega⟩, rfl⟩
  obtain ⟨-, -, -, -, -, -, -, -, e4a, e4b, e4c⟩ := blockIndex1 t
  refine ⟨t, (flush1_4 t).mpr (by omega), ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 1 ≤ (i 2).val ∧ (i 2).val < win1_4.index t (2 : Fin 3) * 1 + 1; omega

/-- The halves' array after the region. -/
theorem final4 (c : Dev nD) : (dat1 V c).arrAt 4 cfg1.N = halfArr V c :=
  (dat1 V c).arrAt_eq_of_cover 4 (halfArr V c) (fun t hf => flushed4_eq V c t hf) cover4

/-- Entry `(i, b, 0)` of the halves' array after the region is half `i`'s log-sum-exp of row `b`. -/
theorem value1_lse (c : Dev nD) (i : Fin 2) (b : Fin 256) :
    ((dat1 (F := Ideal) V c).arrAt 4 cfg1.N : S2x256x1.Idx → EReal) (ix3 i b (0 : Fin 1))
      = Cert.Lstm.lseHalf (Cert.Lstm.affine (mat (V c main_v6_1)) (mat (V c main_arg12)) (row (V c main_v5))) i b := by
  rw [final4]; rfl

end Cert.KernelIdeal.HandValue

end
-- ==== Proof.KI.Value2.lean ====
import proofs.«116741_j80522046865747_2_alg».proof.Proof.KI.Region2
import proofs.«116741_j80522046865747_2_alg».proof.Proof.KI.Coords
import proofs.«116741_j80522046865747_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

-- the TensorCore's buffer contents when the region is entered, on the extended reals
variable (V : (c : Dev nD) → (b : Ref sig .tc) → Buf (Elt Ideal) ((c : Thread nD τ).loc b))

/-! # Region 2's result: every logit minus its row's constant -/

theorem zeroOffsets2 : (![0, 0] : Fin 2 → Nat) = fun _ => 0 := funext fun a => by fin_cases a <;> rfl

/-- The body's payload at an index: the block's entry minus the column vector's entry of the same row. -/
theorem sub_rowConst_apply (x0 : Vec Ideal S256x640 .f32) (x1 : Vec Ideal S256x1 .f32) (j : S256x640.Idx) :
    k2_pay1 x0 x1 j = (x0 j : EReal) - x1 (ix2 (j 0) 0) := by
  unfold k2_pay1
  rw [shapeCast_self, shapeCast_self, subf_apply]
  congr 1
  refine broadcastTo_apply _ _ j (ix2 (j 0) 0) fun a => ?_
  match a with
  | ⟨0, _⟩ => rfl
  | ⟨1, _⟩ => rfl

/-- The whole result as one function of the two arrays the region reads: entry `(b, v)` of the first minus entry
    `(b, 0)` of the second. -/
def subRowConst (a0 : S256x32000.Idx → EReal) (a1 : S256x1.Idx → EReal) : S256x32000.Idx → EReal :=
  fun i => a0 i - a1 (ix2 (i 0) 0)

/-- The block index maps over the grid: the logits' and the result's block at point `t` is column block `t`, the
    column vector is read whole. -/
theorem blockIndex2 : ∀ t : Fin cfg2.N, win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = t.val :=
  (by decide +kernel : ∀ t : Fin grid2.N, _)

/-- What point `t` writes back is block `t` of `subRowConst` of the arrays as the region finds them. -/
theorem flushed2_eq (c : Dev nD) (t : Fin cfg2.N) :
    (dat2 V c).flushed 2 t = ((cfg2.win 2).blk t).view.read (Elt Ideal) (subRowConst (V c main_v7_0) (V c main_v21)) := by
  show (cfg2.win 2).cut (grid2.coords t) ((dat2 V c).after 2 t) = _
  rw [after2_2]
  unfold out2_2
  rw [View.canon_unit_zero zeroOffsets2]
  simp only [View.ld_unit_zero (S := S256x640) zeroOffsets2, View.ld_unit_zero (S := S256x1) zeroOffsets2]
  obtain ⟨e0, e1, e2, e3, e4, e5⟩ := blockIndex2 t
  funext j
  refine (sub_rowConst_apply (iblk2 V c 0 t) (iblk2 V c 1 t) j).trans ?_
  have h0 : (iblk2 V c 0 t : S256x640.Idx → EReal) j = (V c main_v7_0 : S256x32000.Idx → EReal) (((cfg2.win 2).blk t).view.emb j) := by
    show V c main_v7_0 (((cfg2.win 0).blk t).view.emb j) = V c main_v7_0 (((cfg2.win 2).blk t).view.emb j)
    refine congrArg _ (funext fun a => Fin.ext ?_)
    match a with
    | ⟨0, _⟩ => show win2_0.index t (0 : Fin 2) * 256 + 1 * (j 0).val = win2_2.index t (0 : Fin 2) * 256 + 1 * (j 0).val; omega
    | ⟨1, _⟩ => show win2_0.index t (1 : Fin 2) * 640 + 1 * (j 1).val = win2_2.index t (1 : Fin 2) * 640 + 1 * (j 1).val; omega
  have h1 : (iblk2 V c 1 t : S256x1.Idx → EReal) (ix2 (j 0) 0) = (V c main_v21 : S256x1.Idx → EReal) (ix2 ((((cfg2.win 2).blk t).view.emb j) 0) 0) := by
    show V c main_v21 (((cfg2.win 1).blk t).view.emb (ix2 (j 0) 0)) = V c main_v21 (ix2 ((((cfg2.win 2).blk t).view.emb j) 0) 0)
    refine congrArg _ (funext fun a => Fin.ext ?_)
    match a with
    | ⟨0, _⟩ => show win2_1.index t (0 : Fin 2) * 256 + 1 * (j 0).val = win2_2.index t (0 : Fin 2) * 256 + 1 * (j 0).val; omega
    | ⟨1, _⟩ => show win2_1.index t (1 : Fin 2) * 1 + 1 * 0 = 0; omega
  exact congrArg₂ (fun p q : EReal => p - q) h0 h1

/-- An index of the result is in point `t`'s block iff each coordinate is in the block's range on its axis. -/
theorem mem_blk2 (t : Fin cfg2.N) (i : S256x32000.Idx) :
    i ∈ ((cfg2.win 2).blk t).view.set ↔ ∀ a : Fin 2, win2_2.index t a * S256x640.size a ≤ (i a).val ∧ (i a).val < win2_2.index t a * S256x640.size a + S256x640.size a := by
  show i ∈ ((View.whole main_v22).slice (win2_2.rect t)).set ↔ _
  rw [View.set_slice_whole, Rect.mem_set_unit]
  exact Iff.rfl

/-- Every index is in the block of the point its column falls in. -/
theorem cover2 (i : S256x32000.Idx) : ∃ t : Fin cfg2.N, (cfg2.win 2).flush t = true ∧ i ∈ ((cfg2.win 2).blk t).view.set := by
  have hi0 : (i 0).val < 256 := (i 0).isLt
  have hi1 : (i 1).val < 32000 := (i 1).isLt
  have hN : cfg2.N = 50 := N_2
  obtain ⟨t, ht⟩ : ∃ t : Fin cfg2.N, t.val = (i 1).val / 640 := ⟨⟨(i 1).val / 640, by rw [hN]; omega⟩, rfl⟩
  obtain ⟨e0, e1, e2, e3, e4, e5⟩ := blockIndex2 t
  refine ⟨t, flush2_2 t, ?_⟩
  rw [mem_blk2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 640 ≤ (i 1).val ∧ (i 1).val < win2_2.index t (1 : Fin 2) * 640 + 640; omega

/-- The result array after the region. -/
theorem final2 (c : Dev nD) : (dat2 V c).arrAt 2 cfg2.N = subRowConst (V c main_v7_0) (V c main_v21) :=
  (dat2 V c).arrAt_eq_of_cover 2 (subRowConst (V c main_v7_0) (V c main_v21)) (fun t _ => flushed2_eq V c t) cover2

/-- Entry by entry: the logit minus the row's constant. -/
theorem value2 (c : Dev nD) (b : Fin 256) (v : Fin 32000) :
    (mat ((dat2 (F := Ideal) V c).arrAt 2 cfg2.N) : Cert.Lstm.Mat 256 32000) b v
      = (mat (V c main_v7_0) : Cert.Lstm.Mat 256 32000) b v - (mat (V c main_v21) : Cert.Lstm.Mat 256 1) b 0 := by
  rw [final2]; rfl

end Cert.KernelIdeal.HandValue

end
-- ==== Proof.KI.KernelValue.lean ====
/-
  The three results of the three-kernel program as functions of the fourteen argument arrays, entry by entry on the
  extended reals: the new cell state, the new hidden state, and every logit minus the streamed log-sum-exp of its row.

  Region 0 reads the concatenated input, the gate matrices, the bias rows and the cell state as the first host stretch and
  the launch left them; region 1 reads the hidden state region 0 wrote; the second host stretch joins the two halves'
  log-sum-exps; region 2 subtracts the joined column from the logits.
-/
import proofs.«116741_j80522046865747_2_alg».proof.Proof.KI.HostValues
import proofs.«116741_j80522046865747_2_alg».proof.Proof.KI.Value0
import proofs.«116741_j80522046865747_2_alg».proof.Proof.KI.Value1
import proofs.«116741_j80522046865747_2_alg».proof.Proof.KI.Value2

set_option maxRecDepth 16384

noncomputable section

namespace Cert.KernelIdeal.Result

open Cert.KernelIdeal Cert.KernelIdeal.Gen Cert.KernelIdeal.Hand Cert.KernelIdeal.HandRun Cert.KernelIdeal.HandValue
open Idealize.ShloMosaic Idealize.ShloMosaic.TcCoe Idealize.ShloMosaic.ValueIdx
open Idealize.SL Idealize.SL.Sem
open Cert.Lstm (Mat Vct)

/-- A vector by its coordinate. -/
abbrev vec {a : Nat} (x : (⟨1, ![a]⟩ : Shape).Idx → EReal) : Vct a := fun n => x (ix1 n)

variable (m : (ℓ : Loc nD τ sig) → Buf (Elt Ideal) ℓ) (ρ : Dev nD → PrngReg)

/-- The concatenated input of core `c`, from the launch memory. -/
def XC (c : Dev nD) : Mat 256 4096 :=
  Cert.Lstm.xc (mat (m ((c : Thread nD τ).loc main_arg0))) (mat (m ((c : Thread nD τ).loc main_arg1))) (mat (m ((c : Thread nD τ).loc main_arg2)))
/-- The new cell state. -/
def CN (c : Dev nD) : Mat 256 4096 :=
  Cert.Lstm.cellNew (XC m c) (mat (m ((c : Thread nD τ).loc main_arg3))) (mat (m ((c : Thread nD τ).loc main_arg4))) (vec (m ((c : Thread nD τ).loc main_arg5)))
    (mat (m ((c : Thread nD τ).loc main_arg6))) (vec (m ((c : Thread nD τ).loc main_arg7))) (mat (m ((c : Thread nD τ).loc main_arg8))) (vec (m ((c : Thread nD τ).loc main_arg9)))
/-- The new hidden state. -/
def HN (c : Dev nD) : Mat 256 4096 :=
  Cert.Lstm.hidNew (XC m c) (CN m c) (mat (m ((c : Thread nD τ).loc main_arg10))) (vec (m ((c : Thread nD τ).loc main_arg11)))
/-- The logits. -/
def Z (c : Dev nD) : Mat 256 32000 :=
  Cert.Lstm.affine (HN m c) (mat (m ((c : Thread nD τ).loc main_arg12))) (vec (m ((c : Thread nD τ).loc main_arg13)))

/-! ## What region 0 is entered with -/

theorem entry_xc (c : Dev nD) : (mat (V1 m ρ c main_v0) : Mat 256 4096) = XC m c :=
  funext fun b => funext fun k => V1_xc m ρ c b k
theorem entry_cell (c : Dev nD) : (mat (V1 m ρ c main_arg3) : Mat 256 4096) = mat (m ((c : Thread nD τ).loc main_arg3)) := by rw [V1_cell]
theorem entry_wf (c : Dev nD) : (mat (V1 m ρ c main_arg4) : Mat 4096 4096) = mat (m ((c : Thread nD τ).loc main_arg4)) := by rw [V1_wf]
theorem entry_wi (c : Dev nD) : (mat (V1 m ρ c main_arg6) : Mat 4096 4096) = mat (m ((c : Thread nD τ).loc main_arg6)) := by rw [V1_wi]
theorem entry_wc (c : Dev nD) : (mat (V1 m ρ c main_arg8) : Mat 4096 4096) = mat (m ((c : Thread nD τ).loc main_arg8)) := by rw [V1_wc]
theorem entry_wo (c : Dev nD) : (mat (V1 m ρ c main_arg10) : Mat 4096 4096) = mat (m ((c : Thread nD τ).loc main_arg10)) := by rw [V1_wo]
theorem entry_bf (c : Dev nD) : (row (V1 m ρ c main_v1) : Vct 4096) = vec (m ((c : Thread nD τ).loc main_arg5)) := funext fun n => V1_bf m ρ c n
theorem entry_bi (c : Dev nD) : (row (V1 m ρ c main_v2) : Vct 4096) = vec (m ((c : Thread nD τ).loc main_arg7)) := funext fun n => V1_bi m ρ c n
theorem entry_bc (c : Dev nD) : (row (V1 m ρ c main_v3) : Vct 4096) = vec (m ((c : Thread nD τ).loc main_arg9)) := funext fun n => V1_bc m ρ c n
theorem entry_bo (c : Dev nD) : (row (V1 m ρ c main_v4) : Vct 4096) = vec (m ((c : Thread nD τ).loc main_arg11)) := funext fun n => V1_bo m ρ c n

/-! ## Region 0's results -/

theorem cell_written (c : Dev nD) (b : Fin 256) (n : Fin 4096) :
    (mat ((dat0 (F := Ideal) (V1 m ρ) c).arrAt 10 cfg0.N) : Mat 256 4096) b n = CN m c b n := by
  rw [value0_cell, entry_xc, entry_cell, entry_wf, entry_wi, entry_wc, entry_bf, entry_bi, entry_bc]; rfl
theorem hidden_written (c : Dev nD) (b : Fin 256) (n : Fin 4096) :
    (mat ((dat0 (F := Ideal) (V1 m ρ) c).arrAt 11 cfg0.N) : Mat 256 4096) b n = HN m c b n := by
  rw [value0_hidden, entry_xc, entry_cell, entry_wf, entry_wi, entry_wc, entry_wo, entry_bf, entry_bi, entry_bc, entry_bo]; rfl

/-- The new cell state at the end. -/
theorem out_cell (c : Dev nD) (b : Fin 256) (n : Fin 4096) :
    (mat (W5 m ρ c (Proc.devRef .tc main_v6_0)) : Mat 256 4096) b n = CN m c b n := by
  rw [W5_cell]; exact cell_written m ρ c b n
/-- The new hidden state at the end. -/
theorem out_hidden (c : Dev nD) (b : Fin 256) (n : Fin 4096) :
    (mat (W5 m ρ c (Proc.devRef .tc main_v6_1)) : Mat 256 4096) b n = HN m c b n := by
  rw [W5_hid]; exact hidden_written m ρ c b n

/-! ## Region 1's results -/

theorem entry_hidden (c : Dev nD) : (mat (V2 m ρ c main_v6_1) : Mat 256 4096) = HN m c := by
  rw [V2_hid]; exact funext fun b => funext fun n => hidden_written m ρ c b n
theorem entry_wout (c : Dev nD) : (mat (V2 m ρ c main_arg12) : Mat 32000 4096) = mat (m ((c : Thread nD τ).loc main_arg12)) := by rw [V2_wout]
theorem entry_bout (c : Dev nD) : (row (V2 m ρ c main_v5) : Vct 32000) = vec (m ((c : Thread nD τ).loc main_arg13)) := by
  rw [V2_bout]; exact funext fun v => V1_bout m ρ c v

theorem logits_written (c : Dev nD) (b : Fin 256) (v : Fin 32000) :
    (mat ((dat1 (F := Ideal) (V2 m ρ) c).arrAt 3 cfg1.N) : Mat 256 32000) b v = Z m c b v := by
  show ((dat1 (F := Ideal) (V2 m ρ) c).arrAt 3 cfg1.N (ix2 b v) : EReal) = _
  rw [value1_logits, entry_hidden, entry_wout, entry_bout]; rfl
theorem lse_written (c : Dev nD) (i : Fin 2) (b : Fin 256) :
    ((dat1 (F := Ideal) (V2 m ρ) c).arrAt 4 cfg1.N : S2x256x1.Idx → EReal) (ix3 i b (0 : Fin 1)) = Cert.Lstm.lseHalf (Z m c) i b := by
  rw [value1_lse, entry_hidden, entry_wout, entry_bout]; rfl

/-! ## The log-softmax at the end -/

theorem out_logsoftmax (c : Dev nD) (b : Fin 256) (v : Fin 32000) :
    (mat (W5 m ρ c (Proc.devRef .tc main_v22)) : Mat 256 32000) b v = Cert.Lstm.outStream (Z m c) b v := by
  rw [W5_out, value2]
  have h1 : (mat (V4 m ρ c main_v7_0) : Mat 256 32000) b v = Z m c b v := by rw [V4_logits]; exact logits_written m ρ c b v
  have h2 : (mat (V4 m ρ c main_v21) : Mat 256 1) b 0 = Cert.Lstm.joinLse (Cert.Lstm.lseHalf (Z m c) 0 b) (Cert.Lstm.lseHalf (Z m c) 1 b) := by
    show (V4 m ρ c main_v21 : S256x1.Idx → EReal) (ix2 b (0 : Fin 1)) = _
    rw [V4_join, V3_lse, lse_written, lse_written]
  rw [h1, h2]; rfl

end Cert.KernelIdeal.Result

end
-- ==== Proof.FiniteInputs.lean ====
/-
  The precondition read entry by entry. The precondition is the conjunction, over the fourteen argument arrays, of
  "every entry has absolute value below +∞"; each conjunct is an all-reduction by `and` of the entrywise comparison
  `|x| < +∞`. On the extended reals `|x| = max x (-x)`, and `max x (-x) < ⊤` holds exactly when `x` is neither `⊥` nor `⊤`
  (`-⊥ = ⊤`): so under the precondition every entry of every argument array is a real number.
-/
import proofs.«116741_j80522046865747_2_alg».proof.Defs
import Idealize.ShloMosaic.Lib.ReduceAll
import Idealize.ShloMosaic.Lib.Affine
import Idealize.ShloMosaic.Lib.ValueIdx
import Idealize.ShloMosaic.PureOps.Ideal.Laws

noncomputable section

namespace Cert.Proof.Finite

open Idealize.ShloMosaic Idealize.ShloMosaic.TcCoe Idealize.SL.Sem

/-- The bit pattern `0x7F800000` denotes `+∞`. -/
theorem inf_bits : Ideal.ofBits .f32 0x7F800000#32 = (⊤ : EReal) := by
  simp [Ideal.ofBits, Ideal.ieee]

/-- An entry whose absolute value compares below `+∞` is neither `⊥` nor `⊤`. -/
theorem elt_finite {s : Shape} (x : FVec Ideal s .f32)
    (hb : Cert.Pre_finite_inputs.S_.BroadcastsInDim s (![] : Fin 0 → Fin s.rank)) (i : s.Idx)
    (h : cmpf .olt (Host.absf x) (broadcastInDim s ![] hb (constant Cert.Pre_finite_inputs.S_ .f32 0x7F800000#32)) i = 1#1) :
    x i ≠ ⊥ ∧ x i ≠ ⊤ := by
  simp only [cmpf, Host.absf, broadcastInDim, constant] at h
  rw [Ideal.ofBits_def, inf_bits, Ideal.hostAbsf_def, Ideal.cmpf_def, Ideal.absf_def] at h
  simp only [Ideal.cmp] at h
  have hB : ∀ b : Bool, BitVec.ofBool b = 1#1 → b = true := by decide
  have hlt := of_decide_eq_true (hB _ h)
  refine ⟨fun e => ?_, fun e => ?_⟩
  · rw [e] at hlt; simp at hlt
  · rw [e] at hlt; simp at hlt

/-- The rank-0 shape has one index. -/
instance : Subsingleton Cert.Pre_finite_inputs.S_.Idx := ⟨fun a b => funext fun d => d.elim0⟩

variable [Cert.Pre_finite_inputs.Facts]

open Cert.KernelIdeal in
/-- Under the precondition every entry of each of the fourteen argument arrays is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
      (∀ i : Cert.KernelIdeal.S256x512.Idx, @Ne EReal (m ((c.tc : Thread nD τ).loc main_arg0) i) ⊥ ∧ @Ne EReal (m ((c.tc : Thread nD τ).loc main_arg0) i) ⊤)
      ∧ (∀ i : Cert.KernelIdeal.S256x1536.Idx, @Ne EReal (m ((c.tc : Thread nD τ).loc main_arg1) i) ⊥ ∧ @Ne EReal (m ((c.tc : Thread nD τ).loc main_arg1) i) ⊤)
      ∧ (∀ i : Cert.KernelIdeal.S256x2048.Idx, @Ne EReal (m ((c.tc : Thread nD τ).loc main_arg2) i) ⊥ ∧ @Ne EReal (m ((c.tc : Thread nD τ).loc main_arg2) i) ⊤)
      ∧ (∀ i : Cert.KernelIdeal.S256x4096.Idx, @Ne EReal (m ((c.tc : Thread nD τ).loc main_arg3) i) ⊥ ∧ @Ne EReal (m ((c.tc : Thread nD τ).loc main_arg3) i) ⊤)
      ∧ (∀ i : Cert.KernelIdeal.S4096x4096.Idx, @Ne EReal (m ((c.tc : Thread nD τ).loc main_arg4) i) ⊥ ∧ @Ne EReal (m ((c.tc : Thread nD τ).loc main_arg4) i) ⊤)
      ∧ (∀ i : Cert.KernelIdeal.S4096.Idx, @Ne EReal (m ((c.tc : Thread nD τ).loc main_arg5) i) ⊥ ∧ @Ne EReal (m ((c.tc : Thread nD τ).loc main_arg5) i) ⊤)
      ∧ (∀ i : Cert.KernelIdeal.S4096x4096.Idx, @Ne EReal (m ((c.tc : Thread nD τ).loc main_arg6) i) ⊥ ∧ @Ne EReal (m ((c.tc : Thread nD τ).loc main_arg6) i) ⊤)
      ∧ (∀ i : Cert.KernelIdeal.S4096.Idx, @Ne EReal (m ((c.tc : Thread nD τ).loc main_arg7) i) ⊥ ∧ @Ne EReal (m ((c.tc : Thread nD τ).loc main_arg7) i) ⊤)
      ∧ (∀ i : Cert.KernelIdeal.S4096x4096.Idx, @Ne EReal (m ((c.tc : Thread nD τ).loc main_arg8) i) ⊥ ∧ @Ne EReal (m ((c.tc : Thread nD τ).loc main_arg8) i) ⊤)
      ∧ (∀ i : Cert.KernelIdeal.S4096.Idx, @Ne EReal (m ((c.tc : Thread nD τ).loc main_arg9) i) ⊥ ∧ @Ne EReal (m ((c.tc : Thread nD τ).loc main_arg9) i) ⊤)
      ∧ (∀ i : Cert.KernelIdeal.S4096x4096.Idx, @Ne EReal (m ((c.tc : Thread nD τ).loc main_arg10) i) ⊥ ∧ @Ne EReal (m ((c.tc : Thread nD τ).loc main_arg10) i) ⊤)
      ∧ (∀ i : Cert.KernelIdeal.S4096.Idx, @Ne EReal (m ((c.tc : Thread nD τ).loc main_arg11) i) ⊥ ∧ @Ne EReal (m ((c.tc : Thread nD τ).loc main_arg11) i) ⊤)
      ∧ (∀ i : Cert.KernelIdeal.S32000x4096.Idx, @Ne EReal (m ((c.tc : Thread nD τ).loc main_arg12) i) ⊥ ∧ @Ne EReal (m ((c.tc : Thread nD τ).loc main_arg12) i) ⊤)
      ∧ (∀ i : Cert.KernelIdeal.S32000.Idx, @Ne EReal (m ((c.tc : Thread nD τ).loc main_arg13) i) ⊥ ∧ @Ne EReal (m ((c.tc : Thread nD τ).loc main_arg13) i) ⊤) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi, IntOp.andi_eq_one] at h0
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := h0
  exact ⟨fun i => elt_finite _ _ i (Host.reduce_andi_all _ _ _ _ _ h0 i),
    fun i => elt_finite _ _ i (Host.reduce_andi_all _ _ _ _ _ h1 i),
    fun i => elt_finite _ _ i (Host.reduce_andi_all _ _ _ _ _ h2 i),
    fun i => elt_finite _ _ i (Host.reduce_andi_all _ _ _ _ _ h3 i),
    fun i => elt_finite _ _ i (Host.reduce_andi_all _ _ _ _ _ h4 i),
    fun i => elt_finite _ _ i (Host.reduce_andi_all _ _ _ _ _ h5 i),
    fun i => elt_finite _ _ i (Host.reduce_andi_all _ _ _ _ _ h6 i),
    fun i => elt_finite _ _ i (Host.reduce_andi_all _ _ _ _ _ h7 i),
    fun i => elt_finite _ _ i (Host.reduce_andi_all _ _ _ _ _ h8 i),
    fun i => elt_finite _ _ i (Host.reduce_andi_all _ _ _ _ _ h9 i),
    fun i => elt_finite _ _ i (Host.reduce_andi_all _ _ _ _ _ h10 i),
    fun i => elt_finite _ _ i (Host.reduce_andi_all _ _ _ _ _ h11 i),
    fun i => elt_finite _ _ i (Host.reduce_andi_all _ _ _ _ _ h12 i),
    fun i => elt_finite _ _ i (Host.reduce_andi_all _ _ _ _ _ h13 i)⟩

end Cert.Proof.Finite

end
-- ==== Proof.LibLogSumExp.lean ====
/-
  General facts on finite extended reals and on the logarithm of a sum of exponentials.

  An extended real that is neither infinity is the coercion of a real; sums and products of such are such; the coercion
  commutes with finite sums and with `max`. For reals, `M + log ∑ exp (f - M) = log ∑ exp f` for any shift `M`, and two
  logarithms of sums join by `max a c + log (1 + exp (-|a - c|)) = log (exp a + exp c)`.
-/
import Mathlib.Data.EReal.Inv
import Mathlib.Analysis.SpecialFunctions.Log.Basic
import Mathlib.Algebra.BigOperators.Fin
import Mathlib.Algebra.BigOperators.Group.Finset.Basic

open scoped BigOperators

namespace LibLogSumExp

/-- An extended real that is neither infinity is the coercion of a real. -/
theorem exists_real_of_finite {x : EReal} (h : x ≠ ⊥ ∧ x ≠ ⊤) : ∃ r : ℝ, x = (r : EReal) :=
  ⟨x.toReal, (EReal.coe_toReal h.2 h.1).symm⟩

/-- The coercion of a real is neither infinity. -/
theorem finite_coe (r : ℝ) : (r : EReal) ≠ ⊥ ∧ (r : EReal) ≠ ⊤ := ⟨EReal.coe_ne_bot r, EReal.coe_ne_top r⟩

/-- The sum of two finite extended reals is finite. -/
theorem finite_add {x y : EReal} (hx : x ≠ ⊥ ∧ x ≠ ⊤) (hy : y ≠ ⊥ ∧ y ≠ ⊤) : x + y ≠ ⊥ ∧ x + y ≠ ⊤ := by
  obtain ⟨a, rfl⟩ := exists_real_of_finite hx
  obtain ⟨c, rfl⟩ := exists_real_of_finite hy
  rw [← EReal.coe_add]; exact finite_coe _

/-- The product of two finite extended reals is finite. -/
theorem finite_mul {x y : EReal} (hx : x ≠ ⊥ ∧ x ≠ ⊤) (hy : y ≠ ⊥ ∧ y ≠ ⊤) : x * y ≠ ⊥ ∧ x * y ≠ ⊤ := by
  obtain ⟨a, rfl⟩ := exists_real_of_finite hx
  obtain ⟨c, rfl⟩ := exists_real_of_finite hy
  rw [← EReal.coe_mul]; exact finite_coe _

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite extended reals is finite. -/
theorem finite_sum {ι : Type*} (s : Finset ι) (f : ι → EReal) (h : ∀ i ∈ s, f i ≠ ⊥ ∧ f i ≠ ⊤) :
    (∑ i ∈ s, f i) ≠ ⊥ ∧ (∑ i ∈ s, f i) ≠ ⊤ := by
  classical
  induction s using Finset.induction_on with
  | empty => rw [Finset.sum_empty, ← EReal.coe_zero]; exact finite_coe 0
  | insert a s ha ih =>
    rw [Finset.sum_insert ha]
    exact finite_add (h a (Finset.mem_insert_self a s)) (ih fun i hi => h i (Finset.mem_insert_of_mem hi))

/-- The coercion commutes with `max`. -/
theorem coe_max (a b : ℝ) : ((max a b : ℝ) : EReal) = max (a : EReal) (b : EReal) :=
  EReal.coe_strictMono.monotone.map_max

/-- The fold of `max` from `⊥` over a nonempty finite family of reals is the coercion of a real. -/
theorem fold_max_coe {ι : Type*} (s : Finset ι) (hs : s.Nonempty) (g : ι → ℝ) :
    ∃ m : ℝ, s.fold max ⊥ (fun i => (g i : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨g a, by rw [Finset.fold_empty, max_bot_right]⟩
    · obtain ⟨m, hm⟩ := ih hne
      exact ⟨max (g a) m, by rw [hm, coe_max]⟩

/-- A sum of exponentials over a nonempty finite set is positive. -/
theorem sum_exp_pos {ι : Type*} (s : Finset ι) (hs : s.Nonempty) (f : ι → ℝ) : 0 < ∑ i ∈ s, Real.exp (f i) :=
  Finset.sum_pos (fun _ _ => Real.exp_pos _) hs

/-- The logarithm of a sum of exponentials does not depend on the shift: `M + log ∑ exp (f - M) = log ∑ exp f`. -/
theorem add_log_sum_exp_sub {ι : Type*} (s : Finset ι) (hs : s.Nonempty) (f : ι → ℝ) (M : ℝ) :
    M + Real.log (∑ i ∈ s, Real.exp (f i - M)) = Real.log (∑ i ∈ s, Real.exp (f i)) := by
  have hpos : 0 < ∑ i ∈ s, Real.exp (f i) := sum_exp_pos s hs f
  have h : ∑ i ∈ s, Real.exp (f i - M) = (∑ i ∈ s, Real.exp (f i)) * Real.exp (-M) := by
    rw [Finset.sum_mul]
    refine Finset.sum_congr rfl fun i _ => ?_
    rw [sub_eq_add_neg, Real.exp_add]
  rw [h, Real.log_mul hpos.ne' (Real.exp_pos _).ne', Real.log_exp]; ring

/-- Two logarithms of sums join: `max a c + log (1 + exp (-|a - c|)) = log (exp a + exp c)`, with `|y| = max y (-y)`. -/
theorem max_add_log_one_add_exp (a c : ℝ) :
    max a c + Real.log (1 + Real.exp (-(max (a - c) (-(a - c))))) = Real.log (Real.exp a + Real.exp c) := by
  rcases le_total a c with h | h
  · have h1 : max a c = c := max_eq_right h
    have h2 : max (a - c) (-(a - c)) = c - a := by rw [max_eq_right (by linarith)]; ring
    have e : Real.exp c * Real.exp (-(c - a)) = Real.exp a := by rw [← Real.exp_add]; congr 1; ring
    rw [h1, h2, show Real.exp a + Real.exp c = Real.exp c * (1 + Real.exp (-(c - a))) by
      rw [mul_add, mul_one, e, add_comm]]
    rw [Real.log_mul (Real.exp_pos _).ne' (by positivity), Real.log_exp]
  · have h1 : max a c = a := max_eq_left h
    have h2 : max (a - c) (-(a - c)) = a - c := max_eq_left (by linarith)
    have e : Real.exp a * Real.exp (-(a - c)) = Real.exp c := by rw [← Real.exp_add]; congr 1; ring
    rw [h1, h2, show Real.exp a + Real.exp c = Real.exp a * (1 + Real.exp (-(a - c))) by
      rw [mul_add, mul_one, e]]
    rw [Real.log_mul (Real.exp_pos _).ne' (by positivity), Real.log_exp]

end LibLogSumExp
-- ==== Proof.FiniteStep.lean ====
/-
  Finiteness of the arrays of one LSTM step: when every entry of the inputs, weights and biases is a real (neither
  infinity), so is every entry of the concatenated input, of each affine map, of the new cell and of the new hidden
  state. A finite sum of products of reals is a real, and the logistic function and the hyperbolic tangent of a real
  are reals.
-/
import proofs.«116741_j80522046865747_2_alg».proof.Proof.Spec
import proofs.«116741_j80522046865747_2_alg».proof.Proof.LibLogSumExp

open scoped BigOperators

namespace Cert.Lstm

open Idealize.ShloMosaic LibLogSumExp

/-- The logistic function of a finite extended real is finite. -/
theorem logistic_finite {x : EReal} (hx : x ≠ ⊥ ∧ x ≠ ⊤) : Ideal.logistic x ≠ ⊥ ∧ Ideal.logistic x ≠ ⊤ := by
  obtain ⟨r, rfl⟩ := exists_real_of_finite hx
  rw [Ideal.logistic_coe]; exact finite_coe _

/-- The hyperbolic tangent of a finite extended real is finite. -/
theorem tanh_finite {x : EReal} (hx : x ≠ ⊥ ∧ x ≠ ⊤) : Ideal.tanh x ≠ ⊥ ∧ Ideal.tanh x ≠ ⊤ := by
  obtain ⟨r, rfl⟩ := exists_real_of_finite hx
  rw [Ideal.tanh_coe]; exact finite_coe _

/-- The concatenation of finite arrays is finite. -/
theorem xc_finite (cat : Mat 256 512) (x : Mat 256 1536) (hid : Mat 256 2048)
    (hcat : ∀ i j, cat i j ≠ ⊥ ∧ cat i j ≠ ⊤) (hx : ∀ i j, x i j ≠ ⊥ ∧ x i j ≠ ⊤)
    (hhid : ∀ i j, hid i j ≠ ⊥ ∧ hid i j ≠ ⊤) :
    ∀ b k, xc cat x hid b k ≠ ⊥ ∧ xc cat x hid b k ≠ ⊤ := by
  intro b k
  unfold xc
  split_ifs
  · exact hcat _ _
  · exact hx _ _
  · exact hhid _ _

/-- An affine map of a finite array by finite weights and a finite bias is finite. -/
theorem affine_finite {n o : Nat} (a : Mat 256 n) (W : Mat o n) (bias : Vct o)
    (ha : ∀ i j, a i j ≠ ⊥ ∧ a i j ≠ ⊤) (hW : ∀ i j, W i j ≠ ⊥ ∧ W i j ≠ ⊤) (hb : ∀ i, bias i ≠ ⊥ ∧ bias i ≠ ⊤) :
    ∀ b j, affine a W bias b j ≠ ⊥ ∧ affine a W bias b j ≠ ⊤ := by
  intro b j
  unfold affine
  exact finite_add (finite_sum _ _ fun k _ => finite_mul (ha b k) (hW j k)) (hb j)

/-- The new cell state of finite inputs is finite. -/
theorem cellNew_finite (xcv : Mat 256 4096) (cell : Mat 256 4096) (Wf : Mat 4096 4096) (bf : Vct 4096)
    (Wi : Mat 4096 4096) (bi : Vct 4096) (Wc : Mat 4096 4096) (bc : Vct 4096)
    (hxc : ∀ i j, xcv i j ≠ ⊥ ∧ xcv i j ≠ ⊤) (hcell : ∀ i j, cell i j ≠ ⊥ ∧ cell i j ≠ ⊤)
    (hWf : ∀ i j, Wf i j ≠ ⊥ ∧ Wf i j ≠ ⊤) (hbf : ∀ i, bf i ≠ ⊥ ∧ bf i ≠ ⊤)
    (hWi : ∀ i j, Wi i j ≠ ⊥ ∧ Wi i j ≠ ⊤) (hbi : ∀ i, bi i ≠ ⊥ ∧ bi i ≠ ⊤)
    (hWc : ∀ i j, Wc i j ≠ ⊥ ∧ Wc i j ≠ ⊤) (hbc : ∀ i, bc i ≠ ⊥ ∧ bc i ≠ ⊤) :
    ∀ b n, cellNew xcv cell Wf bf Wi bi Wc bc b n ≠ ⊥ ∧ cellNew xcv cell Wf bf Wi bi Wc bc b n ≠ ⊤ := by
  intro b n
  unfold cellNew
  exact finite_add
    (finite_mul (logistic_finite (affine_finite xcv Wf bf hxc hWf hbf b n)) (hcell b n))
    (finite_mul (logistic_finite (affine_finite xcv Wi bi hxc hWi hbi b n))
      (tanh_finite (affine_finite xcv Wc bc hxc hWc hbc b n)))

/-- The new hidden state of finite inputs is finite. -/
theorem hidNew_finite (xcv : Mat 256 4096) (cn : Mat 256 4096) (Wo : Mat 4096 4096) (bo : Vct 4096)
    (hxc : ∀ i j, xcv i j ≠ ⊥ ∧ xcv i j ≠ ⊤) (hcn : ∀ i j, cn i j ≠ ⊥ ∧ cn i j ≠ ⊤)
    (hWo : ∀ i j, Wo i j ≠ ⊥ ∧ Wo i j ≠ ⊤) (hbo : ∀ i, bo i ≠ ⊥ ∧ bo i ≠ ⊤) :
    ∀ b n, hidNew xcv cn Wo bo b n ≠ ⊥ ∧ hidNew xcv cn Wo bo b n ≠ ⊤ := by
  intro b n
  unfold hidNew
  exact finite_mul (logistic_finite (affine_finite xcv Wo bo hxc hWo hbo b n)) (tanh_finite (hcn b n))

end Cert.Lstm
-- ==== Proof.StreamLse.lean ====
/-
  The streaming log-softmax agrees with the shifted one on finite logits.

  Write `z` for the real logits of one row. The 50 blocks of 640 columns tile the 32000 columns, so a sum over the row is
  the sum over the two halves of the sums over their 25 blocks. The streaming state after `j ≥ 1` blocks of a half is a pair
  `(M, ∑ exp (z - M))`, the sum over those `j` blocks, for SOME real `M`: one step replaces `M` by `M' = max M m` and
  multiplies the old sum by `exp (M - M')`, which is the sum shifted by `M'`. Since `M + log ∑ exp (z - M) = log ∑ exp z`
  for any real `M`, each half's value is `log ∑ exp z` over its columns; two such join to the logarithm of the whole sum; and
  the shifted form's `(z - R) - log ∑ exp (z - R)` is `z - log ∑ exp z` for the same reason.
-/
import proofs.«116741_j80522046865747_2_alg».proof.Proof.Spec
import proofs.«116741_j80522046865747_2_alg».proof.Proof.LibLogSumExp

noncomputable section

open scoped BigOperators

namespace Cert.Lstm

open Idealize.ShloMosaic LibLogSumExp

/-! ### The blocks tile the columns -/

/-- A column is a block and a position in it. -/
def colEquiv : Fin 50 × Fin 640 ≃ Fin 32000 where
  toFun p := col p.1 p.2
  invFun v := (⟨v.val / 640, by have := v.isLt; omega⟩, ⟨v.val % 640, by omega⟩)
  left_inv := by
    rintro ⟨⟨a, ha⟩, ⟨q, hq⟩⟩
    simp only [col, Prod.mk.injEq, Fin.mk.injEq]
    constructor <;> omega
  right_inv := by
    rintro ⟨v, hv⟩
    simp only [col, Fin.mk.injEq]
    omega

/-- A block is a half and a position in it. -/
def blkEquiv : Fin 2 × Fin 25 ≃ Fin 50 where
  toFun p := blkOf p.1 p.2
  invFun t := (⟨t.val / 25, by have := t.isLt; omega⟩, ⟨t.val % 25, by omega⟩)
  left_inv := by
    rintro ⟨⟨a, ha⟩, ⟨q, hq⟩⟩
    simp only [blkOf, Prod.mk.injEq, Fin.mk.injEq]
    constructor <;> omega
  right_inv := by
    rintro ⟨v, hv⟩
    simp only [blkOf, Fin.mk.injEq]
    omega

/-- A sum over the 32000 columns is the sum over halves, blocks and positions. -/
theorem sum_cols {M : Type*} [AddCommMonoid M] (g : Fin 32000 → M) :
    ∑ v, g v = ∑ i : Fin 2, ∑ j : Fin 25, ∑ q : Fin 640, g (col (blkOf i j) q) :=
  calc ∑ v, g v = ∑ p : Fin 50 × Fin 640, g (colEquiv p) := (Equiv.sum_comp colEquiv g).symm
    _ = ∑ blk : Fin 50, ∑ q : Fin 640, g (col blk q) := Fintype.sum_prod_type _
    _ = ∑ p : Fin 2 × Fin 25, ∑ q : Fin 640, g (col (blkEquiv p) q) :=
        (Equiv.sum_comp blkEquiv (fun blk => ∑ q : Fin 640, g (col blk q))).symm
    _ = ∑ i : Fin 2, ∑ j : Fin 25, ∑ q : Fin 640, g (col (blkOf i j) q) := Fintype.sum_prod_type _

/-! ### The sums of exponentials of a half -/

/-- The sum over block `jj` of half `i` of `exp (z - M)`; zero beyond the 25 blocks. -/
def blockSum (z : Fin 256 → Fin 32000 → ℝ) (i : Fin 2) (b : Fin 256) (M : ℝ) (jj : ℕ) : ℝ :=
  if h : jj < 25 then ∑ q : Fin 640, Real.exp (z b (col (blkOf i ⟨jj, h⟩) q) - M) else 0

/-- The sum over the first `j` blocks of half `i` of `exp (z - M)`. -/
def partSum (z : Fin 256 → Fin 32000 → ℝ) (i : Fin 2) (b : Fin 256) (M : ℝ) (j : ℕ) : ℝ :=
  ∑ jj ∈ Finset.range j, blockSum z i b M jj

/-- The sum over half `i` of `exp z`. -/
def halfSum (z : Fin 256 → Fin 32000 → ℝ) (i : Fin 2) (b : Fin 256) : ℝ :=
  ∑ j : Fin 25, ∑ q : Fin 640, Real.exp (z b (col (blkOf i j) q))

theorem blockSum_rescale (z : Fin 256 → Fin 32000 → ℝ) (i : Fin 2) (b : Fin 256) (M M' : ℝ) (jj : ℕ) :
    blockSum z i b M jj * Real.exp (M - M') = blockSum z i b M' jj := by
  unfold blockSum
  split_ifs with h
  · rw [Finset.sum_mul]
    refine Finset.sum_congr rfl fun q _ => ?_
    rw [← Real.exp_add]; congr 1; ring
  · exact zero_mul _

/-- Changing the shift from `M` to `M'` multiplies the sum by `exp (M - M')`. -/
theorem partSum_rescale (z : Fin 256 → Fin 32000 → ℝ) (i : Fin 2) (b : Fin 256) (M M' : ℝ) (j : ℕ) :
    partSum z i b M j * Real.exp (M - M') = partSum z i b M' j := by
  unfold partSum
  rw [Finset.sum_mul]
  exact Finset.sum_congr rfl fun jj _ => blockSum_rescale z i b M M' jj

theorem partSum_succ (z : Fin 256 → Fin 32000 → ℝ) (i : Fin 2) (b : Fin 256) (M : ℝ) (j : ℕ) :
    partSum z i b M (j + 1) = partSum z i b M j + blockSum z i b M j := Finset.sum_range_succ _ _

theorem partSum_one (z : Fin 256 → Fin 32000 → ℝ) (i : Fin 2) (b : Fin 256) (M : ℝ) :
    partSum z i b M 1 = blockSum z i b M 0 := Finset.sum_range_one _

theorem partSum_pos (z : Fin 256 → Fin 32000 → ℝ) (i : Fin 2) (b : Fin 256) (M : ℝ) : 0 < partSum z i b M 25 := by
  unfold partSum
  refine Finset.sum_pos (fun jj hjj => ?_) ⟨0, by simp⟩
  have h : jj < 25 := Finset.mem_range.mp hjj
  rw [blockSum, dif_pos h]
  exact sum_exp_pos _ Finset.univ_nonempty _

theorem partSum_zero_eq (z : Fin 256 → Fin 32000 → ℝ) (i : Fin 2) (b : Fin 256) :
    partSum z i b 0 25 = halfSum z i b := by
  unfold partSum halfSum
  rw [← Fin.sum_univ_eq_sum_range]
  refine Finset.sum_congr rfl fun j _ => ?_
  rw [blockSum, dif_pos j.isLt]
  simp only [sub_zero, Fin.eta]

theorem halfSum_pos (z : Fin 256 → Fin 32000 → ℝ) (i : Fin 2) (b : Fin 256) : 0 < halfSum z i b := by
  rw [← partSum_zero_eq]; exact partSum_pos z i b 0

/-- The two halves make the whole row. -/
theorem halfSum_add (z : Fin 256 → Fin 32000 → ℝ) (b : Fin 256) :
    halfSum z 0 b + halfSum z 1 b = ∑ v : Fin 32000, Real.exp (z b v) := by
  rw [sum_cols (fun v => Real.exp (z b v)), Fin.sum_univ_two]; rfl

/-! ### The streaming state -/

theorem exp_coe_sub (x y : ℝ) : Ideal.exp ((x : EReal) - (y : EReal)) = ((Real.exp (x - y) : ℝ) : EReal) := by
  rw [← EReal.coe_sub, Ideal.exp_coe]

theorem blkMax_real (Z : Mat 256 32000) (z : Fin 256 → Fin 32000 → ℝ) (hz : ∀ b v, Z b v = (z b v : EReal))
    (blk : Fin 50) (b : Fin 256) : ∃ m : ℝ, blkMax Z blk b = (m : EReal) := by
  unfold blkMax
  simp only [hz]
  exact fold_max_coe _ Finset.univ_nonempty _

theorem st_succ (Z : Mat 256 32000) (i : Fin 2) (b : Fin 256) (j : ℕ) (hj : j < 25) :
    st Z i b (j + 1) =
      (max (st Z i b j).1 (blkMax Z (blkOf i ⟨j, hj⟩) b),
       (st Z i b j).2 * Ideal.exp ((st Z i b j).1 - max (st Z i b j).1 (blkMax Z (blkOf i ⟨j, hj⟩) b))
         + ∑ q : Fin 640,
            Ideal.exp (Z b (col (blkOf i ⟨j, hj⟩) q) - max (st Z i b j).1 (blkMax Z (blkOf i ⟨j, hj⟩) b))) := by
  rw [st, dif_pos hj]

/-- After `j ≥ 1` blocks the state is `(M, ∑ exp (z - M))` over those blocks, for some real `M`. -/
theorem st_invariant (Z : Mat 256 32000) (z : Fin 256 → Fin 32000 → ℝ) (hz : ∀ b v, Z b v = (z b v : EReal))
    (i : Fin 2) (b : Fin 256) : ∀ j, j ≤ 25 →
      (j = 0 ∧ st Z i b j = (⊥, 0)) ∨
        ∃ M : ℝ, st Z i b j = ((M : EReal), ((partSum z i b M j : ℝ) : EReal)) := by
  intro j
  induction j with
  | zero => intro _; exact Or.inl ⟨rfl, rfl⟩
  | succ j ih =>
    intro hj1
    have hj : j < 25 := by omega
    right
    obtain ⟨m, hm⟩ := blkMax_real Z z hz (blkOf i ⟨j, hj⟩) b
    have hblock : ∀ M' : ℝ, (∑ q : Fin 640, Ideal.exp (Z b (col (blkOf i ⟨j, hj⟩) q) - (M' : EReal)))
        = ((blockSum z i b M' j : ℝ) : EReal) := by
      intro M'
      simp only [hz, exp_coe_sub]
      rw [← coe_finset_sum, blockSum, dif_pos hj]
    rw [st_succ Z i b j hj, hm]
    rcases ih (by omega) with ⟨h0, hst0⟩ | ⟨M, hM⟩
    · subst h0
      refine ⟨m, ?_⟩
      rw [hst0]
      dsimp only
      rw [max_bot_left, EReal.bot_sub, Ideal.exp_bot, mul_zero, zero_add, hblock, partSum_one]
    · refine ⟨max M m, ?_⟩
      rw [hM]
      dsimp only
      rw [← coe_max, exp_coe_sub, ← EReal.coe_mul, partSum_rescale, hblock, ← EReal.coe_add, partSum_succ]

/-- Each half's streaming value is the logarithm of the sum of the exponentials over the half. -/
theorem lseHalf_eq (Z : Mat 256 32000) (z : Fin 256 → Fin 32000 → ℝ) (hz : ∀ b v, Z b v = (z b v : EReal))
    (i : Fin 2) (b : Fin 256) : lseHalf Z i b = ((Real.log (halfSum z i b) : ℝ) : EReal) := by
  rcases st_invariant Z z hz i b 25 le_rfl with ⟨h, _⟩ | ⟨M, hM⟩
  · exact absurd h (by norm_num)
  · have hpos := partSum_pos z i b M
    have hpos0 := partSum_pos z i b 0
    unfold lseHalf
    rw [hM]
    dsimp only
    rw [Ideal.log_coe, if_neg (not_le.mpr hpos), ← EReal.coe_add, ← partSum_zero_eq z i b,
      ← partSum_rescale z i b 0 M 25, Real.log_mul hpos0.ne' (Real.exp_pos _).ne', Real.log_exp]
    congr 1; ring

/-- Joining two real values: `max a c + log1p (exp (-|a - c|)) = log (exp a + exp c)`. -/
theorem joinLse_coe (a c : ℝ) :
    joinLse (a : EReal) (c : EReal) = ((Real.log (Real.exp a + Real.exp c) : ℝ) : EReal) := by
  have h1 : max ((a : EReal) - c) (-((a : EReal) - c)) = ((max (a - c) (-(a - c)) : ℝ) : EReal) := by
    rw [coe_max, EReal.coe_neg, EReal.coe_sub]
  have h2 : (1 : EReal) + Ideal.exp (-((max (a - c) (-(a - c)) : ℝ) : EReal))
      = ((1 + Real.exp (-(max (a - c) (-(a - c)))) : ℝ) : EReal) := by
    rw [← EReal.coe_neg, Ideal.exp_coe, EReal.coe_add, EReal.coe_one]
  have hpos : ¬ (1 + Real.exp (-(max (a - c) (-(a - c)))) ≤ 0) := not_le.mpr (by positivity)
  unfold joinLse Ideal.log1p
  rw [h1, h2, Ideal.log_coe, if_neg hpos, ← coe_max, ← EReal.coe_add, max_add_log_one_add_exp]

/-! ### Both forms are `z - log ∑ exp z` -/

theorem outStream_real (Z : Mat 256 32000) (z : Fin 256 → Fin 32000 → ℝ) (hz : ∀ b v, Z b v = (z b v : EReal))
    (b : Fin 256) (v : Fin 32000) :
    outStream Z b v = ((z b v - Real.log (∑ w : Fin 32000, Real.exp (z b w)) : ℝ) : EReal) := by
  unfold outStream
  rw [lseHalf_eq Z z hz 0 b, lseHalf_eq Z z hz 1 b, joinLse_coe, hz,
    Real.exp_log (halfSum_pos z 0 b), Real.exp_log (halfSum_pos z 1 b), halfSum_add, ← EReal.coe_sub]

theorem outRef_real (Z : Mat 256 32000) (z : Fin 256 → Fin 32000 → ℝ) (hz : ∀ b v, Z b v = (z b v : EReal))
    (b : Fin 256) (v : Fin 32000) :
    outRef Z b v = ((z b v - Real.log (∑ w : Fin 32000, Real.exp (z b w)) : ℝ) : EReal) := by
  obtain ⟨Mr, hMr⟩ : ∃ Mr : ℝ, rowMax Z b = (Mr : EReal) := by
    unfold rowMax
    simp only [hz]
    obtain ⟨m, hm⟩ := fold_max_coe (Finset.univ : Finset (Fin 32000)) Finset.univ_nonempty (fun v => z b v)
    exact ⟨m, by rw [hm, max_bot_left]⟩
  have hsum : (∑ w : Fin 32000, Ideal.exp (Z b w - (Mr : EReal)))
      = ((∑ w : Fin 32000, Real.exp (z b w - Mr) : ℝ) : EReal) := by
    simp only [hz, exp_coe_sub]
    rw [← coe_finset_sum]
  have hpos : 0 < ∑ w : Fin 32000, Real.exp (z b w - Mr) := sum_exp_pos _ Finset.univ_nonempty _
  unfold outRef
  have key := add_log_sum_exp_sub (Finset.univ : Finset (Fin 32000)) Finset.univ_nonempty (fun w => z b w) Mr
  rw [hMr, hsum, zero_add, Ideal.log_coe, if_neg (not_le.mpr hpos), hz, ← EReal.coe_sub, ← EReal.coe_sub, ← key,
    sub_sub]

/-- On finite logits the streaming log-softmax is the shifted one. -/
theorem outStream_eq_outRef (Z : Mat 256 32000) (hZ : ∀ b v, Z b v ≠ ⊥ ∧ Z b v ≠ ⊤) : outStream Z = outRef Z := by
  have hex : ∀ b v, ∃ r : ℝ, Z b v = (r : EReal) := fun b v => exists_real_of_finite (hZ b v)
  choose z hz using hex
  funext b v
  rw [outStream_real Z z hz b v, outRef_real Z z hz b v]

end Cert.Lstm

end
-- ==== Proof.LogSoftmaxStep.lean ====
/-
  The whole step on finite data: the logits of one LSTM step are finite, so their streaming log-softmax is the shifted one.
-/
import proofs.«116741_j80522046865747_2_alg».proof.Proof.FiniteStep
import proofs.«116741_j80522046865747_2_alg».proof.Proof.StreamLse

noncomputable section

namespace Cert.Lstm

/-- The logits of one step: the read-out affine map of the new hidden state. -/
def logits (cat : Mat 256 512) (x : Mat 256 1536) (hid : Mat 256 2048) (cell : Mat 256 4096)
    (Wf : Mat 4096 4096) (bf : Vct 4096) (Wi : Mat 4096 4096) (bi : Vct 4096) (Wc : Mat 4096 4096) (bc : Vct 4096)
    (Wo : Mat 4096 4096) (bo : Vct 4096) (Wout : Mat 32000 4096) (bout : Vct 32000) : Mat 256 32000 :=
  affine (hidNew (xc cat x hid) (cellNew (xc cat x hid) cell Wf bf Wi bi Wc bc) Wo bo) Wout bout

/-- The logits of finite data are finite. -/
theorem logits_finite (cat : Mat 256 512) (x : Mat 256 1536) (hid : Mat 256 2048) (cell : Mat 256 4096)
    (Wf : Mat 4096 4096) (bf : Vct 4096) (Wi : Mat 4096 4096) (bi : Vct 4096) (Wc : Mat 4096 4096) (bc : Vct 4096)
    (Wo : Mat 4096 4096) (bo : Vct 4096) (Wout : Mat 32000 4096) (bout : Vct 32000)
    (hcat : ∀ i j, cat i j ≠ ⊥ ∧ cat i j ≠ ⊤) (hx : ∀ i j, x i j ≠ ⊥ ∧ x i j ≠ ⊤)
    (hhid : ∀ i j, hid i j ≠ ⊥ ∧ hid i j ≠ ⊤) (hcell : ∀ i j, cell i j ≠ ⊥ ∧ cell i j ≠ ⊤)
    (hWf : ∀ i j, Wf i j ≠ ⊥ ∧ Wf i j ≠ ⊤) (hbf : ∀ i, bf i ≠ ⊥ ∧ bf i ≠ ⊤)
    (hWi : ∀ i j, Wi i j ≠ ⊥ ∧ Wi i j ≠ ⊤) (hbi : ∀ i, bi i ≠ ⊥ ∧ bi i ≠ ⊤)
    (hWc : ∀ i j, Wc i j ≠ ⊥ ∧ Wc i j ≠ ⊤) (hbc : ∀ i, bc i ≠ ⊥ ∧ bc i ≠ ⊤)
    (hWo : ∀ i j, Wo i j ≠ ⊥ ∧ Wo i j ≠ ⊤) (hbo : ∀ i, bo i ≠ ⊥ ∧ bo i ≠ ⊤)
    (hWout : ∀ i j, Wout i j ≠ ⊥ ∧ Wout i j ≠ ⊤) (hbout : ∀ i, bout i ≠ ⊥ ∧ bout i ≠ ⊤) :
    ∀ b v, logits cat x hid cell Wf bf Wi bi Wc bc Wo bo Wout bout b v ≠ ⊥ ∧
      logits cat x hid cell Wf bf Wi bi Wc bc Wo bo Wout bout b v ≠ ⊤ := by
  have hxc := xc_finite cat x hid hcat hx hhid
  have hcn := cellNew_finite (xc cat x hid) cell Wf bf Wi bi Wc bc hxc hcell hWf hbf hWi hbi hWc hbc
  have hhn := hidNew_finite (xc cat x hid) _ Wo bo hxc hcn hWo hbo
  exact affine_finite _ Wout bout hhn hWout hbout

/-- On finite data, the streaming log-softmax of the step's logits is the shifted one. -/
theorem outStream_logits_eq_outRef (cat : Mat 256 512) (x : Mat 256 1536) (hid : Mat 256 2048) (cell : Mat 256 4096)
    (Wf : Mat 4096 4096) (bf : Vct 4096) (Wi : Mat 4096 4096) (bi : Vct 4096) (Wc : Mat 4096 4096) (bc : Vct 4096)
    (Wo : Mat 4096 4096) (bo : Vct 4096) (Wout : Mat 32000 4096) (bout : Vct 32000)
    (hcat : ∀ i j, cat i j ≠ ⊥ ∧ cat i j ≠ ⊤) (hx : ∀ i j, x i j ≠ ⊥ ∧ x i j ≠ ⊤)
    (hhid : ∀ i j, hid i j ≠ ⊥ ∧ hid i j ≠ ⊤) (hcell : ∀ i j, cell i j ≠ ⊥ ∧ cell i j ≠ ⊤)
    (hWf : ∀ i j, Wf i j ≠ ⊥ ∧ Wf i j ≠ ⊤) (hbf : ∀ i, bf i ≠ ⊥ ∧ bf i ≠ ⊤)
    (hWi : ∀ i j, Wi i j ≠ ⊥ ∧ Wi i j ≠ ⊤) (hbi : ∀ i, bi i ≠ ⊥ ∧ bi i ≠ ⊤)
    (hWc : ∀ i j, Wc i j ≠ ⊥ ∧ Wc i j ≠ ⊤) (hbc : ∀ i, bc i ≠ ⊥ ∧ bc i ≠ ⊤)
    (hWo : ∀ i j, Wo i j ≠ ⊥ ∧ Wo i j ≠ ⊤) (hbo : ∀ i, bo i ≠ ⊥ ∧ bo i ≠ ⊤)
    (hWout : ∀ i j, Wout i j ≠ ⊥ ∧ Wout i j ≠ ⊤) (hbout : ∀ i, bout i ≠ ⊥ ∧ bout i ≠ ⊤) :
    outStream (logits cat x hid cell Wf bf Wi bi Wc bc Wo bo Wout bout)
      = outRef (logits cat x hid cell Wf bf Wi bi Wc bc Wo bo Wout bout) :=
  outStream_eq_outRef _
    (logits_finite cat x hid cell Wf bf Wi bi Wc bc Wo bo Wout bout hcat hx hhid hcell hWf hbf hWi hbi hWc hbc hWo hbo
      hWout hbout)

end Cert.Lstm

end
-- ==== Proof.RefRun.lean ====
/-
  The reference program's run, read back in three segments. The program is a straight line of 62 host operations;
  the contents of the buffers after the line are the fold of the operations' results over the launch contents.
  The fold is cut after the fused gate product with its bias (operation 8) and after the new hidden state
  (operation 42); between the cuts the valuation is an arbitrary one of which only the few buffers the next segment
  reads are known. Each segment's result is the stage function of the arguments, by unfolding the stages; the whole
  run then says: every weakly fair execution terminates with the three results at the stage functions of the
  argument arrays' launch contents, the arguments unchanged.
-/
import proofs.«116741_j80522046865747_2_alg».proof.Proof.RefOps
import proofs.«116741_j80522046865747_2_alg».proof.Proof.RefRead

noncomputable section

namespace Cert.ReferenceIdeal.RunP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Operations 1–8: the three concatenations, the transposition, the gate product, its bias. -/
abbrev opsA : List (HloOp τ sig (Elt F)) :=
  [ nary ![main_arg0, main_arg1, main_arg2] main_v0 (fun u => concatenate S256x4096 1 [⟨S256x512, u 0⟩, ⟨S256x1536, u 1⟩, ⟨S256x2048, u 2⟩] concatenates_S256x512_S256x1536_S256x2048_S256x4096_d1),
    nary ![main_arg4, main_arg6, main_arg8, main_arg10] main_v1 (fun u => concatenate S16384x4096 0 [⟨S4096x4096, u 0⟩, ⟨S4096x4096, u 1⟩, ⟨S4096x4096, u 2⟩, ⟨S4096x4096, u 3⟩] concatenates_S4096x4096_S4096x4096_S4096x4096_S4096x4096_S16384x4096_d0),
    nary ![main_arg5, main_arg7, main_arg9, main_arg11] main_v2 (fun u => concatenate S16384 0 [⟨S4096, u 0⟩, ⟨S4096, u 1⟩, ⟨S4096, u 2⟩, ⟨S4096, u 3⟩] concatenates_S4096_S4096_S4096_S4096_S16384_d0),
    unary main_v1 main_v3 ((transpose S4096x16384 [1, 0] · transposes_S16384x4096_S4096x16384_1_0) : (⟨S16384x4096, .f32⟩ : BufTy).Contents (Elt F) → (⟨S4096x16384, .f32⟩ : BufTy).Contents (Elt F)),
    binary main_v0 main_v3 main_v4 ((fun l r => Host.dotGeneral dot_S256x4096_S4096x16384_S256x16384_1_0_0_1_n_n none l r) : (⟨S256x4096, .f32⟩ : BufTy).Contents (Elt F) → (⟨S4096x16384, .f32⟩ : BufTy).Contents (Elt F) → (⟨S256x16384, .f32⟩ : BufTy).Contents (Elt F)),
    unary main_v2 main_v5 (broadcastInDim S1x16384 ![1] bcast_S16384_S1x16384_1 : (⟨S16384, .f32⟩ : BufTy).Contents (Elt F) → (⟨S1x16384, .f32⟩ : BufTy).Contents (Elt F)),
    unary main_v5 main_v6 (broadcastInDim S256x16384 ![0, 1] bcast_S1x16384_S256x16384_0_1 : (⟨S1x16384, .f32⟩ : BufTy).Contents (Elt F) → (⟨S256x16384, .f32⟩ : BufTy).Contents (Elt F)),
    binary main_v4 main_v6 main_v7 (addf : (⟨S256x16384, .f32⟩ : BufTy).Contents (Elt F) → (⟨S256x16384, .f32⟩ : BufTy).Contents (Elt F) → (⟨S256x16384, .f32⟩ : BufTy).Contents (Elt F)) ]

/-- Operations 9–42: the four gate slices, the gates, the new cell and hidden states. -/
abbrev opsB : List (HloOp τ sig (Elt F)) :=
  [ unary main_v7 main_v8 ((extractStridedSlice S256x4096 ![0, 0] · slices_S256x16384_S256x4096_0_0) : (⟨S256x16384, .f32⟩ : BufTy).Contents (Elt F) → (⟨S256x4096, .f32⟩ : BufTy).Contents (Elt F)),
    unary main_v7 main_v9 ((extractStridedSlice S256x4096 ![0, 4096] · slices_S256x16384_S256x4096_0_4096) : (⟨S256x16384, .f32⟩ : BufTy).Contents (Elt F) → (⟨S256x4096, .f32⟩ : BufTy).Contents (Elt F)),
    unary main_v7 main_v10 ((extractStridedSlice S256x4096 ![0, 8192] · slices_S256x16384_S256x4096_0_8192) : (⟨S256x16384, .f32⟩ : BufTy).Contents (Elt F) → (⟨S256x4096, .f32⟩ : BufTy).Contents (Elt F)),
    unary main_v7 main_v11 ((extractStridedSlice S256x4096 ![0, 12288] · slices_S256x16384_S256x4096_0_12288) : (⟨S256x16384, .f32⟩ : BufTy).Contents (Elt F) → (⟨S256x4096, .f32⟩ : BufTy).Contents (Elt F)),
    unary main_v8 main_v12 (Host.negf : (⟨S256x4096, .f32⟩ : BufTy).Contents (Elt F) → (⟨S256x4096, .f32⟩ : BufTy).Contents (Elt F)),
    unary main_v12 main_v13 (Host.exp : (⟨S256x4096, .f32⟩ : BufTy).Contents (Elt F) → (⟨S256x4096, .f32⟩ : BufTy).Contents (Elt F)),
    nullary main_cst (constant S_ .f32 0x3F800000#32),
    unary main_cst main_v14 (broadcastInDim S256x4096 ![] bcast_S_S256x4096 : (⟨S_, .f32⟩ : BufTy).Contents (Elt F) → (⟨S256x4096, .f32⟩ : BufTy).Contents (Elt F)),
    binary main_v14 main_v13 main_v15 (addf : (⟨S256x4096, .f32⟩ : BufTy).Contents (Elt F) → (⟨S256x4096, .f32⟩ : BufTy).Contents (Elt F) → (⟨S256x4096, .f32⟩ : BufTy).Contents (Elt F)),
    nullary main_cst_0 (constant S_ .f32 0x3F800000#32),
    unary main_cst_0 main_v16 (broadcastInDim S256x4096 ![] bcast_S_S256x4096 : (⟨S_, .f32⟩ : BufTy).Contents (Elt F) → (⟨S256x4096, .f32⟩ : BufTy).Contents (Elt F)),
    binary main_v16 main_v15 main_v17 (Host.divf : (⟨S256x4096, .f32⟩ : BufTy).Contents (Elt F) → (⟨S256x4096, .f32⟩ : BufTy).Contents (Elt F) → (⟨S256x4096, .f32⟩ : BufTy).Contents (Elt F)),
    unary main_v9 main_v18 (Host.negf : (⟨S256x4096, .f32⟩ : BufTy).Contents (Elt F) → (⟨S256x4096, .f32⟩ : BufTy).Contents (Elt F)),
    unary main_v18 main_v19 (Host.exp : (⟨S256x4096, .f32⟩ : BufTy).Contents (Elt F) → (⟨S256x4096, .f32⟩ : BufTy).Contents (Elt F)),
    nullary main_cst_1 (constant S_ .f32 0x3F800000#32),
    unary main_cst_1 main_v20 (broadcastInDim S256x4096 ![] bcast_S_S256x4096 : (⟨S_, .f32⟩ : BufTy).Contents (Elt F) → (⟨S256x4096, .f32⟩ : BufTy).Contents (Elt F)),
    binary main_v20 main_v19 main_v21 (addf : (⟨S256x4096, .f32⟩ : BufTy).Contents (Elt F) → (⟨S256x4096, .f32⟩ : BufTy).Contents (Elt F) → (⟨S256x4096, .f32⟩ : BufTy).Contents (Elt F)),
    nullary main_cst_2 (constant S_ .f32 0x3F800000#32),
    unary main_cst_2 main_v22 (broadcastInDim S256x4096 ![] bcast_S_S256x4096 : (⟨S_, .f32⟩ : BufTy).Contents (Elt F) → (⟨S256x4096, .f32⟩ : BufTy).Contents (Elt F)),
    binary main_v22 main_v21 main_v23 (Host.divf : (⟨S256x4096, .f32⟩ : BufTy).Contents (Elt F) → (⟨S256x4096, .f32⟩ : BufTy).Contents (Elt F) → (⟨S256x4096, .f32⟩ : BufTy).Contents (Elt F)),
    unary main_v10 main_v24 (Host.tanh : (⟨S256x4096, .f32⟩ : BufTy).Contents (Elt F) → (⟨S256x4096, .f32⟩ : BufTy).Contents (Elt F)),
    unary main_v11 main_v25 (Host.negf : (⟨S256x4096, .f32⟩ : BufTy).Contents (Elt F) → (⟨S256x4096, .f32⟩ : BufTy).Contents (Elt F)),
    unary main_v25 main_v26 (Host.exp : (⟨S256x4096, .f32⟩ : BufTy).Contents (Elt F) → (⟨S256x4096, .f32⟩ : BufTy).Contents (Elt F)),
    nullary main_cst_3 (constant S_ .f32 0x3F800000#32),
    unary main_cst_3 main_v27 (broadcastInDim S256x4096 ![] bcast_S_S256x4096 : (⟨S_, .f32⟩ : BufTy).Contents (Elt F) → (⟨S256x4096, .f32⟩ : BufTy).Contents (Elt F)),
    binary main_v27 main_v26 main_v28 (addf : (⟨S256x4096, .f32⟩ : BufTy).Contents (Elt F) → (⟨S256x4096, .f32⟩ : BufTy).Contents (Elt F) → (⟨S256x4096, .f32⟩ : BufTy).Contents (Elt F)),
    nullary main_cst_4 (constant S_ .f32 0x3F800000#32),
    unary main_cst_4 main_v29 (broadcastInDim S256x4096 ![] bcast_S_S256x4096 : (⟨S_, .f32⟩ : BufTy).Contents (Elt F) → (⟨S256x4096, .f32⟩ : BufTy).Contents (Elt F)),
    binary main_v29 main_v28 main_v30 (Host.divf : (⟨S256x4096, .f32⟩ : BufTy).Contents (Elt F) → (⟨S256x4096, .f32⟩ : BufTy).Contents (Elt F) → (⟨S256x4096, .f32⟩ : BufTy).Contents (Elt F)),
    binary main_v17 main_arg3 main_v31 (mulf : (⟨S256x4096, .f32⟩ : BufTy).Contents (Elt F) → (⟨S256x4096, .f32⟩ : BufTy).Contents (Elt F) → (⟨S256x4096, .f32⟩ : BufTy).Contents (Elt F)),
    binary main_v23 main_v24 main_v32 (mulf : (⟨S256x4096, .f32⟩ : BufTy).Contents (Elt F) → (⟨S256x4096, .f32⟩ : BufTy).Contents (Elt F) → (⟨S256x4096, .f32⟩ : BufTy).Contents (Elt F)),
    binary main_v31 main_v32 main_v33 (addf : (⟨S256x4096, .f32⟩ : BufTy).Contents (Elt F) → (⟨S256x4096, .f32⟩ : BufTy).Contents (Elt F) → (⟨S256x4096, .f32⟩ : BufTy).Contents (Elt F)),
    unary main_v33 main_v34 (Host.tanh : (⟨S256x4096, .f32⟩ : BufTy).Contents (Elt F) → (⟨S256x4096, .f32⟩ : BufTy).Contents (Elt F)),
    binary main_v30 main_v34 main_v35 (mulf : (⟨S256x4096, .f32⟩ : BufTy).Contents (Elt F) → (⟨S256x4096, .f32⟩ : BufTy).Contents (Elt F) → (⟨S256x4096, .f32⟩ : BufTy).Contents (Elt F)) ]

/-- Operations 43–62: the logits and their log-softmax. -/
abbrev opsC : List (HloOp τ sig (Elt F)) :=
  [ unary main_arg12 main_v36 ((transpose S4096x32000 [1, 0] · transposes_S32000x4096_S4096x32000_1_0) : (⟨S32000x4096, .f32⟩ : BufTy).Contents (Elt F) → (⟨S4096x32000, .f32⟩ : BufTy).Contents (Elt F)),
    binary main_v35 main_v36 main_v37 ((fun l r => Host.dotGeneral dot_S256x4096_S4096x32000_S256x32000_1_0_0_1_n_n none l r) : (⟨S256x4096, .f32⟩ : BufTy).Contents (Elt F) → (⟨S4096x32000, .f32⟩ : BufTy).Contents (Elt F) → (⟨S256x32000, .f32⟩ : BufTy).Contents (Elt F)),
    unary main_arg13 main_v38 (broadcastInDim S1x32000 ![1] bcast_S32000_S1x32000_1 : (⟨S32000, .f32⟩ : BufTy).Contents (Elt F) → (⟨S1x32000, .f32⟩ : BufTy).Contents (Elt F)),
    unary main_v38 main_v39 (broadcastInDim S256x32000 ![0, 1] bcast_S1x32000_S256x32000_0_1 : (⟨S1x32000, .f32⟩ : BufTy).Contents (Elt F) → (⟨S256x32000, .f32⟩ : BufTy).Contents (Elt F)),
    binary main_v37 main_v39 main_v40 (addf : (⟨S256x32000, .f32⟩ : BufTy).Contents (Elt F) → (⟨S256x32000, .f32⟩ : BufTy).Contents (Elt F) → (⟨S256x32000, .f32⟩ : BufTy).Contents (Elt F)),
    TRef.nullary (TRef.of (T := ⟨S_, .f32⟩) main_call0_cst) (constant S_ .f32 0xFF800000#32),
    TRef.binary (TRef.of (T := ⟨S256x32000, .f32⟩) main_v40) (TRef.of (T := ⟨S_, .f32⟩) main_call0_cst) (TRef.of (T := ⟨S256, .f32⟩) main_call0_v0) (fun x v => Host.reduce FloatOps.maximumf x v reducesTo_S256x32000_S256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S256, .f32⟩) main_call0_v1) (broadcastInDim S256 ![] bcast_S_S256),
    TRef.binary (TRef.of (T := ⟨S256, .f32⟩) main_call0_v1) (TRef.of (T := ⟨S256, .f32⟩) main_call0_v0) (TRef.of (T := ⟨S256, .f32⟩) main_call0_v2) maximumf,
    TRef.unary (TRef.of (T := ⟨S256, .f32⟩) main_call0_v2) (TRef.of (T := ⟨S256x1, .f32⟩) main_call0_v3) (broadcastInDim S256x1 ![0] bcast_S256_S256x1_0),
    TRef.unary (TRef.of (T := ⟨S256x1, .f32⟩) main_call0_v3) (TRef.of (T := ⟨S256x32000, .f32⟩) main_call0_v4) (broadcastInDim S256x32000 ![0, 1] bcast_S256x1_S256x32000_0_1),
    TRef.binary (TRef.of (T := ⟨S256x32000, .f32⟩) main_v40) (TRef.of (T := ⟨S256x32000, .f32⟩) main_call0_v4) (TRef.of (T := ⟨S256x32000, .f32⟩) main_call0_v5) subf,
    TRef.unary (TRef.of (T := ⟨S256x32000, .f32⟩) main_call0_v5) (TRef.of (T := ⟨S256x32000, .f32⟩) main_call0_v6) Host.exp,
    TRef.nullary (TRef.of (T := ⟨S_, .f32⟩) main_call0_cst_1) (constant S_ .f32 0x00000000#32),
    TRef.binary (TRef.of (T := ⟨S256x32000, .f32⟩) main_call0_v6) (TRef.of (T := ⟨S_, .f32⟩) main_call0_cst_1) (TRef.of (T := ⟨S256, .f32⟩) main_call0_v7) (fun x v => Host.reduceAdd x v reducesTo_S256x32000_S256_d1 h_S_),
    TRef.unary (TRef.of (T := ⟨S256, .f32⟩) main_call0_v7) (TRef.of (T := ⟨S256x1, .f32⟩) main_call0_v8) (broadcastInDim S256x1 ![0] bcast_S256_S256x1_0),
    TRef.unary (TRef.of (T := ⟨S256x1, .f32⟩) main_call0_v8) (TRef.of (T := ⟨S256x1, .f32⟩) main_call0_v9) Host.log,
    TRef.unary (TRef.of (T := ⟨S256x1, .f32⟩) main_call0_v9) (TRef.of (T := ⟨S256x32000, .f32⟩) main_call0_v10) (broadcastInDim S256x32000 ![0, 1] bcast_S256x1_S256x32000_0_1),
    TRef.binary (TRef.of (T := ⟨S256x32000, .f32⟩) main_call0_v5) (TRef.of (T := ⟨S256x32000, .f32⟩) main_call0_v10) (TRef.of (T := ⟨S256x32000, .f32⟩) main_v41) subf ]

/-- The fold over a concatenation of two lines is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem ops_eq : (ops : List (HloOp τ sig (Elt F))) = opsA ++ (opsB ++ opsC) := rfl

theorem after_ops (V : Valuation τ sig (Elt F)) : after ops V = after opsC (after opsB (after opsA V)) := by
  rw [ops_eq, after_append, after_append]

/-! ## First segment -/

set_option maxRecDepth 8192 in
theorem segA (V : Valuation τ sig (Elt F)) :
    after opsA V (Proc.devRef .tc main_v7) = val_main_v7 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  after_results_simp <;> rfl

theorem segA_arg3 (W : Valuation τ sig (Elt F)) :
    after opsA W (Proc.devRef .tc main_arg3) = W (Proc.devRef .tc main_arg3) := by
  after_results_simp <;> rfl

theorem segA_arg12 (W : Valuation τ sig (Elt F)) :
    after opsA W (Proc.devRef .tc main_arg12) = W (Proc.devRef .tc main_arg12) := by
  after_results_simp <;> rfl

theorem segA_arg13 (W : Valuation τ sig (Elt F)) :
    after opsA W (Proc.devRef .tc main_arg13) = W (Proc.devRef .tc main_arg13) := by
  after_results_simp <;> rfl

/-! ## Second segment -/

set_option maxRecDepth 8192 in
theorem segB33 (W : Valuation τ sig (Elt F)) (x0 : (⟨S256x512, .f32⟩ : BufTy).Contents (Elt F)) (x1 : (⟨S256x1536, .f32⟩ : BufTy).Contents (Elt F)) (x2 : (⟨S256x2048, .f32⟩ : BufTy).Contents (Elt F)) (x3 : (⟨S256x4096, .f32⟩ : BufTy).Contents (Elt F)) (x4 : (⟨S4096x4096, .f32⟩ : BufTy).Contents (Elt F)) (x5 : (⟨S4096, .f32⟩ : BufTy).Contents (Elt F)) (x6 : (⟨S4096x4096, .f32⟩ : BufTy).Contents (Elt F)) (x7 : (⟨S4096, .f32⟩ : BufTy).Contents (Elt F)) (x8 : (⟨S4096x4096, .f32⟩ : BufTy).Contents (Elt F)) (x9 : (⟨S4096, .f32⟩ : BufTy).Contents (Elt F)) (x10 : (⟨S4096x4096, .f32⟩ : BufTy).Contents (Elt F)) (x11 : (⟨S4096, .f32⟩ : BufTy).Contents (Elt F))
    (h7 : W (Proc.devRef .tc main_v7) = val_main_v7 (F := F) x0 x1 x2 x4 x5 x6 x7 x8 x9 x10 x11) (h3 : W (Proc.devRef .tc main_arg3) = x3) :
    after opsB W (Proc.devRef .tc main_v33) = val_main_v33 (F := F) x0 x1 x2 x3 x4 x5 x6 x7 x8 x9 x10 x11 := by
  after_results_simp
  simp only [h7, h3]
  rfl

set_option maxRecDepth 8192 in
theorem segB35 (W : Valuation τ sig (Elt F)) (x0 : (⟨S256x512, .f32⟩ : BufTy).Contents (Elt F)) (x1 : (⟨S256x1536, .f32⟩ : BufTy).Contents (Elt F)) (x2 : (⟨S256x2048, .f32⟩ : BufTy).Contents (Elt F)) (x3 : (⟨S256x4096, .f32⟩ : BufTy).Contents (Elt F)) (x4 : (⟨S4096x4096, .f32⟩ : BufTy).Contents (Elt F)) (x5 : (⟨S4096, .f32⟩ : BufTy).Contents (Elt F)) (x6 : (⟨S4096x4096, .f32⟩ : BufTy).Contents (Elt F)) (x7 : (⟨S4096, .f32⟩ : BufTy).Contents (Elt F)) (x8 : (⟨S4096x4096, .f32⟩ : BufTy).Contents (Elt F)) (x9 : (⟨S4096, .f32⟩ : BufTy).Contents (Elt F)) (x10 : (⟨S4096x4096, .f32⟩ : BufTy).Contents (Elt F)) (x11 : (⟨S4096, .f32⟩ : BufTy).Contents (Elt F))
    (h7 : W (Proc.devRef .tc main_v7) = val_main_v7 (F := F) x0 x1 x2 x4 x5 x6 x7 x8 x9 x10 x11) (h3 : W (Proc.devRef .tc main_arg3) = x3) :
    after opsB W (Proc.devRef .tc main_v35) = val_main_v35 (F := F) x0 x1 x2 x3 x4 x5 x6 x7 x8 x9 x10 x11 := by
  after_results_simp
  simp only [h7, h3]
  rfl

theorem segB_arg12 (W : Valuation τ sig (Elt F)) :
    after opsB W (Proc.devRef .tc main_arg12) = W (Proc.devRef .tc main_arg12) := by
  after_results_simp <;> rfl

theorem segB_arg13 (W : Valuation τ sig (Elt F)) :
    after opsB W (Proc.devRef .tc main_arg13) = W (Proc.devRef .tc main_arg13) := by
  after_results_simp <;> rfl

/-! ## Third segment -/

/-- Contents carried to a buffer's own type and back are the contents. -/
theorem ofBuf_toBuf {T : BufTy} (x : TRef sig T) (v : T.Contents (Elt F)) : x.ofBuf (x.toBuf v) = v := by
  obtain ⟨r, h, _, _⟩ := x
  subst h
  rfl

theorem ofBuf_v40 (y : (main_v40 : Ref sig .tc).ty.Contents (Elt F)) :
    (TRef.of (T := ⟨S256x32000, .f32⟩) main_v40).ofBuf y = y := rfl

theorem toBuf_v41 (y : (⟨S256x32000, .f32⟩ : BufTy).Contents (Elt F)) :
    (TRef.of (T := ⟨S256x32000, .f32⟩) main_v41).toBuf y = y := rfl

attribute [local irreducible] Host.reduce Host.reduceAdd in
set_option maxRecDepth 8192 in
theorem segC41 (W : Valuation τ sig (Elt F)) (x0 : (⟨S256x512, .f32⟩ : BufTy).Contents (Elt F)) (x1 : (⟨S256x1536, .f32⟩ : BufTy).Contents (Elt F)) (x2 : (⟨S256x2048, .f32⟩ : BufTy).Contents (Elt F)) (x3 : (⟨S256x4096, .f32⟩ : BufTy).Contents (Elt F)) (x4 : (⟨S4096x4096, .f32⟩ : BufTy).Contents (Elt F)) (x5 : (⟨S4096, .f32⟩ : BufTy).Contents (Elt F)) (x6 : (⟨S4096x4096, .f32⟩ : BufTy).Contents (Elt F)) (x7 : (⟨S4096, .f32⟩ : BufTy).Contents (Elt F)) (x8 : (⟨S4096x4096, .f32⟩ : BufTy).Contents (Elt F)) (x9 : (⟨S4096, .f32⟩ : BufTy).Contents (Elt F)) (x10 : (⟨S4096x4096, .f32⟩ : BufTy).Contents (Elt F)) (x11 : (⟨S4096, .f32⟩ : BufTy).Contents (Elt F)) (x12 : (⟨S32000x4096, .f32⟩ : BufTy).Contents (Elt F)) (x13 : (⟨S32000, .f32⟩ : BufTy).Contents (Elt F))
    (h35 : W (Proc.devRef .tc main_v35) = val_main_v35 (F := F) x0 x1 x2 x3 x4 x5 x6 x7 x8 x9 x10 x11)
    (h12 : W (Proc.devRef .tc main_arg12) = x12) (h13 : W (Proc.devRef .tc main_arg13) = x13) :
    after opsC W (Proc.devRef .tc main_v41) = val_main_v41 (F := F) x0 x1 x2 x3 x4 x5 x6 x7 x8 x9 x10 x11 x12 x13 := by
  after_results_simp
  simp only [ofBuf_toBuf, ofBuf_v40, toBuf_v41, h35, h12, h13]
  rfl

theorem segC_v33 (W : Valuation τ sig (Elt F)) :
    after opsC W (Proc.devRef .tc main_v33) = W (Proc.devRef .tc main_v33) := by
  after_results_simp <;> rfl

theorem segC_v35 (W : Valuation τ sig (Elt F)) :
    after opsC W (Proc.devRef .tc main_v35) = W (Proc.devRef .tc main_v35) := by
  after_results_simp <;> rfl

/-! ## The whole line -/

theorem after_v41 (V : Valuation τ sig (Elt F)) :
    after ops V (Proc.devRef .tc main_v41) = val_main_v41 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  exact segC41 _ _ _ _ _ _ _ _ _ _ _ _ _ _ _
    (segB35 _ _ _ _ _ _ _ _ _ _ _ _ _ (segA V) (segA_arg3 V))
    ((segB_arg12 _).trans (segA_arg12 V)) ((segB_arg13 _).trans (segA_arg13 V))

theorem after_v33 (V : Valuation τ sig (Elt F)) :
    after ops V (Proc.devRef .tc main_v33) = val_main_v33 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, segC_v33]
  exact segB33 _ _ _ _ _ _ _ _ _ _ _ _ _ (segA V) (segA_arg3 V)

theorem after_v35 (V : Valuation τ sig (Elt F)) :
    after ops V (Proc.devRef .tc main_v35) = val_main_v35 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, segC_v35]
  exact segB35 _ _ _ _ _ _ _ _ _ _ _ _ _ (segA V) (segA_arg3 V)

set_option maxRecDepth 8192 in
theorem after_arg0 (V : Valuation τ sig (Elt F)) :
    after ops V (Proc.devRef .tc main_arg0) = V (Proc.devRef .tc main_arg0) := by
  after_results_simp <;> rfl

set_option maxRecDepth 8192 in
theorem after_arg1 (V : Valuation τ sig (Elt F)) :
    after ops V (Proc.devRef .tc main_arg1) = V (Proc.devRef .tc main_arg1) := by
  after_results_simp <;> rfl

set_option maxRecDepth 8192 in
theorem after_arg2 (V : Valuation τ sig (Elt F)) :
    after ops V (Proc.devRef .tc main_arg2) = V (Proc.devRef .tc main_arg2) := by
  after_results_simp <;> rfl

set_option maxRecDepth 8192 in
theorem after_arg3 (V : Valuation τ sig (Elt F)) :
    after ops V (Proc.devRef .tc main_arg3) = V (Proc.devRef .tc main_arg3) := by
  after_results_simp <;> rfl

set_option maxRecDepth 8192 in
theorem after_arg4 (V : Valuation τ sig (Elt F)) :
    after ops V (Proc.devRef .tc main_arg4) = V (Proc.devRef .tc main_arg4) := by
  after_results_simp <;> rfl

set_option maxRecDepth 8192 in
theorem after_arg5 (V : Valuation τ sig (Elt F)) :
    after ops V (Proc.devRef .tc main_arg5) = V (Proc.devRef .tc main_arg5) := by
  after_results_simp <;> rfl

set_option maxRecDepth 8192 in
theorem after_arg6 (V : Valuation τ sig (Elt F)) :
    after ops V (Proc.devRef .tc main_arg6) = V (Proc.devRef .tc main_arg6) := by
  after_results_simp <;> rfl

set_option maxRecDepth 8192 in
theorem after_arg7 (V : Valuation τ sig (Elt F)) :
    after ops V (Proc.devRef .tc main_arg7) = V (Proc.devRef .tc main_arg7) := by
  after_results_simp <;> rfl

set_option maxRecDepth 8192 in
theorem after_arg8 (V : Valuation τ sig (Elt F)) :
    after ops V (Proc.devRef .tc main_arg8) = V (Proc.devRef .tc main_arg8) := by
  after_results_simp <;> rfl

set_option maxRecDepth 8192 in
theorem after_arg9 (V : Valuation τ sig (Elt F)) :
    after ops V (Proc.devRef .tc main_arg9) = V (Proc.devRef .tc main_arg9) := by
  after_results_simp <;> rfl

set_option maxRecDepth 8192 in
theorem after_arg10 (V : Valuation τ sig (Elt F)) :
    after ops V (Proc.devRef .tc main_arg10) = V (Proc.devRef .tc main_arg10) := by
  after_results_simp <;> rfl

set_option maxRecDepth 8192 in
theorem after_arg11 (V : Valuation τ sig (Elt F)) :
    after ops V (Proc.devRef .tc main_arg11) = V (Proc.devRef .tc main_arg11) := by
  after_results_simp <;> rfl

set_option maxRecDepth 8192 in
theorem after_arg12 (V : Valuation τ sig (Elt F)) :
    after ops V (Proc.devRef .tc main_arg12) = V (Proc.devRef .tc main_arg12) := by
  after_results_simp <;> rfl

set_option maxRecDepth 8192 in
theorem after_arg13 (V : Valuation τ sig (Elt F)) :
    after ops V (Proc.devRef .tc main_arg13) = V (Proc.devRef .tc main_arg13) := by
  after_results_simp <;> rfl

/-- On every device, for any float values, from any memory with zero counters: every weakly fair execution of
    @main terminates with each result at its stage function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v33) = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v35) = val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v41).trans (after_v41 _), (h c main_v33).trans (after_v33 _),
      (h c main_v35).trans (after_v35 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _)⟩)
    (run_seq scopedRefs_eq scopedSems_eq defs main (fun _ => ops) main_eq (fun _ => ops_sub) m ρ)

end Cert.ReferenceIdeal.RunP

end
-- ==== Proof.RefCalc.lean ====
import proofs.«116741_j80522046865747_2_alg».proof.Proof.RefRead
import proofs.«116741_j80522046865747_2_alg».proof.Proof.Spec
import proofs.«116741_j80522046865747_2_alg».proof.Proof.ConcatRead
import proofs.«116741_j80522046865747_2_alg».proof.Proof.KI.Coords
import Idealize.ShloMosaic.Lib.IdealHost

noncomputable section

open scoped BigOperators

namespace Cert.ReferenceIdeal.RefCalc

open Cert.ReferenceIdeal Cert.ReferenceIdeal.Gen Cert.ReferenceIdeal.ReadP Idealize.ShloMosaic Idealize.ShloMosaic.ValueIdx Cert.Lstm
open Cert.KernelIdeal.HandValue (mat)

/-! # The plain-array program's three results on the extended reals, entry by entry -/

/-- A one-axis array of extended reals read by its coordinate. -/
abbrev vec {a : Nat} (x : (⟨1, ![a]⟩ : Shape).Idx → EReal) : Vct a := fun n => x (ix1 n)

/-- A two-axis index is determined by the values of its coordinates. -/
theorem idx2_eq {n0 n1 : Nat} (j : (⟨2, ![n0, n1]⟩ : Shape).Idx) (a : Fin n0) (b : Fin n1)
    (h0 : (j 0).val = a.val) (h1 : (j 1).val = b.val) : j = ix2 a b := by
  rw [eq_ix2 j]; congr 1 <;> exact Fin.ext ‹_›

/-- A one-axis index is determined by the value of its coordinate. -/
theorem idx1_eq {n0 : Nat} (j : (⟨1, ![n0]⟩ : Shape).Idx) (a : Fin n0) (h0 : (j 0).val = a.val) : j = ix1 a := by
  rw [eq_ix1 j]; congr 1; exact Fin.ext h0

variable (x0 : (⟨S256x512, .f32⟩ : BufTy).Contents (Elt Ideal)) (x1 : (⟨S256x1536, .f32⟩ : BufTy).Contents (Elt Ideal))
  (x2 : (⟨S256x2048, .f32⟩ : BufTy).Contents (Elt Ideal)) (x3 : (⟨S256x4096, .f32⟩ : BufTy).Contents (Elt Ideal))
  (x4 : (⟨S4096x4096, .f32⟩ : BufTy).Contents (Elt Ideal)) (x5 : (⟨S4096, .f32⟩ : BufTy).Contents (Elt Ideal))
  (x6 : (⟨S4096x4096, .f32⟩ : BufTy).Contents (Elt Ideal)) (x7 : (⟨S4096, .f32⟩ : BufTy).Contents (Elt Ideal))
  (x8 : (⟨S4096x4096, .f32⟩ : BufTy).Contents (Elt Ideal)) (x9 : (⟨S4096, .f32⟩ : BufTy).Contents (Elt Ideal))
  (x10 : (⟨S4096x4096, .f32⟩ : BufTy).Contents (Elt Ideal)) (x11 : (⟨S4096, .f32⟩ : BufTy).Contents (Elt Ideal))
  (x12 : (⟨S32000x4096, .f32⟩ : BufTy).Contents (Elt Ideal)) (x13 : (⟨S32000, .f32⟩ : BufTy).Contents (Elt Ideal))

/-- The concatenated input, the new cell, the new hidden state and the logits, by coordinates, as the specification
    names them. -/
def XC : Mat 256 4096 := xc (mat x0) (mat x1) (mat x2)
def CN : Mat 256 4096 := cellNew (XC x0 x1 x2) (mat x3) (mat x4) (vec x5) (mat x6) (vec x7) (mat x8) (vec x9)
def HN : Mat 256 4096 := hidNew (XC x0 x1 x2) (CN x0 x1 x2 x3 x4 x5 x6 x7 x8 x9) (mat x10) (vec x11)
def Z : Mat 256 32000 := affine (HN x0 x1 x2 x3 x4 x5 x6 x7 x8 x9 x10 x11) (mat x12) (vec x13)

/-! ## The fused gate product -/

/-- The concatenation of the three inputs is the specification's concatenated input. -/
theorem v0_read (j : S256x4096.Idx) (b : Fin 256) (k : Fin 4096) (h0 : (j 0).val = b.val) (h1 : (j 1).val = k.val) :
    val_main_v0 (F := Ideal) x0 x1 x2 j = XC x0 x1 x2 b k := by
  rw [idx2_eq j b k h0 h1]
  exact concat3_eq_xc x0 x1 x2 _ b k

/-- The four gate matrices stacked along the rows: row `4096 g + n` is row `n` of the `g`-th. -/
theorem v1_read (g : Fin 4) (j : S16384x4096.Idx) (n k : Fin 4096) (h0 : (j 0).val = 4096 * g.val + n.val) (h1 : (j 1).val = k.val) :
    val_main_v1 (F := Ideal) x4 x6 x8 x10 j = (![x4, x6, x8, x10] g) (ix2 n k) := by
  unfold val_main_v1
  have hd : ∀ d : Fin 2, d.cast rfl ≠ (0 : Fin 2) → ((ix2 n k : S4096x4096.Idx) d).val = (j (d.cast rfl)).val := fun d hd => by
    match d with | ⟨0, _⟩ => exact absurd rfl hd | ⟨1, _⟩ => exact h1.symm
  match g with
  | ⟨0, _⟩ => exact concatenate_apply_piece (t := S16384x4096) (0 : Fin 2) _ _ j 0 (by show 0 < 4; omega) S4096x4096 x4 rfl rfl 0 rfl (ix2 n k) hd (by rw [h0]; show 0 + n.val = 4096 * 0 + n.val; omega)
  | ⟨1, _⟩ => exact concatenate_apply_piece (t := S16384x4096) (0 : Fin 2) _ _ j 1 (by show 1 < 4; omega) S4096x4096 x6 rfl rfl 4096 rfl (ix2 n k) hd (by rw [h0]; show 4096 + n.val = 4096 * 1 + n.val; omega)
  | ⟨2, _⟩ => exact concatenate_apply_piece (t := S16384x4096) (0 : Fin 2) _ _ j 2 (by show 2 < 4; omega) S4096x4096 x8 rfl rfl 8192 rfl (ix2 n k) hd (by rw [h0]; show 8192 + n.val = 4096 * 2 + n.val; omega)
  | ⟨3, _⟩ => exact concatenate_apply_piece (t := S16384x4096) (0 : Fin 2) _ _ j 3 (by show 3 < 4; omega) S4096x4096 x10 rfl rfl 12288 rfl (ix2 n k) hd (by rw [h0]; show 12288 + n.val = 4096 * 3 + n.val; omega)

/-- The four gate biases laid end to end. -/
theorem v2_read (g : Fin 4) (j : S16384.Idx) (n : Fin 4096) (h0 : (j 0).val = 4096 * g.val + n.val) :
    val_main_v2 (F := Ideal) x5 x7 x9 x11 j = (![x5, x7, x9, x11] g) (ix1 n) := by
  unfold val_main_v2
  have hd : ∀ d : Fin 1, d.cast rfl ≠ (0 : Fin 1) → ((ix1 n : S4096.Idx) d).val = (j (d.cast rfl)).val := fun d hd => by
    match d with | ⟨0, _⟩ => exact absurd rfl hd
  match g with
  | ⟨0, _⟩ => exact concatenate_apply_piece (t := S16384) (0 : Fin 1) _ _ j 0 (by show 0 < 4; omega) S4096 x5 rfl rfl 0 rfl (ix1 n) hd (by rw [h0]; show 0 + n.val = 4096 * 0 + n.val; omega)
  | ⟨1, _⟩ => exact concatenate_apply_piece (t := S16384) (0 : Fin 1) _ _ j 1 (by show 1 < 4; omega) S4096 x7 rfl rfl 4096 rfl (ix1 n) hd (by rw [h0]; show 4096 + n.val = 4096 * 1 + n.val; omega)
  | ⟨2, _⟩ => exact concatenate_apply_piece (t := S16384) (0 : Fin 1) _ _ j 2 (by show 2 < 4; omega) S4096 x9 rfl rfl 8192 rfl (ix1 n) hd (by rw [h0]; show 8192 + n.val = 4096 * 2 + n.val; omega)
  | ⟨3, _⟩ => exact concatenate_apply_piece (t := S16384) (0 : Fin 1) _ _ j 3 (by show 3 < 4; omega) S4096 x11 rfl rfl 12288 rfl (ix1 n) hd (by rw [h0]; show 12288 + n.val = 4096 * 3 + n.val; omega)

/-- Gate `g`'s pre-activation: entry `(b, 4096 g + n)` of the fused product plus the stacked bias is the affine map of the
    concatenated input by the `g`-th matrix and bias at `(b, n)`. -/
theorem v7_read (g : Fin 4) (j : S256x16384.Idx) (b : Fin 256) (n : Fin 4096) (h0 : (j 0).val = b.val)
    (h1 : (j 1).val = 4096 * g.val + n.val) :
    val_main_v7 (F := Ideal) x0 x1 x2 x4 x5 x6 x7 x8 x9 x10 x11 j
      = affine (XC x0 x1 x2) (mat (![x4, x6, x8, x10] g)) (vec (![x5, x7, x9, x11] g)) b n := by
  rw [val_main_v7_apply, val_main_v4_apply, val_main_v6_apply, val_main_v5_apply,
    v2_read x5 x7 x9 x11 g _ n h1]
  unfold affine
  rw [Ideal.addf_def]
  congr 1
  refine Finset.sum_congr rfl fun k _ => ?_
  rw [val_main_v3_apply, v0_read x0 x1 x2 _ b k h0 rfl, v1_read x4 x6 x8 x10 g _ n k h1 rfl]

/-! ## The gates -/

/-- `1 / (1 + exp (-y))` as the program spells it is the logistic function. -/
theorem sigmoid_eq (y : EReal) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  simp only [Ideal.ofBits_def, Ideal.ofBits_one_f32, Ideal.hostDivf_def, Ideal.addf_def, Ideal.hostUnary_exp_def, Ideal.hostNegf_def,
    Ideal.negf_def]
  rfl

/-- The forget gate. -/
theorem forget_read (b : Fin 256) (n : Fin 4096) :
    val_main_v17 (F := Ideal) x0 x1 x2 x4 x5 x6 x7 x8 x9 x10 x11 (ix2 b n) = Ideal.logistic (affine (XC x0 x1 x2) (mat x4) (vec x5) b n) := by
  rw [val_main_v17_apply, val_main_v16_apply, val_main_cst_0_apply, val_main_v15_apply, val_main_v14_apply,
    val_main_cst_apply, val_main_v13_apply, val_main_v12_apply, val_main_v8_apply,
    v7_read x0 x1 x2 x4 x5 x6 x7 x8 x9 x10 x11 0 _ b n rfl (by show n.val = 4096 * 0 + n.val; omega)]
  exact sigmoid_eq _

/-- The input gate. -/
theorem input_read (b : Fin 256) (n : Fin 4096) :
    val_main_v23 (F := Ideal) x0 x1 x2 x4 x5 x6 x7 x8 x9 x10 x11 (ix2 b n) = Ideal.logistic (affine (XC x0 x1 x2) (mat x6) (vec x7) b n) := by
  rw [val_main_v23_apply, val_main_v22_apply, val_main_cst_2_apply, val_main_v21_apply, val_main_v20_apply,
    val_main_cst_1_apply, val_main_v19_apply, val_main_v18_apply, val_main_v9_apply,
    v7_read x0 x1 x2 x4 x5 x6 x7 x8 x9 x10 x11 1 _ b n rfl (by show 4096 + n.val = 4096 * 1 + n.val; omega)]
  exact sigmoid_eq _

/-- The candidate. -/
theorem candidate_read (b : Fin 256) (n : Fin 4096) :
    val_main_v24 (F := Ideal) x0 x1 x2 x4 x5 x6 x7 x8 x9 x10 x11 (ix2 b n) = Ideal.tanh (affine (XC x0 x1 x2) (mat x8) (vec x9) b n) := by
  rw [val_main_v24_apply, val_main_v10_apply,
    v7_read x0 x1 x2 x4 x5 x6 x7 x8 x9 x10 x11 2 _ b n rfl (by show 8192 + n.val = 4096 * 2 + n.val; omega)]
  rfl

/-- The output gate. -/
theorem output_read (b : Fin 256) (n : Fin 4096) :
    val_main_v30 (F := Ideal) x0 x1 x2 x4 x5 x6 x7 x8 x9 x10 x11 (ix2 b n) = Ideal.logistic (affine (XC x0 x1 x2) (mat x10) (vec x11) b n) := by
  rw [val_main_v30_apply, val_main_v29_apply, val_main_cst_4_apply, val_main_v28_apply, val_main_v27_apply,
    val_main_cst_3_apply, val_main_v26_apply, val_main_v25_apply, val_main_v11_apply,
    v7_read x0 x1 x2 x4 x5 x6 x7 x8 x9 x10 x11 3 _ b n rfl (by show 12288 + n.val = 4096 * 3 + n.val; omega)]
  exact sigmoid_eq _

/-! ## The three results -/

/-- The new cell. -/
theorem ref_cell_apply (b : Fin 256) (n : Fin 4096) :
    val_main_v33 (F := Ideal) x0 x1 x2 x3 x4 x5 x6 x7 x8 x9 x10 x11 (ix2 b n) = CN x0 x1 x2 x3 x4 x5 x6 x7 x8 x9 b n := by
  rw [val_main_v33_apply, val_main_v31_apply, val_main_v32_apply, forget_read, input_read, candidate_read]
  rfl

/-- The new hidden state. -/
theorem ref_hidden_apply (b : Fin 256) (n : Fin 4096) :
    val_main_v35 (F := Ideal) x0 x1 x2 x3 x4 x5 x6 x7 x8 x9 x10 x11 (ix2 b n) = HN x0 x1 x2 x3 x4 x5 x6 x7 x8 x9 x10 x11 b n := by
  rw [val_main_v35_apply, val_main_v34_apply, output_read, ref_cell_apply]
  rfl

/-- The logits: the new hidden state through the read-out matrix, plus the read-out bias. -/
theorem ref_logits_apply (b : Fin 256) (v : Fin 32000) :
    val_main_v40 (F := Ideal) x0 x1 x2 x3 x4 x5 x6 x7 x8 x9 x10 x11 x12 x13 (ix2 b v) = Z x0 x1 x2 x3 x4 x5 x6 x7 x8 x9 x10 x11 x12 x13 b v := by
  rw [val_main_v40_apply, val_main_v37_apply, val_main_v39_apply, val_main_v38_apply]
  unfold Z affine
  rw [Ideal.addf_def]
  congr 1
  · refine Finset.sum_congr rfl fun k _ => ?_
    rw [val_main_v36_apply, show lidx_main_v37 (ix2 b v) k = ix2 b k from idx2_eq _ b k rfl rfl, ref_hidden_apply,
      show idx_main_v36 (ridx_main_v37 (ix2 b v) k) = ix2 v k from idx2_eq _ v k rfl rfl]
  · exact congrArg x13 (idx1_eq _ v rfl)

end Cert.ReferenceIdeal.RefCalc

end
-- ==== Proof.RefSoftmax.lean ====
/-
  The reference's log-softmax read at an index.

  For the logits `y` of a row `b`: the reference takes the maximum of the row from `⊥`, takes the maximum of that with
  `⊥` again, subtracts it from every logit, sums the exponentials of the differences from `0`, takes the logarithm and
  subtracts it: at `(b, v)` this is `(y b v - R) - log (0 + ∑ w, exp (y b w - R))` with `R = max ⊥ (fold max ⊥ (y b ·))`,
  the specification's shifted form.
-/
import proofs.«116741_j80522046865747_2_alg».proof.Proof.RefRead
import proofs.«116741_j80522046865747_2_alg».proof.Proof.Spec

noncomputable section

open scoped BigOperators

namespace Cert.ReferenceIdeal.RefCalc

open Cert.ReferenceIdeal Cert.ReferenceIdeal.Gen Cert.ReferenceIdeal.ReadP Idealize.ShloMosaic Idealize.ShloMosaic.ValueIdx
  Idealize.ShloMosaic.StableHlo Cert.Lstm

/-- The bit pattern of negative infinity denotes `⊥`. -/
theorem ofBits_neg_inf : Ideal.ofBits .f32 0xFF800000#32 = ⊥ := by simp [Ideal.ofBits, Ideal.ieee]

/-- The index over row `b` with column `w` inserted is `(b, w)`. -/
theorem lift_row (h : S256x32000.Reduces [1] S256) (b : Fin 256) (w : Fin 32000) : h.lift (ix1 b) w = ix2 b w :=
  funext fun a => match a with
    | ⟨0, _⟩ => Fin.ext rfl
    | ⟨1, _⟩ => Fin.ext rfl

/-- The row maximum stage at row `b`: the fold of `max` from `⊥` over the row. -/
theorem rowmax_stage (x0 : (⟨S256x512, .f32⟩ : BufTy).Contents (Elt Ideal)) (x1 : (⟨S256x1536, .f32⟩ : BufTy).Contents (Elt Ideal)) (x2 : (⟨S256x2048, .f32⟩ : BufTy).Contents (Elt Ideal)) (x3 : (⟨S256x4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (x8 : (⟨S4096x4096, .f32⟩ : BufTy).Contents (Elt Ideal)) (x9 : (⟨S4096, .f32⟩ : BufTy).Contents (Elt Ideal)) (x10 : (⟨S4096x4096, .f32⟩ : BufTy).Contents (Elt Ideal)) (x11 : (⟨S4096, .f32⟩ : BufTy).Contents (Elt Ideal)) (x12 : (⟨S32000x4096, .f32⟩ : BufTy).Contents (Elt Ideal)) (x13 : (⟨S32000, .f32⟩ : BufTy).Contents (Elt Ideal)) (b : Fin 256) :
    val_main_call0_v0 (F := Ideal) x0 x1 x2 x3 x4 x5 x6 x7 x8 x9 x10 x11 x12 x13 (ix1 b)
      = (Finset.univ : Finset (Fin 32000)).fold max ⊥ (fun w => (val_main_v40 (F := Ideal) x0 x1 x2 x3 x4 x5 x6 x7 x8 x9 x10 x11 x12 x13) (ix2 b w)) := by
  unfold val_main_call0_v0
  rw [Host.reduce_eq_fold_single FloatOps.maximumf _ _ reducesTo_S256x32000_S256_d1 (by decide) h_S_]
  exact congrArg₂ (fun (z : EReal) (f : Fin 32000 → EReal) => (Finset.univ : Finset (Fin 32000)).fold max z f)
    ofBits_neg_inf (funext fun w => congrArg (val_main_v40 (F := Ideal) x0 x1 x2 x3 x4 x5 x6 x7 x8 x9 x10 x11 x12 x13) (lift_row _ b w))

/-- The shift at `(b, v)` is the specification's row maximum. -/
theorem shift_stage (x0 : (⟨S256x512, .f32⟩ : BufTy).Contents (Elt Ideal)) (x1 : (⟨S256x1536, .f32⟩ : BufTy).Contents (Elt Ideal)) (x2 : (⟨S256x2048, .f32⟩ : BufTy).Contents (Elt Ideal)) (x3 : (⟨S256x4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (x8 : (⟨S4096x4096, .f32⟩ : BufTy).Contents (Elt Ideal)) (x9 : (⟨S4096, .f32⟩ : BufTy).Contents (Elt Ideal)) (x10 : (⟨S4096x4096, .f32⟩ : BufTy).Contents (Elt Ideal)) (x11 : (⟨S4096, .f32⟩ : BufTy).Contents (Elt Ideal)) (x12 : (⟨S32000x4096, .f32⟩ : BufTy).Contents (Elt Ideal)) (x13 : (⟨S32000, .f32⟩ : BufTy).Contents (Elt Ideal)) (b : Fin 256) (v : Fin 32000) :
    val_main_call0_v4 (F := Ideal) x0 x1 x2 x3 x4 x5 x6 x7 x8 x9 x10 x11 x12 x13 (ix2 b v) = rowMax (fun i j => val_main_v40 (F := Ideal) x0 x1 x2 x3 x4 x5 x6 x7 x8 x9 x10 x11 x12 x13 (ix2 i j)) b := by
  have hidx : idx_main_call0_v3 (idx_main_call0_v4 (ix2 b v : S256x32000.Idx)) = ix1 b :=
    funext fun a => match a with | ⟨0, _⟩ => Fin.ext rfl
  rw [val_main_call0_v4_apply, val_main_call0_v3_apply, val_main_call0_v2_apply, val_main_call0_v1_apply,
    val_main_call0_cst_0_apply, hidx, rowmax_stage]
  exact congrArg (fun z : EReal => max z _) ofBits_neg_inf

/-- The shifted logit at `(b, w)`. -/
theorem shifted_stage (x0 : (⟨S256x512, .f32⟩ : BufTy).Contents (Elt Ideal)) (x1 : (⟨S256x1536, .f32⟩ : BufTy).Contents (Elt Ideal)) (x2 : (⟨S256x2048, .f32⟩ : BufTy).Contents (Elt Ideal)) (x3 : (⟨S256x4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (x8 : (⟨S4096x4096, .f32⟩ : BufTy).Contents (Elt Ideal)) (x9 : (⟨S4096, .f32⟩ : BufTy).Contents (Elt Ideal)) (x10 : (⟨S4096x4096, .f32⟩ : BufTy).Contents (Elt Ideal)) (x11 : (⟨S4096, .f32⟩ : BufTy).Contents (Elt Ideal)) (x12 : (⟨S32000x4096, .f32⟩ : BufTy).Contents (Elt Ideal)) (x13 : (⟨S32000, .f32⟩ : BufTy).Contents (Elt Ideal)) (b : Fin 256) (w : Fin 32000) :
    val_main_call0_v5 (F := Ideal) x0 x1 x2 x3 x4 x5 x6 x7 x8 x9 x10 x11 x12 x13 (ix2 b w) = (val_main_v40 (F := Ideal) x0 x1 x2 x3 x4 x5 x6 x7 x8 x9 x10 x11 x12 x13) (ix2 b w) - rowMax (fun i j => val_main_v40 (F := Ideal) x0 x1 x2 x3 x4 x5 x6 x7 x8 x9 x10 x11 x12 x13 (ix2 i j)) b := by
  rw [val_main_call0_v5_apply, shift_stage]
  rfl

/-- The sum stage at row `b`: from `0`, the sum of the exponentials of the shifted row. -/
theorem sum_stage (x0 : (⟨S256x512, .f32⟩ : BufTy).Contents (Elt Ideal)) (x1 : (⟨S256x1536, .f32⟩ : BufTy).Contents (Elt Ideal)) (x2 : (⟨S256x2048, .f32⟩ : BufTy).Contents (Elt Ideal)) (x3 : (⟨S256x4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (x8 : (⟨S4096x4096, .f32⟩ : BufTy).Contents (Elt Ideal)) (x9 : (⟨S4096, .f32⟩ : BufTy).Contents (Elt Ideal)) (x10 : (⟨S4096x4096, .f32⟩ : BufTy).Contents (Elt Ideal)) (x11 : (⟨S4096, .f32⟩ : BufTy).Contents (Elt Ideal)) (x12 : (⟨S32000x4096, .f32⟩ : BufTy).Contents (Elt Ideal)) (x13 : (⟨S32000, .f32⟩ : BufTy).Contents (Elt Ideal)) (b : Fin 256) :
    val_main_call0_v7 (F := Ideal) x0 x1 x2 x3 x4 x5 x6 x7 x8 x9 x10 x11 x12 x13 (ix1 b)
      = 0 + ∑ w : Fin 32000, Ideal.exp ((val_main_v40 (F := Ideal) x0 x1 x2 x3 x4 x5 x6 x7 x8 x9 x10 x11 x12 x13) (ix2 b w) - rowMax (fun i j => val_main_v40 (F := Ideal) x0 x1 x2 x3 x4 x5 x6 x7 x8 x9 x10 x11 x12 x13 (ix2 i j)) b) := by
  rw [val_main_call0_v7_apply, val_main_call0_cst_1_apply]
  refine congrArg₂ (fun (z s : EReal) => z + s) Ideal.ofBits_zero_f32 (Finset.sum_congr rfl fun w _ => ?_)
  have hidx : idx_main_call0_v7 (ix1 b) w = ix2 b w :=
    funext fun a => match a with | ⟨0, _⟩ => Fin.ext rfl | ⟨1, _⟩ => Fin.ext rfl
  rw [hidx, val_main_call0_v6_apply, shifted_stage]
  rfl

/-- The reference's result at `(b, v)` is the specification's shifted log-softmax of its logits. -/
theorem ref_logsoftmax_apply (x0 : (⟨S256x512, .f32⟩ : BufTy).Contents (Elt Ideal)) (x1 : (⟨S256x1536, .f32⟩ : BufTy).Contents (Elt Ideal)) (x2 : (⟨S256x2048, .f32⟩ : BufTy).Contents (Elt Ideal)) (x3 : (⟨S256x4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (x8 : (⟨S4096x4096, .f32⟩ : BufTy).Contents (Elt Ideal)) (x9 : (⟨S4096, .f32⟩ : BufTy).Contents (Elt Ideal)) (x10 : (⟨S4096x4096, .f32⟩ : BufTy).Contents (Elt Ideal)) (x11 : (⟨S4096, .f32⟩ : BufTy).Contents (Elt Ideal)) (x12 : (⟨S32000x4096, .f32⟩ : BufTy).Contents (Elt Ideal)) (x13 : (⟨S32000, .f32⟩ : BufTy).Contents (Elt Ideal)) (b : Fin 256) (v : Fin 32000) :
    val_main_v41 (F := Ideal) x0 x1 x2 x3 x4 x5 x6 x7 x8 x9 x10 x11 x12 x13 (ix2 b v) = outRef (fun i j => val_main_v40 (F := Ideal) x0 x1 x2 x3 x4 x5 x6 x7 x8 x9 x10 x11 x12 x13 (ix2 i j)) b v := by
  have hidx : idx_main_call0_v8 (idx_main_call0_v10 (ix2 b v : S256x32000.Idx)) = ix1 b :=
    funext fun a => match a with | ⟨0, _⟩ => Fin.ext rfl
  rw [val_main_v41_apply, shifted_stage, val_main_call0_v10_apply, val_main_call0_v9_apply, val_main_call0_v8_apply,
    hidx, sum_stage]
  unfold outRef
  simp only [Ideal.subf_def, Ideal.hostUnary_log_def]

end Cert.ReferenceIdeal.RefCalc

end
-- ==== Proof.lean ====
/-
  One LSTM step with a log-softmax read-out, computed by three kernels with host operations between them, against its
  plain reference.

  The frames of the kernel program, at the word level and on the extended reals, are read off one run of the program in
  which every unscoped buffer is followed from the launch to the return: each argument array ends as launched. The
  reference is a host program; its frame is its run with the results dropped. The idealization rewrote nothing. On the
  extended reals the two programs end with equal results: the new cell and hidden states are the same pointwise
  expressions of the same affine maps; the kernel's log-softmax subtracts from each logit the join of two streamed
  half-row log-sum-exps, the reference's shifts the row by its maximum and subtracts the logarithm of the sum of
  exponentials, and on finite logits — which finite inputs give — both are the logit minus the logarithm of the sum of
  the exponentials of its row.
-/
import proofs.«116741_j80522046865747_2_alg».proof.Defs
import proofs.«116741_j80522046865747_2_alg».proof.Proof.Gen.Kernel
import proofs.«116741_j80522046865747_2_alg».proof.Proof.Gen.KernelIdeal
import proofs.«116741_j80522046865747_2_alg».proof.Proof.Gen.ReferenceIdeal
import proofs.«116741_j80522046865747_2_alg».proof.Proof.Gen.Pre_finite_inputs
import proofs.«116741_j80522046865747_2_alg».proof.Proof.K.Reads
import proofs.«116741_j80522046865747_2_alg».proof.Proof.KI.Reads
import proofs.«116741_j80522046865747_2_alg».proof.Proof.KI.KernelValue
import proofs.«116741_j80522046865747_2_alg».proof.Proof.FiniteInputs
import proofs.«116741_j80522046865747_2_alg».proof.Proof.LogSoftmaxStep
import proofs.«116741_j80522046865747_2_alg».proof.Proof.RefRun
import proofs.«116741_j80522046865747_2_alg».proof.Proof.RefCalc
import proofs.«116741_j80522046865747_2_alg».proof.Proof.RefSoftmax
import Idealize.ShloMosaic.Adequacy
import Idealize.ShloMosaic.Init

set_option maxRecDepth 16384

noncomputable section

namespace Cert.Proof

open Idealize.ShloMosaic Idealize.ShloMosaic.TcCoe Idealize.SL.Sem

/-- At the word level every argument array ends as launched. -/
theorem frame_k : Cert.frame_Kernel := fun m ρ _ =>
  (θ_run (Cert.Kernel.defs (F := Bits)) _ _).mono (fun r h c =>
    ⟨(h c _ (Cert.Kernel.HandRun.mem_uc Cert.Kernel.main_arg0 (by decide))).trans (Cert.Kernel.HandRun.W5_main_arg0 m ρ c),
      (h c _ (Cert.Kernel.HandRun.mem_uc Cert.Kernel.main_arg1 (by decide))).trans (Cert.Kernel.HandRun.W5_main_arg1 m ρ c),
      (h c _ (Cert.Kernel.HandRun.mem_uc Cert.Kernel.main_arg2 (by decide))).trans (Cert.Kernel.HandRun.W5_main_arg2 m ρ c),
      (h c _ (Cert.Kernel.HandRun.mem_uc Cert.Kernel.main_arg3 (by decide))).trans (Cert.Kernel.HandRun.W5_main_arg3 m ρ c),
      (h c _ (Cert.Kernel.HandRun.mem_uc Cert.Kernel.main_arg4 (by decide))).trans (Cert.Kernel.HandRun.W5_main_arg4 m ρ c),
      (h c _ (Cert.Kernel.HandRun.mem_uc Cert.Kernel.main_arg5 (by decide))).trans (Cert.Kernel.HandRun.W5_main_arg5 m ρ c),
      (h c _ (Cert.Kernel.HandRun.mem_uc Cert.Kernel.main_arg6 (by decide))).trans (Cert.Kernel.HandRun.W5_main_arg6 m ρ c),
      (h c _ (Cert.Kernel.HandRun.mem_uc Cert.Kernel.main_arg7 (by decide))).trans (Cert.Kernel.HandRun.W5_main_arg7 m ρ c),
      (h c _ (Cert.Kernel.HandRun.mem_uc Cert.Kernel.main_arg8 (by decide))).trans (Cert.Kernel.HandRun.W5_main_arg8 m ρ c),
      (h c _ (Cert.Kernel.HandRun.mem_uc Cert.Kernel.main_arg9 (by decide))).trans (Cert.Kernel.HandRun.W5_main_arg9 m ρ c),
      (h c _ (Cert.Kernel.HandRun.mem_uc Cert.Kernel.main_arg10 (by decide))).trans (Cert.Kernel.HandRun.W5_main_arg10 m ρ c),
      (h c _ (Cert.Kernel.HandRun.mem_uc Cert.Kernel.main_arg11 (by decide))).trans (Cert.Kernel.HandRun.W5_main_arg11 m ρ c),
      (h c _ (Cert.Kernel.HandRun.mem_uc Cert.Kernel.main_arg12 (by decide))).trans (Cert.Kernel.HandRun.W5_main_arg12 m ρ c),
      (h c _ (Cert.Kernel.HandRun.mem_uc Cert.Kernel.main_arg13 (by decide))).trans (Cert.Kernel.HandRun.W5_main_arg13 m ρ c)⟩)
    (Cert.Kernel.HandRun.run_all (F := Bits) m ρ)

/-- On the extended reals every argument array ends as launched. -/
theorem frame_ki : Cert.frame_KernelIdeal := fun m ρ _ =>
  (θ_run (Cert.KernelIdeal.defs (F := Ideal)) _ _).mono (fun r h c =>
    ⟨(h c _ (Cert.KernelIdeal.HandRun.mem_uc Cert.KernelIdeal.main_arg0 (by decide))).trans (Cert.KernelIdeal.HandRun.W5_main_arg0 m ρ c),
      (h c _ (Cert.KernelIdeal.HandRun.mem_uc Cert.KernelIdeal.main_arg1 (by decide))).trans (Cert.KernelIdeal.HandRun.W5_main_arg1 m ρ c),
      (h c _ (Cert.KernelIdeal.HandRun.mem_uc Cert.KernelIdeal.main_arg2 (by decide))).trans (Cert.KernelIdeal.HandRun.W5_main_arg2 m ρ c),
      (h c _ (Cert.KernelIdeal.HandRun.mem_uc Cert.KernelIdeal.main_arg3 (by decide))).trans (Cert.KernelIdeal.HandRun.W5_main_arg3 m ρ c),
      (h c _ (Cert.KernelIdeal.HandRun.mem_uc Cert.KernelIdeal.main_arg4 (by decide))).trans (Cert.KernelIdeal.HandRun.W5_main_arg4 m ρ c),
      (h c _ (Cert.KernelIdeal.HandRun.mem_uc Cert.KernelIdeal.main_arg5 (by decide))).trans (Cert.KernelIdeal.HandRun.W5_main_arg5 m ρ c),
      (h c _ (Cert.KernelIdeal.HandRun.mem_uc Cert.KernelIdeal.main_arg6 (by decide))).trans (Cert.KernelIdeal.HandRun.W5_main_arg6 m ρ c),
      (h c _ (Cert.KernelIdeal.HandRun.mem_uc Cert.KernelIdeal.main_arg7 (by decide))).trans (Cert.KernelIdeal.HandRun.W5_main_arg7 m ρ c),
      (h c _ (Cert.KernelIdeal.HandRun.mem_uc Cert.KernelIdeal.main_arg8 (by decide))).trans (Cert.KernelIdeal.HandRun.W5_main_arg8 m ρ c),
      (h c _ (Cert.KernelIdeal.HandRun.mem_uc Cert.KernelIdeal.main_arg9 (by decide))).trans (Cert.KernelIdeal.HandRun.W5_main_arg9 m ρ c),
      (h c _ (Cert.KernelIdeal.HandRun.mem_uc Cert.KernelIdeal.main_arg10 (by decide))).trans (Cert.KernelIdeal.HandRun.W5_main_arg10 m ρ c),
      (h c _ (Cert.KernelIdeal.HandRun.mem_uc Cert.KernelIdeal.main_arg11 (by decide))).trans (Cert.KernelIdeal.HandRun.W5_main_arg11 m ρ c),
      (h c _ (Cert.KernelIdeal.HandRun.mem_uc Cert.KernelIdeal.main_arg12 (by decide))).trans (Cert.KernelIdeal.HandRun.W5_main_arg12 m ρ c),
      (h c _ (Cert.KernelIdeal.HandRun.mem_uc Cert.KernelIdeal.main_arg13 (by decide))).trans (Cert.KernelIdeal.HandRun.W5_main_arg13 m ρ c)⟩)
    (Cert.KernelIdeal.HandRun.run_all (F := Ideal) m ρ)

/-! ## The kernel program's results on finite inputs -/

section KernelSide

open Cert.KernelIdeal Cert.KernelIdeal.Gen Cert.KernelIdeal.HandRun Cert.KernelIdeal.HandValue Cert.KernelIdeal.Result
open Idealize.ShloMosaic.ValueIdx
open Cert.Lstm (Mat Vct)

/-- On finite inputs the streamed log-softmax of the kernel's logits is the shifted one. -/
theorem stream_eq_ref (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Lstm.outStream (Z m c) = Cert.Lstm.outRef (Z m c) := by
  obtain ⟨h0, h1, h2, h3, h4, h5, h6, h7, h8, h9, h10, h11, h12, h13⟩ := Cert.Proof.Finite.finite_of_pre m hpre c
  exact Cert.Lstm.outStream_logits_eq_outRef _ _ _ _ _ _ _ _ _ _ _ _ _ _ (fun i j => h0 (ix2 i j)) (fun i j => h1 (ix2 i j)) (fun i j => h2 (ix2 i j)) (fun i j => h3 (ix2 i j)) (fun i j => h4 (ix2 i j)) (fun i => h5 (ix1 i)) (fun i j => h6 (ix2 i j)) (fun i => h7 (ix1 i)) (fun i j => h8 (ix2 i j)) (fun i => h9 (ix1 i)) (fun i j => h10 (ix2 i j)) (fun i => h11 (ix1 i)) (fun i j => h12 (ix2 i j)) (fun i => h13 (ix1 i))

end KernelSide

/-! ## The reference -/

/-- The reference runs and its argument arrays end unchanged: its run with the results dropped. -/
theorem frame_ri : Cert.frame_ReferenceIdeal := fun m ρ _ =>
  (θ_run (Cert.ReferenceIdeal.defs (F := Ideal)) _ _).mono (fun _ h c => (h c).2.2.2) (Cert.ReferenceIdeal.RunP.run (F := Ideal) m ρ)

/-- The idealization rewrote no operation. -/
theorem preserves : Cert.preserves_Kernel_KernelIdeal := trivial

section Algebraic

open Cert.KernelIdeal.HandRun Cert.KernelIdeal.HandValue Cert.KernelIdeal.Result
open Idealize.ShloMosaic.ValueIdx
open Cert.Lstm (Mat Vct)

/-- On the extended reals, from memories agreeing on the arguments, the two programs end with equal results: the new
    cell state, the new hidden state, and the log-softmax of the logits. -/
theorem algebraic : Cert.algebraic_KernelIdeal_ReferenceIdeal := by
  intro m ρ m' ρ' hpre hagree
  refine ⟨fun c => fun j : Cert.KernelIdeal.S256x32000.Idx => Cert.Lstm.outRef (Z m c) (j 0) (j 1),
    fun c => fun j : Cert.KernelIdeal.S256x4096.Idx => CN m c (j 0) (j 1),
    fun c => fun j : Cert.KernelIdeal.S256x4096.Idx => HN m c (j 0) (j 1), ?_, ?_⟩
  · refine (θ_run (Cert.KernelIdeal.defs (F := Ideal)) _ _).mono (fun r h c => ⟨?_, ?_, ?_,
        (h c _ (mem_uc Cert.KernelIdeal.main_arg0 (by decide))).trans (W5_main_arg0 m ρ c),
        (h c _ (mem_uc Cert.KernelIdeal.main_arg1 (by decide))).trans (W5_main_arg1 m ρ c),
        (h c _ (mem_uc Cert.KernelIdeal.main_arg2 (by decide))).trans (W5_main_arg2 m ρ c),
        (h c _ (mem_uc Cert.KernelIdeal.main_arg3 (by decide))).trans (W5_main_arg3 m ρ c),
        (h c _ (mem_uc Cert.KernelIdeal.main_arg4 (by decide))).trans (W5_main_arg4 m ρ c),
        (h c _ (mem_uc Cert.KernelIdeal.main_arg5 (by decide))).trans (W5_main_arg5 m ρ c),
        (h c _ (mem_uc Cert.KernelIdeal.main_arg6 (by decide))).trans (W5_main_arg6 m ρ c),
        (h c _ (mem_uc Cert.KernelIdeal.main_arg7 (by decide))).trans (W5_main_arg7 m ρ c),
        (h c _ (mem_uc Cert.KernelIdeal.main_arg8 (by decide))).trans (W5_main_arg8 m ρ c),
        (h c _ (mem_uc Cert.KernelIdeal.main_arg9 (by decide))).trans (W5_main_arg9 m ρ c),
        (h c _ (mem_uc Cert.KernelIdeal.main_arg10 (by decide))).trans (W5_main_arg10 m ρ c),
        (h c _ (mem_uc Cert.KernelIdeal.main_arg11 (by decide))).trans (W5_main_arg11 m ρ c),
        (h c _ (mem_uc Cert.KernelIdeal.main_arg12 (by decide))).trans (W5_main_arg12 m ρ c),
        (h c _ (mem_uc Cert.KernelIdeal.main_arg13 (by decide))).trans (W5_main_arg13 m ρ c)⟩)
      (Cert.KernelIdeal.HandRun.run_all (F := Ideal) m ρ)
    · refine (h c _ (mem_uc Cert.KernelIdeal.main_v22 (by decide))).trans ?_
      funext (j : Cert.KernelIdeal.S256x32000.Idx)
      obtain ⟨b, v, rfl⟩ : ∃ (b : Fin 256) (v : Fin 32000), j = ix2 b v := ⟨j 0, j 1, eq_ix2 j⟩
      exact (out_logsoftmax m ρ c b v).trans (congrFun (congrFun (stream_eq_ref m hpre c) b) v)
    · refine (h c _ (mem_uc Cert.KernelIdeal.main_v6_0 (by decide))).trans ?_
      funext (j : Cert.KernelIdeal.S256x4096.Idx)
      obtain ⟨b, n, rfl⟩ : ∃ (b : Fin 256) (n : Fin 4096), j = ix2 b n := ⟨j 0, j 1, eq_ix2 j⟩
      exact out_cell m ρ c b n
    · refine (h c _ (mem_uc Cert.KernelIdeal.main_v6_1 (by decide))).trans ?_
      funext (j : Cert.KernelIdeal.S256x4096.Idx)
      obtain ⟨b, n, rfl⟩ : ∃ (b : Fin 256) (n : Fin 4096), j = ix2 b n := ⟨j 0, j 1, eq_ix2 j⟩
      exact out_hidden m ρ c b n
  · refine (θ_run (Cert.ReferenceIdeal.defs (F := Ideal)) _ _).mono (fun r h c => ⟨?_, ?_, ?_, (h c).2.2.2⟩)
      (Cert.ReferenceIdeal.RunP.run (F := Ideal) m' ρ')
    · rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      funext (j : Cert.KernelIdeal.S256x32000.Idx)
      obtain ⟨b, v, rfl⟩ : ∃ (b : Fin 256) (v : Fin 32000), j = ix2 b v := ⟨j 0, j 1, eq_ix2 j⟩
      refine (Cert.ReferenceIdeal.RefCalc.ref_logsoftmax_apply _ _ _ _ _ _ _ _ _ _ _ _ _ _ b v).trans ?_
      rw [show (fun i j => Cert.ReferenceIdeal.ReadP.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (ix2 i j)) = Z m c from
        funext fun i => funext fun j => Cert.ReferenceIdeal.RefCalc.ref_logits_apply _ _ _ _ _ _ _ _ _ _ _ _ _ _ i j]
    · rw [(h c).2.1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
      funext (j : Cert.KernelIdeal.S256x4096.Idx)
      obtain ⟨b, n, rfl⟩ : ∃ (b : Fin 256) (n : Fin 4096), j = ix2 b n := ⟨j 0, j 1, eq_ix2 j⟩
      exact Cert.ReferenceIdeal.RefCalc.ref_cell_apply _ _ _ _ _ _ _ _ _ _ _ _ b n
    · rw [(h c).2.2.1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
      funext (j : Cert.KernelIdeal.S256x4096.Idx)
      obtain ⟨b, n, rfl⟩ : ∃ (b : Fin 256) (n : Fin 4096), j = ix2 b n := ⟨j 0, j 1, eq_ix2 j⟩
      exact Cert.ReferenceIdeal.RefCalc.ref_hidden_apply _ _ _ _ _ _ _ _ _ _ _ _ b n

end Algebraic

/-- The certificate's claims, under the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
